-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S_ : Shape := ⟨0, ![]⟩

class Facts : Prop where
  bcast_S_S512x1x256x128 : S_.BroadcastsInDim S512x1x256x128 (![] : Fin 0 → Fin S512x1x256x128.rank)
  reducesTo_S512x1x256x128_S_d0_1_2_3 : S512x1x256x128.ReducesTo [0, 1, 2, 3] S_
  h_S_ : 0 < S_.numel
  bcast_S_S128x1x5x128 : S_.BroadcastsInDim S128x1x5x128 (![] : Fin 0 → Fin S128x1x5x128.rank)
  reducesTo_S128x1x5x128_S_d0_1_2_3 : S128x1x5x128.ReducesTo [0, 1, 2, 3] S_
  bcast_S_S128 : S_.BroadcastsInDim S128 (![] : Fin 0 → Fin S128.rank)
  reducesTo_S128_S_d0 : S128.ReducesTo [0] S_
  bcast_S_S16x8064 : S_.BroadcastsInDim S16x8064 (![] : Fin 0 → Fin S16x8064.rank)
  reducesTo_S16x8064_S_d0_1 : S16x8064.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8064 1) : IVec S_ 1 :=
  let main_c_5 : IVec S_ 1 := constantI S_ 1 1#1
  let main_v17 : IVec S_ 1 := (fun x v => Host.reduce IntOp.andi x v reducesTo_S16x8064_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S512x1x256x128 .f32) (main_arg1 : FVec F S128x1x5x128 .f32) (main_arg2 : FVec F S128 .f32) (main_arg3 : FVec F S16x8064 .f32) (main_arg4 : FVec F S16 .f32) : IVec S_ 1 :=
  let main_v0 : FVec F S512x1x256x128 .f32 := Host.absf main_arg0
  let main_cst : FVec F S_ .f32 := constant S_ .f32 0x7F800000#32
  let main_v1 : FVec F S512x1x256x128 .f32 := broadcastInDim S512x1x256x128 ![] bcast_S_S512x1x256x128 main_cst
  let main_v2 : IVec S512x1x256x128 1 := cmpf .olt main_v0 main_v1
  let main_c : IVec S_ 1 := constantI S_ 1 1#1
  let main_v3 : IVec S_ 1 := (fun x v => Host.reduce IntOp.andi x v reducesTo_S512x1x256x128_S_d0_1_2_3 h_S_) main_v2 main_c
  let main_v4 : FVec F S128x1x5x128 .f32 := Host.absf main_arg1
  let main_cst_0 : FVec F S_ .f32 := constant S_ .f32 0x7F800000#32
  let main_v5 : FVec F S128x1x5x128 .f32 := broadcastInDim S128x1x5x128 ![] bcast_S_S128x1x5x128 main_cst_0
  let main_v6 : IVec S128x1x5x128 1 := cmpf .olt main_v4 main_v5
  let main_c_1 : IVec S_ 1 := constantI S_ 1 1#1
  let main_v7 : IVec S_ 1 := (fun x v => Host.reduce IntOp.andi x v reducesTo_S128x1x5x128_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x8064 .f32 := Host.absf main_arg3
  let main_cst_4 : FVec F S_ .f32 := constant S_ .f32 0x7F800000#32
  let main_v15 : FVec F S16x8064 .f32 := broadcastInDim S16x8064 ![] bcast_S_S16x8064 main_cst_4
  let main_v16 : IVec S16x8064 1 := cmpf .olt main_v14 main_v15
  fn_part1 (F := F) main_arg4 main_v13 main_v16
-- ==== Kernel.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S128x5x128 : Shape := ⟨3, ![128, 5, 128]⟩
abbrev S5x128x128 : Shape := ⟨3, ![5, 128, 128]⟩
abbrev S_ : Shape := ⟨0, ![]⟩
abbrev S128x128 : Shape := ⟨2, ![128, 128]⟩
abbrev S1x128x128 : Shape := ⟨3, ![1, 128, 128]⟩
abbrev S128x256 : Shape := ⟨2, ![128, 256]⟩
abbrev S384x256 : Shape := ⟨2, ![384, 256]⟩
abbrev S1x128 : Shape := ⟨2, ![1, 128]⟩
abbrev S16x128x63 : Shape := ⟨3, ![16, 128, 63]⟩
abbrev S63x128x16 : Shape := ⟨3, ![63, 128, 16]⟩
abbrev S8064x16 : Shape := ⟨2, ![8064, 16]⟩
abbrev S1x16 : Shape := ⟨2, ![1, 16]⟩
abbrev S4x128x256x128 : Shape := ⟨4, ![4, 128, 256, 128]⟩
abbrev S4x256x128x128 : Shape := ⟨4, ![4, 256, 128, 128]⟩
abbrev S4x32768x128 : Shape := ⟨3, ![4, 32768, 128]⟩
abbrev S512x16 : Shape := ⟨2, ![512, 16]⟩
abbrev S1x32768x128 : Shape := ⟨3, ![1, 32768, 128]⟩
abbrev S128x16 : Shape := ⟨2, ![128, 16]⟩
abbrev S32768x128 : Shape := ⟨2, ![32768, 128]⟩
abbrev S32512x128 : Shape := ⟨2, ![32512, 128]⟩
abbrev S32512x384 : Shape := ⟨2, ![32512, 384]⟩
abbrev S32512x256 : Shape := ⟨2, ![32512, 256]⟩
abbrev S128x8064 : Shape := ⟨2, ![128, 8064]⟩

abbrev nBuf : Space → Nat
  | .hbm => 35
  | .vmem => 8
  | .smem => 0
  | _ => 0

abbrev bufTy : (tb : Table) → Fin (tcTables nBuf tb) → BufTy
  | .hbm, ⟨0, _⟩ => ⟨S512x1x256x128, .f32⟩
  | .hbm, ⟨1, _⟩ => ⟨S128x1x5x128, .f32⟩
  | .hbm, ⟨2, _⟩ => ⟨S128, .f32⟩
  | .hbm, ⟨3, _⟩ => ⟨S16x8064, .f32⟩
  | .hbm, ⟨4, _⟩ => ⟨S16, .f32⟩
  | .hbm, ⟨5, _⟩ => ⟨S128x5x128, .f32⟩
  | .hbm, ⟨6, _⟩ => ⟨S5x128x128, .f32⟩
  | .hbm, ⟨7, _⟩ => ⟨S5x128x128, .bf16⟩
  | .hbm, ⟨8, _⟩ => ⟨S_, .bf16⟩
  | .hbm, ⟨9, _⟩ => ⟨S128x128, .bf16⟩
  | .hbm, ⟨10, _⟩ => ⟨S1x128x128, .bf16⟩
  | .hbm, ⟨11, _⟩ => ⟨S128x128, .bf16⟩
  | .hbm, ⟨12, _⟩ => ⟨S1x128x128, .bf16⟩
  | .hbm, ⟨13, _⟩ => ⟨S128x128, .bf16⟩
  | .hbm, ⟨14, _⟩ => ⟨S128x256, .bf16⟩
  | .hbm, ⟨15, _⟩ => ⟨S1x128x128, .bf16⟩
  | .hbm, ⟨16, _⟩ => ⟨S128x128, .bf16⟩
  | .hbm, ⟨17, _⟩ => ⟨S1x128x128, .bf16⟩
  | .hbm, ⟨18, _⟩ => ⟨S128x128, .bf16⟩
  | .hbm, ⟨19, _⟩ => ⟨S128x256, .bf16⟩
  | .hbm, ⟨20, _⟩ => ⟨S1x128x128, .bf16⟩
  | .hbm, ⟨21, _⟩ => ⟨S128x128, .bf16⟩
  | .hbm, ⟨22, _⟩ => ⟨S128x256, .bf16⟩
  | .hbm, ⟨23, _⟩ => ⟨S384x256, .bf16⟩
  | .hbm, ⟨24, _⟩ => ⟨S1x128, .f32⟩
  | .hbm, ⟨25, _⟩ => ⟨S16x128x63, .f32⟩
  | .hbm, ⟨26, _⟩ => ⟨S63x128x16, .f32⟩
  | .hbm, ⟨27, _⟩ => ⟨S8064x16, .f32⟩
  | .hbm, ⟨28, _⟩ => ⟨S8064x16, .bf16⟩
  | .hbm, ⟨29, _⟩ => ⟨S1x16, .f32⟩
  | .hbm, ⟨30, _⟩ => ⟨S4x128x256x128, .f32⟩
  | .hbm, ⟨31, _⟩ => ⟨S4x256x128x128, .f32⟩
  | .hbm, ⟨32, _⟩ => ⟨S4x256x128x128, .bf16⟩
  | .hbm, ⟨33, _⟩ => ⟨S4x32768x128, .bf16⟩
  | .hbm, ⟨34, _⟩ => ⟨S512x16, .f32⟩
  | .local _ .vmem, ⟨0, _⟩ => ⟨S1x32768x128, .bf16⟩
  | .local _ .vmem, ⟨1, _⟩ => ⟨S1x32768x128, .bf16⟩
  | .local _ .vmem, ⟨2, _⟩ => ⟨S384x256, .bf16⟩
  | .local _ .vmem, ⟨3, _⟩ => ⟨S1x128, .f32⟩
  | .local _ .vmem, ⟨4, _⟩ => ⟨S8064x16, .bf16⟩
  | .local _ .vmem, ⟨5, _⟩ => ⟨S1x16, .f32⟩
  | .local _ .vmem, ⟨6, _⟩ => ⟨S128x16, .f32⟩
  | .local _ .vmem, ⟨7, _⟩ => ⟨S128x16, .f32⟩
  | _, _ => ⟨S512x1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8064x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x1x5x128_S128x5x128 : S128x1x5x128.ShapeCasts S128x5x128
  transposes_S128x5x128_S5x128x128_1_2_0 : S128x5x128.Transposes [1, 2, 0] S5x128x128
  bitsLt_bf16_f32 : FTy.bits .bf16 < FTy.bits .f32
  bcast_S_S128x128 : S_.BroadcastsInDim S128x128 (![] : Fin 0 → Fin S128x128.rank)
  slices_S5x128x128_S1x128x128_0_0_0 : S5x128x128.Slices ![0, 0, 0] S1x128x128
  shapeCasts_S1x128x128_S128x128 : S1x128x128.ShapeCasts S128x128
  slices_S5x128x128_S1x128x128_2_0_0 : S5x128x128.Slices ![2, 0, 0] S1x128x128
  concatenates_S128x128_S128x128_S128x256_d1 : Shape.Concatenates [S128x128, S128x128] S128x256 1
  slices_S5x128x128_S1x128x128_1_0_0 : S5x128x128.Slices ![1, 0, 0] S1x128x128
  slices_S5x128x128_S1x128x128_3_0_0 : S5x128x128.Slices ![3, 0, 0] S1x128x128
  slices_S5x128x128_S1x128x128_4_0_0 : S5x128x128.Slices ![4, 0, 0] S1x128x128
  concatenates_S128x256_S128x256_S128x256_S384x256_d0 : Shape.Concatenates [S128x256, S128x256, S128x256] S384x256 0
  shapeCasts_S128_S1x128 : S128.ShapeCasts S1x128
  shapeCasts_S16x8064_S16x128x63 : S16x8064.ShapeCasts S16x128x63
  transposes_S16x128x63_S63x128x16_2_1_0 : S16x128x63.Transposes [2, 1, 0] S63x128x16
  shapeCasts_S63x128x16_S8064x16 : S63x128x16.ShapeCasts S8064x16
  shapeCasts_S16_S1x16 : S16.ShapeCasts S1x16
  shapeCasts_S512x1x256x128_S4x128x256x128 : S512x1x256x128.ShapeCasts S4x128x256x128
  transposes_S4x128x256x128_S4x256x128x128_0_2_1_3 : S4x128x256x128.Transposes [0, 2, 1, 3] S4x256x128x128
  shapeCasts_S4x256x128x128_S4x32768x128 : S4x256x128x128.ShapeCasts S4x32768x128
  inb_S1x32768x128_S1x32768x128_0_0_0 : ∀ a, (![0, 0, 0] : Fin 3 → Nat) a + S1x32768x128.size a ≤ S1x32768x128.size a
  h_S1x32768x128 : 0 < S1x32768x128.numel
  shapeCasts_S1x32768x128_S32768x128 : S1x32768x128.ShapeCasts S32768x128
  slices_S32768x128_o0_0_S128x128 : S32768x128.Slices ![0, 0] S128x128
  inb_S384x256_S128x128_128_0 : ∀ a, (![128, 0] : Fin 2 → Nat) a + S128x128.size a ≤ S384x256.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S32768x128_o0_0_S32512x128 : S32768x128.Slices ![0, 0] S32512x128
  slices_S32768x128_o128_0_S32512x128 : S32768x128.Slices ![128, 0] S32512x128
  slices_S32768x128_o256_0_S32512x128 : S32768x128.Slices ![256, 0] S32512x128
  concatenates_S32512x128_S32512x128_S32512x128_S32512x384_d1 : Shape.Concatenates [S32512x128, S32512x128, S32512x128] S32512x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  slices_S32512x256_o128_128_S128x128 : S32512x256.Slices ![128, 128] S128x128
  slices_S32512x256_o256_128_S128x128 : S32512x256.Slices ![256, 128] S128x128
  slices_S32512x256_o0_0_S128x128 : S32512x256.Slices ![0, 0] S128x128
  slices_S32512x256_o384_128_S128x128 : S32512x256.Slices ![384, 128] S128x128
  slices_S32512x256_o128_0_S128x128 : S32512x256.Slices ![128, 0] S128x128
  slices_S32512x256_o512_128_S128x128 : S32512x256.Slices ![512, 128] S128x128
  slices_S32512x256_o256_0_S128x128 : S32512x256.Slices ![256, 0] S128x128
  broadcasts_S1x128_S128x128 : S1x128.Broadcasts S128x128
  slices_S32512x256_o640_128_S128x128 : S32512x256.Slices ![640, 128] S128x128
  slices_S32512x256_o384_0_S128x128 : S32512x256.Slices ![384, 0] S128x128
  slices_S32512x256_o768_128_S128x128 : S32512x256.Slices ![768, 128] S128x128
  slices_S32512x256_o512_0_S128x128 : S32512x256.Slices ![512, 0] S128x128
  slices_S32512x256_o896_128_S128x128 : S32512x256.Slices ![896, 128] S128x128
  slices_S32512x256_o640_0_S128x128 : S32512x256.Slices ![640, 0] S128x128
  slices_S32512x256_o1024_128_S128x128 : S32512x256.Slices ![1024, 128] S128x128
  slices_S32512x256_o768_0_S128x128 : S32512x256.Slices ![768, 0] S128x128
  slices_S32512x256_o1152_128_S128x128 : S32512x256.Slices ![1152, 128] S128x128
  slices_S32512x256_o896_0_S128x128 : S32512x256.Slices ![896, 0] S128x128
  slices_S32512x256_o1280_128_S128x128 : S32512x256.Slices ![1280, 128] S128x128
  slices_S32512x256_o1024_0_S128x128 : S32512x256.Slices ![1024, 0] S128x128
  slices_S32512x256_o1408_128_S128x128 : S32512x256.Slices ![1408, 128] S128x128
  slices_S32512x256_o1152_0_S128x128 : S32512x256.Slices ![1152, 0] S128x128
  slices_S32512x256_o1536_128_S128x128 : S32512x256.Slices ![1536, 128] S128x128
  slices_S32512x256_o1280_0_S128x128 : S32512x256.Slices ![1280, 0] S128x128
  slices_S32512x256_o1664_128_S128x128 : S32512x256.Slices ![1664, 128] S128x128
  slices_S32512x256_o1408_0_S128x128 : S32512x256.Slices ![1408, 0] S128x128
  slices_S32512x256_o1792_128_S128x128 : S32512x256.Slices ![1792, 128] S128x128
  slices_S32512x256_o1536_0_S128x128 : S32512x256.Slices ![1536, 0] S128x128
  slices_S32512x256_o1920_128_S128x128 : S32512x256.Slices ![1920, 128] S128x128
  slices_S32512x256_o1664_0_S128x128 : S32512x256.Slices ![1664, 0] S128x128
  slices_S32512x256_o2048_128_S128x128 : S32512x256.Slices ![2048, 128] S128x128
  slices_S32512x256_o1792_0_S128x128 : S32512x256.Slices ![1792, 0] S128x128
  slices_S32512x256_o2176_128_S128x128 : S32512x256.Slices ![2176, 128] S128x128
  slices_S32512x256_o1920_0_S128x128 : S32512x256.Slices ![1920, 0] S128x128
  slices_S32512x256_o2304_128_S128x128 : S32512x256.Slices ![2304, 128] S128x128
  slices_S32512x256_o2048_0_S128x128 : S32512x256.Slices ![2048, 0] S128x128
  slices_S32512x256_o2432_128_S128x128 : S32512x256.Slices ![2432, 128] S128x128
  slices_S32512x256_o2176_0_S128x128 : S32512x256.Slices ![2176, 0] S128x128
  slices_S32512x256_o2560_128_S128x128 : S32512x256.Slices ![2560, 128] S128x128
  slices_S32512x256_o2304_0_S128x128 : S32512x256.Slices ![2304, 0] S128x128
  slices_S32512x256_o2688_128_S128x128 : S32512x256.Slices ![2688, 128] S128x128
  slices_S32512x256_o2432_0_S128x128 : S32512x256.Slices ![2432, 0] S128x128
  slices_S32512x256_o2816_128_S128x128 : S32512x256.Slices ![2816, 128] S128x128
  slices_S32512x256_o2560_0_S128x128 : S32512x256.Slices ![2560, 0] S128x128
  slices_S32512x256_o2944_128_S128x128 : S32512x256.Slices ![2944, 128] S128x128
  slices_S32512x256_o2688_0_S128x128 : S32512x256.Slices ![2688, 0] S128x128
  slices_S32512x256_o3072_128_S128x128 : S32512x256.Slices ![3072, 128] S128x128
  slices_S32512x256_o2816_0_S128x128 : S32512x256.Slices ![2816, 0] S128x128
  slices_S32512x256_o3200_128_S128x128 : S32512x256.Slices ![3200, 128] S128x128
  slices_S32512x256_o2944_0_S128x128 : S32512x256.Slices ![2944, 0] S128x128
  slices_S32512x256_o3328_128_S128x128 : S32512x256.Slices ![3328, 128] S128x128
  slices_S32512x256_o3072_0_S128x128 : S32512x256.Slices ![3072, 0] S128x128
  slices_S32512x256_o3456_128_S128x128 : S32512x256.Slices ![3456, 128] S128x128
  slices_S32512x256_o3200_0_S128x128 : S32512x256.Slices ![3200, 0] S128x128
  slices_S32512x256_o3584_128_S128x128 : S32512x256.Slices ![3584, 128] S128x128
  slices_S32512x256_o3328_0_S128x128 : S32512x256.Slices ![3328, 0] S128x128
  slices_S32512x256_o3712_128_S128x128 : S32512x256.Slices ![3712, 128] S128x128
  slices_S32512x256_o3456_0_S128x128 : S32512x256.Slices ![3456, 0] S128x128
  slices_S32512x256_o3840_128_S128x128 : S32512x256.Slices ![3840, 128] S128x128
  slices_S32512x256_o3584_0_S128x128 : S32512x256.Slices ![3584, 0] S128x128
  slices_S32512x256_o3968_128_S128x128 : S32512x256.Slices ![3968, 128] S128x128
  slices_S32512x256_o3712_0_S128x128 : S32512x256.Slices ![3712, 0] S128x128
  slices_S32512x256_o4096_128_S128x128 : S32512x256.Slices ![4096, 128] S128x128
  slices_S32512x256_o3840_0_S128x128 : S32512x256.Slices ![3840, 0] S128x128
  slices_S32512x256_o4224_128_S128x128 : S32512x256.Slices ![4224, 128] S128x128
  slices_S32512x256_o3968_0_S128x128 : S32512x256.Slices ![3968, 0] S128x128
  slices_S32512x256_o4352_128_S128x128 : S32512x256.Slices ![4352, 128] S128x128
  slices_S32512x256_o4096_0_S128x128 : S32512x256.Slices ![4096, 0] S128x128
  slices_S32512x256_o4480_128_S128x128 : S32512x256.Slices ![4480, 128] S128x128
  slices_S32512x256_o4224_0_S128x128 : S32512x256.Slices ![4224, 0] S128x128
  slices_S32512x256_o4608_128_S128x128 : S32512x256.Slices ![4608, 128] S128x128
  slices_S32512x256_o4352_0_S128x128 : S32512x256.Slices ![4352, 0] S128x128
  slices_S32512x256_o4736_128_S128x128 : S32512x256.Slices ![4736, 128] S128x128
  slices_S32512x256_o4480_0_S128x128 : S32512x256.Slices ![4480, 0] S128x128
  slices_S32512x256_o4864_128_S128x128 : S32512x256.Slices ![4864, 128] S128x128
  slices_S32512x256_o4608_0_S128x128 : S32512x256.Slices ![4608, 0] S128x128
  slices_S32512x256_o4992_128_S128x128 : S32512x256.Slices ![4992, 128] S128x128
  slices_S32512x256_o4736_0_S128x128 : S32512x256.Slices ![4736, 0] S128x128
  slices_S32512x256_o5120_128_S128x128 : S32512x256.Slices ![5120, 128] S128x128
  slices_S32512x256_o4864_0_S128x128 : S32512x256.Slices ![4864, 0] S128x128
  slices_S32512x256_o5248_128_S128x128 : S32512x256.Slices ![5248, 128] S128x128
  slices_S32512x256_o4992_0_S128x128 : S32512x256.Slices ![4992, 0] S128x128
  slices_S32512x256_o5376_128_S128x128 : S32512x256.Slices ![5376, 128] S128x128
  slices_S32512x256_o5120_0_S128x128 : S32512x256.Slices ![5120, 0] S128x128
  slices_S32512x256_o5504_128_S128x128 : S32512x256.Slices ![5504, 128] S128x128
  slices_S32512x256_o5248_0_S128x128 : S32512x256.Slices ![5248, 0] S128x128
  slices_S32512x256_o5632_128_S128x128 : S32512x256.Slices ![5632, 128] S128x128
  slices_S32512x256_o5376_0_S128x128 : S32512x256.Slices ![5376, 0] S128x128
  slices_S32512x256_o5760_128_S128x128 : S32512x256.Slices ![5760, 128] S128x128
  slices_S32512x256_o5504_0_S128x128 : S32512x256.Slices ![5504, 0] S128x128
  slices_S32512x256_o5888_128_S128x128 : S32512x256.Slices ![5888, 128] S128x128
  slices_S32512x256_o5632_0_S128x128 : S32512x256.Slices ![5632, 0] S128x128
  slices_S32512x256_o6016_128_S128x128 : S32512x256.Slices ![6016, 128] S128x128
  slices_S32512x256_o5760_0_S128x128 : S32512x256.Slices ![5760, 0] S128x128
  slices_S32512x256_o6144_128_S128x128 : S32512x256.Slices ![6144, 128] S128x128
  slices_S32512x256_o5888_0_S128x128 : S32512x256.Slices ![5888, 0] S128x128
  slices_S32512x256_o6272_128_S128x128 : S32512x256.Slices ![6272, 128] S128x128
  slices_S32512x256_o6016_0_S128x128 : S32512x256.Slices ![6016, 0] S128x128
  slices_S32512x256_o6400_128_S128x128 : S32512x256.Slices ![6400, 128] S128x128
  slices_S32512x256_o6144_0_S128x128 : S32512x256.Slices ![6144, 0] S128x128
  slices_S32512x256_o6528_128_S128x128 : S32512x256.Slices ![6528, 128] S128x128
  slices_S32512x256_o6272_0_S128x128 : S32512x256.Slices ![6272, 0] S128x128
  slices_S32512x256_o6656_128_S128x128 : S32512x256.Slices ![6656, 128] S128x128
  slices_S32512x256_o6400_0_S128x128 : S32512x256.Slices ![6400, 0] S128x128
  slices_S32512x256_o6784_128_S128x128 : S32512x256.Slices ![6784, 128] S128x128
  slices_S32512x256_o6528_0_S128x128 : S32512x256.Slices ![6528, 0] S128x128
  slices_S32512x256_o6912_128_S128x128 : S32512x256.Slices ![6912, 128] S128x128
  slices_S32512x256_o6656_0_S128x128 : S32512x256.Slices ![6656, 0] S128x128
  slices_S32512x256_o7040_128_S128x128 : S32512x256.Slices ![7040, 128] S128x128
  slices_S32512x256_o6784_0_S128x128 : S32512x256.Slices ![6784, 0] S128x128
  slices_S32512x256_o7168_128_S128x128 : S32512x256.Slices ![7168, 128] S128x128
  slices_S32512x256_o6912_0_S128x128 : S32512x256.Slices ![6912, 0] S128x128
  slices_S32512x256_o7296_128_S128x128 : S32512x256.Slices ![7296, 128] S128x128
  slices_S32512x256_o7040_0_S128x128 : S32512x256.Slices ![7040, 0] S128x128
  slices_S32512x256_o7424_128_S128x128 : S32512x256.Slices ![7424, 128] S128x128
  slices_S32512x256_o7168_0_S128x128 : S32512x256.Slices ![7168, 0] S128x128
  slices_S32512x256_o7552_128_S128x128 : S32512x256.Slices ![7552, 128] S128x128
  slices_S32512x256_o7296_0_S128x128 : S32512x256.Slices ![7296, 0] S128x128
  slices_S32512x256_o7680_128_S128x128 : S32512x256.Slices ![7680, 128] S128x128
  slices_S32512x256_o7424_0_S128x128 : S32512x256.Slices ![7424, 0] S128x128
  slices_S32512x256_o7808_128_S128x128 : S32512x256.Slices ![7808, 128] S128x128
  slices_S32512x256_o7552_0_S128x128 : S32512x256.Slices ![7552, 0] S128x128
  slices_S32512x256_o7936_128_S128x128 : S32512x256.Slices ![7936, 128] S128x128
  slices_S32512x256_o7680_0_S128x128 : S32512x256.Slices ![7680, 0] S128x128
  slices_S32512x256_o8064_128_S128x128 : S32512x256.Slices ![8064, 128] S128x128
  slices_S32512x256_o7808_0_S128x128 : S32512x256.Slices ![7808, 0] S128x128
  slices_S32512x256_o8192_128_S128x128 : S32512x256.Slices ![8192, 128] S128x128
  slices_S32512x256_o7936_0_S128x128 : S32512x256.Slices ![7936, 0] S128x128
  slices_S32512x256_o8320_128_S128x128 : S32512x256.Slices ![8320, 128] S128x128
  slices_S32512x256_o8064_0_S128x128 : S32512x256.Slices ![8064, 0] S128x128
  slices_S32512x256_o8448_128_S128x128 : S32512x256.Slices ![8448, 128] S128x128
  slices_S32512x256_o8192_0_S128x128 : S32512x256.Slices ![8192, 0] S128x128
  slices_S32512x256_o8576_128_S128x128 : S32512x256.Slices ![8576, 128] S128x128
  slices_S32512x256_o8320_0_S128x128 : S32512x256.Slices ![8320, 0] S128x128
  slices_S32512x256_o8704_128_S128x128 : S32512x256.Slices ![8704, 128] S128x128
  slices_S32512x256_o8448_0_S128x128 : S32512x256.Slices ![8448, 0] S128x128
  slices_S32512x256_o8832_128_S128x128 : S32512x256.Slices ![8832, 128] S128x128
  slices_S32512x256_o8576_0_S128x128 : S32512x256.Slices ![8576, 0] S128x128
  slices_S32512x256_o8960_128_S128x128 : S32512x256.Slices ![8960, 128] S128x128
  slices_S32512x256_o8704_0_S128x128 : S32512x256.Slices ![8704, 0] S128x128
  slices_S32512x256_o9088_128_S128x128 : S32512x256.Slices ![9088, 128] S128x128
  slices_S32512x256_o8832_0_S128x128 : S32512x256.Slices ![8832, 0] S128x128
  slices_S32512x256_o9216_128_S128x128 : S32512x256.Slices ![9216, 128] S128x128
  slices_S32512x256_o8960_0_S128x128 : S32512x256.Slices ![8960, 0] S128x128
  slices_S32512x256_o9344_128_S128x128 : S32512x256.Slices ![9344, 128] S128x128
  slices_S32512x256_o9088_0_S128x128 : S32512x256.Slices ![9088, 0] S128x128
  slices_S32512x256_o9472_128_S128x128 : S32512x256.Slices ![9472, 128] S128x128
  slices_S32512x256_o9216_0_S128x128 : S32512x256.Slices ![9216, 0] S128x128
  slices_S32512x256_o9600_128_S128x128 : S32512x256.Slices ![9600, 128] S128x128
  slices_S32512x256_o9344_0_S128x128 : S32512x256.Slices ![9344, 0] S128x128
  slices_S32512x256_o9728_128_S128x128 : S32512x256.Slices ![9728, 128] S128x128
  slices_S32512x256_o9472_0_S128x128 : S32512x256.Slices ![9472, 0] S128x128
  slices_S32512x256_o9856_128_S128x128 : S32512x256.Slices ![9856, 128] S128x128
  slices_S32512x256_o9600_0_S128x128 : S32512x256.Slices ![9600, 0] S128x128
  slices_S32512x256_o9984_128_S128x128 : S32512x256.Slices ![9984, 128] S128x128
  slices_S32512x256_o9728_0_S128x128 : S32512x256.Slices ![9728, 0] S128x128
  slices_S32512x256_o10112_128_S128x128 : S32512x256.Slices ![10112, 128] S128x128
  slices_S32512x256_o9856_0_S128x128 : S32512x256.Slices ![9856, 0] S128x128
  slices_S32512x256_o10240_128_S128x128 : S32512x256.Slices ![10240, 128] S128x128
  slices_S32512x256_o9984_0_S128x128 : S32512x256.Slices ![9984, 0] S128x128
  slices_S32512x256_o10368_128_S128x128 : S32512x256.Slices ![10368, 128] S128x128
  slices_S32512x256_o10112_0_S128x128 : S32512x256.Slices ![10112, 0] S128x128
  slices_S32512x256_o10496_128_S128x128 : S32512x256.Slices ![10496, 128] S128x128
  slices_S32512x256_o10240_0_S128x128 : S32512x256.Slices ![10240, 0] S128x128
  slices_S32512x256_o10624_128_S128x128 : S32512x256.Slices ![10624, 128] S128x128
  slices_S32512x256_o10368_0_S128x128 : S32512x256.Slices ![10368, 0] S128x128
  slices_S32512x256_o10752_128_S128x128 : S32512x256.Slices ![10752, 128] S128x128
  slices_S32512x256_o10496_0_S128x128 : S32512x256.Slices ![10496, 0] S128x128
  slices_S32512x256_o10880_128_S128x128 : S32512x256.Slices ![10880, 128] S128x128
  slices_S32512x256_o10624_0_S128x128 : S32512x256.Slices ![10624, 0] S128x128
  slices_S32512x256_o11008_128_S128x128 : S32512x256.Slices ![11008, 128] S128x128
  slices_S32512x256_o10752_0_S128x128 : S32512x256.Slices ![10752, 0] S128x128
  slices_S32512x256_o11136_128_S128x128 : S32512x256.Slices ![11136, 128] S128x128
  slices_S32512x256_o10880_0_S128x128 : S32512x256.Slices ![10880, 0] S128x128
  slices_S32512x256_o11264_128_S128x128 : S32512x256.Slices ![11264, 128] S128x128
  slices_S32512x256_o11008_0_S128x128 : S32512x256.Slices ![11008, 0] S128x128
  slices_S32512x256_o11392_128_S128x128 : S32512x256.Slices ![11392, 128] S128x128
  slices_S32512x256_o11136_0_S128x128 : S32512x256.Slices ![11136, 0] S128x128
  slices_S32512x256_o11520_128_S128x128 : S32512x256.Slices ![11520, 128] S128x128
  slices_S32512x256_o11264_0_S128x128 : S32512x256.Slices ![11264, 0] S128x128
  slices_S32512x256_o11648_128_S128x128 : S32512x256.Slices ![11648, 128] S128x128
  slices_S32512x256_o11392_0_S128x128 : S32512x256.Slices ![11392, 0] S128x128
  slices_S32512x256_o11776_128_S128x128 : S32512x256.Slices ![11776, 128] S128x128
  slices_S32512x256_o11520_0_S128x128 : S32512x256.Slices ![11520, 0] S128x128
  slices_S32512x256_o11904_128_S128x128 : S32512x256.Slices ![11904, 128] S128x128
  slices_S32512x256_o11648_0_S128x128 : S32512x256.Slices ![11648, 0] S128x128
  slices_S32512x256_o12032_128_S128x128 : S32512x256.Slices ![12032, 128] S128x128
  slices_S32512x256_o11776_0_S128x128 : S32512x256.Slices ![11776, 0] S128x128
  slices_S32512x256_o12160_128_S128x128 : S32512x256.Slices ![12160, 128] S128x128
  slices_S32512x256_o11904_0_S128x128 : S32512x256.Slices ![11904, 0] S128x128
  slices_S32512x256_o12288_128_S128x128 : S32512x256.Slices ![12288, 128] S128x128
  slices_S32512x256_o12032_0_S128x128 : S32512x256.Slices ![12032, 0] S128x128
  slices_S32512x256_o12416_128_S128x128 : S32512x256.Slices ![12416, 128] S128x128
  slices_S32512x256_o12160_0_S128x128 : S32512x256.Slices ![12160, 0] S128x128
  slices_S32512x256_o12544_128_S128x128 : S32512x256.Slices ![12544, 128] S128x128
  slices_S32512x256_o12288_0_S128x128 : S32512x256.Slices ![12288, 0] S128x128
  slices_S32512x256_o12672_128_S128x128 : S32512x256.Slices ![12672, 128] S128x128
  slices_S32512x256_o12416_0_S128x128 : S32512x256.Slices ![12416, 0] S128x128
  slices_S32512x256_o12800_128_S128x128 : S32512x256.Slices ![12800, 128] S128x128
  slices_S32512x256_o12544_0_S128x128 : S32512x256.Slices ![12544, 0] S128x128
  slices_S32512x256_o12928_128_S128x128 : S32512x256.Slices ![12928, 128] S128x128
  slices_S32512x256_o12672_0_S128x128 : S32512x256.Slices ![12672, 0] S128x128
  slices_S32512x256_o13056_128_S128x128 : S32512x256.Slices ![13056, 128] S128x128
  slices_S32512x256_o12800_0_S128x128 : S32512x256.Slices ![12800, 0] S128x128
  slices_S32512x256_o13184_128_S128x128 : S32512x256.Slices ![13184, 128] S128x128
  slices_S32512x256_o12928_0_S128x128 : S32512x256.Slices ![12928, 0] S128x128
  slices_S32512x256_o13312_128_S128x128 : S32512x256.Slices ![13312, 128] S128x128
  slices_S32512x256_o13056_0_S128x128 : S32512x256.Slices ![13056, 0] S128x128
  slices_S32512x256_o13440_128_S128x128 : S32512x256.Slices ![13440, 128] S128x128
  slices_S32512x256_o13184_0_S128x128 : S32512x256.Slices ![13184, 0] S128x128
  slices_S32512x256_o13568_128_S128x128 : S32512x256.Slices ![13568, 128] S128x128
  slices_S32512x256_o13312_0_S128x128 : S32512x256.Slices ![13312, 0] S128x128
  slices_S32512x256_o13696_128_S128x128 : S32512x256.Slices ![13696, 128] S128x128
  slices_S32512x256_o13440_0_S128x128 : S32512x256.Slices ![13440, 0] S128x128
  slices_S32512x256_o13824_128_S128x128 : S32512x256.Slices ![13824, 128] S128x128
  slices_S32512x256_o13568_0_S128x128 : S32512x256.Slices ![13568, 0] S128x128
  slices_S32512x256_o13952_128_S128x128 : S32512x256.Slices ![13952, 128] S128x128
  slices_S32512x256_o13696_0_S128x128 : S32512x256.Slices ![13696, 0] S128x128
  slices_S32512x256_o14080_128_S128x128 : S32512x256.Slices ![14080, 128] S128x128
  slices_S32512x256_o13824_0_S128x128 : S32512x256.Slices ![13824, 0] S128x128
  slices_S32512x256_o14208_128_S128x128 : S32512x256.Slices ![14208, 128] S128x128
  slices_S32512x256_o13952_0_S128x128 : S32512x256.Slices ![13952, 0] S128x128
  slices_S32512x256_o14336_128_S128x128 : S32512x256.Slices ![14336, 128] S128x128
  slices_S32512x256_o14080_0_S128x128 : S32512x256.Slices ![14080, 0] S128x128
  slices_S32512x256_o14464_128_S128x128 : S32512x256.Slices ![14464, 128] S128x128
  slices_S32512x256_o14208_0_S128x128 : S32512x256.Slices ![14208, 0] S128x128
  slices_S32512x256_o14592_128_S128x128 : S32512x256.Slices ![14592, 128] S128x128
  slices_S32512x256_o14336_0_S128x128 : S32512x256.Slices ![14336, 0] S128x128
  slices_S32512x256_o14720_128_S128x128 : S32512x256.Slices ![14720, 128] S128x128
  slices_S32512x256_o14464_0_S128x128 : S32512x256.Slices ![14464, 0] S128x128
  slices_S32512x256_o14848_128_S128x128 : S32512x256.Slices ![14848, 128] S128x128
  slices_S32512x256_o14592_0_S128x128 : S32512x256.Slices ![14592, 0] S128x128
  slices_S32512x256_o14976_128_S128x128 : S32512x256.Slices ![14976, 128] S128x128
  slices_S32512x256_o14720_0_S128x128 : S32512x256.Slices ![14720, 0] S128x128
  slices_S32512x256_o15104_128_S128x128 : S32512x256.Slices ![15104, 128] S128x128
  slices_S32512x256_o14848_0_S128x128 : S32512x256.Slices ![14848, 0] S128x128
  slices_S32512x256_o15232_128_S128x128 : S32512x256.Slices ![15232, 128] S128x128
  slices_S32512x256_o14976_0_S128x128 : S32512x256.Slices ![14976, 0] S128x128
  slices_S32512x256_o15360_128_S128x128 : S32512x256.Slices ![15360, 128] S128x128
  slices_S32512x256_o15104_0_S128x128 : S32512x256.Slices ![15104, 0] S128x128
  slices_S32512x256_o15488_128_S128x128 : S32512x256.Slices ![15488, 128] S128x128
  slices_S32512x256_o15232_0_S128x128 : S32512x256.Slices ![15232, 0] S128x128
  slices_S32512x256_o15616_128_S128x128 : S32512x256.Slices ![15616, 128] S128x128
  slices_S32512x256_o15360_0_S128x128 : S32512x256.Slices ![15360, 0] S128x128
  slices_S32512x256_o15744_128_S128x128 : S32512x256.Slices ![15744, 128] S128x128
  slices_S32512x256_o15488_0_S128x128 : S32512x256.Slices ![15488, 0] S128x128
  slices_S32512x256_o15872_128_S128x128 : S32512x256.Slices ![15872, 128] S128x128
  slices_S32512x256_o15616_0_S128x128 : S32512x256.Slices ![15616, 0] S128x128
  slices_S32512x256_o16000_128_S128x128 : S32512x256.Slices ![16000, 128] S128x128
  slices_S32512x256_o15744_0_S128x128 : S32512x256.Slices ![15744, 0] S128x128
  slices_S32512x256_o16128_128_S128x128 : S32512x256.Slices ![16128, 128] S128x128
  slices_S32512x256_o15872_0_S128x128 : S32512x256.Slices ![15872, 0] S128x128
  slices_S32512x256_o16256_128_S128x128 : S32512x256.Slices ![16256, 128] S128x128
  slices_S32512x256_o16000_0_S128x128 : S32512x256.Slices ![16000, 0] S128x128
  slices_S32512x256_o16384_128_S128x128 : S32512x256.Slices ![16384, 128] S128x128
  slices_S32512x256_o16128_0_S128x128 : S32512x256.Slices ![16128, 0] S128x128
  slices_S32512x256_o16512_128_S128x128 : S32512x256.Slices ![16512, 128] S128x128
  slices_S32512x256_o16256_0_S128x128 : S32512x256.Slices ![16256, 0] S128x128
  slices_S32512x256_o16640_128_S128x128 : S32512x256.Slices ![16640, 128] S128x128
  slices_S32512x256_o16384_0_S128x128 : S32512x256.Slices ![16384, 0] S128x128
  slices_S32512x256_o16768_128_S128x128 : S32512x256.Slices ![16768, 128] S128x128
  slices_S32512x256_o16512_0_S128x128 : S32512x256.Slices ![16512, 0] S128x128
  slices_S32512x256_o16896_128_S128x128 : S32512x256.Slices ![16896, 128] S128x128
  slices_S32512x256_o16640_0_S128x128 : S32512x256.Slices ![16640, 0] S128x128
  slices_S32512x256_o17024_128_S128x128 : S32512x256.Slices ![17024, 128] S128x128
  slices_S32512x256_o16768_0_S128x128 : S32512x256.Slices ![16768, 0] S128x128
  slices_S32512x256_o17152_128_S128x128 : S32512x256.Slices ![17152, 128] S128x128
  slices_S32512x256_o16896_0_S128x128 : S32512x256.Slices ![16896, 0] S128x128
  slices_S32512x256_o17280_128_S128x128 : S32512x256.Slices ![17280, 128] S128x128
  slices_S32512x256_o17024_0_S128x128 : S32512x256.Slices ![17024, 0] S128x128
  slices_S32512x256_o17408_128_S128x128 : S32512x256.Slices ![17408, 128] S128x128
  slices_S32512x256_o17152_0_S128x128 : S32512x256.Slices ![17152, 0] S128x128
  slices_S32512x256_o17536_128_S128x128 : S32512x256.Slices ![17536, 128] S128x128
  slices_S32512x256_o17280_0_S128x128 : S32512x256.Slices ![17280, 0] S128x128
  slices_S32512x256_o17664_128_S128x128 : S32512x256.Slices ![17664, 128] S128x128
  slices_S32512x256_o17408_0_S128x128 : S32512x256.Slices ![17408, 0] S128x128
  slices_S32512x256_o17792_128_S128x128 : S32512x256.Slices ![17792, 128] S128x128
  slices_S32512x256_o17536_0_S128x128 : S32512x256.Slices ![17536, 0] S128x128
  slices_S32512x256_o17920_128_S128x128 : S32512x256.Slices ![17920, 128] S128x128
  slices_S32512x256_o17664_0_S128x128 : S32512x256.Slices ![17664, 0] S128x128
  slices_S32512x256_o18048_128_S128x128 : S32512x256.Slices ![18048, 128] S128x128
  slices_S32512x256_o17792_0_S128x128 : S32512x256.Slices ![17792, 0] S128x128
  slices_S32512x256_o18176_128_S128x128 : S32512x256.Slices ![18176, 128] S128x128
  slices_S32512x256_o17920_0_S128x128 : S32512x256.Slices ![17920, 0] S128x128
  slices_S32512x256_o18304_128_S128x128 : S32512x256.Slices ![18304, 128] S128x128
  slices_S32512x256_o18048_0_S128x128 : S32512x256.Slices ![18048, 0] S128x128
  slices_S32512x256_o18432_128_S128x128 : S32512x256.Slices ![18432, 128] S128x128
  slices_S32512x256_o18176_0_S128x128 : S32512x256.Slices ![18176, 0] S128x128
  slices_S32512x256_o18560_128_S128x128 : S32512x256.Slices ![18560, 128] S128x128
  slices_S32512x256_o18304_0_S128x128 : S32512x256.Slices ![18304, 0] S128x128
  slices_S32512x256_o18688_128_S128x128 : S32512x256.Slices ![18688, 128] S128x128
  slices_S32512x256_o18432_0_S128x128 : S32512x256.Slices ![18432, 0] S128x128
  slices_S32512x256_o18816_128_S128x128 : S32512x256.Slices ![18816, 128] S128x128
  slices_S32512x256_o18560_0_S128x128 : S32512x256.Slices ![18560, 0] S128x128
  slices_S32512x256_o18944_128_S128x128 : S32512x256.Slices ![18944, 128] S128x128
  slices_S32512x256_o18688_0_S128x128 : S32512x256.Slices ![18688, 0] S128x128
  slices_S32512x256_o19072_128_S128x128 : S32512x256.Slices ![19072, 128] S128x128
  slices_S32512x256_o18816_0_S128x128 : S32512x256.Slices ![18816, 0] S128x128
  slices_S32512x256_o19200_128_S128x128 : S32512x256.Slices ![19200, 128] S128x128
  slices_S32512x256_o18944_0_S128x128 : S32512x256.Slices ![18944, 0] S128x128
  slices_S32512x256_o19328_128_S128x128 : S32512x256.Slices ![19328, 128] S128x128
  slices_S32512x256_o19072_0_S128x128 : S32512x256.Slices ![19072, 0] S128x128
  slices_S32512x256_o19456_128_S128x128 : S32512x256.Slices ![19456, 128] S128x128
  slices_S32512x256_o19200_0_S128x128 : S32512x256.Slices ![19200, 0] S128x128
  slices_S32512x256_o19584_128_S128x128 : S32512x256.Slices ![19584, 128] S128x128
  slices_S32512x256_o19328_0_S128x128 : S32512x256.Slices ![19328, 0] S128x128
  slices_S32512x256_o19712_128_S128x128 : S32512x256.Slices ![19712, 128] S128x128
  slices_S32512x256_o19456_0_S128x128 : S32512x256.Slices ![19456, 0] S128x128
  slices_S32512x256_o19840_128_S128x128 : S32512x256.Slices ![19840, 128] S128x128
  slices_S32512x256_o19584_0_S128x128 : S32512x256.Slices ![19584, 0] S128x128
  slices_S32512x256_o19968_128_S128x128 : S32512x256.Slices ![19968, 128] S128x128
  slices_S32512x256_o19712_0_S128x128 : S32512x256.Slices ![19712, 0] S128x128
  slices_S32512x256_o20096_128_S128x128 : S32512x256.Slices ![20096, 128] S128x128
  slices_S32512x256_o19840_0_S128x128 : S32512x256.Slices ![19840, 0] S128x128
  slices_S32512x256_o20224_128_S128x128 : S32512x256.Slices ![20224, 128] S128x128
  slices_S32512x256_o19968_0_S128x128 : S32512x256.Slices ![19968, 0] S128x128
  slices_S32512x256_o20352_128_S128x128 : S32512x256.Slices ![20352, 128] S128x128
  slices_S32512x256_o20096_0_S128x128 : S32512x256.Slices ![20096, 0] S128x128
  slices_S32512x256_o20480_128_S128x128 : S32512x256.Slices ![20480, 128] S128x128
  slices_S32512x256_o20224_0_S128x128 : S32512x256.Slices ![20224, 0] S128x128
  slices_S32512x256_o20608_128_S128x128 : S32512x256.Slices ![20608, 128] S128x128
  slices_S32512x256_o20352_0_S128x128 : S32512x256.Slices ![20352, 0] S128x128
  slices_S32512x256_o20736_128_S128x128 : S32512x256.Slices ![20736, 128] S128x128
  slices_S32512x256_o20480_0_S128x128 : S32512x256.Slices ![20480, 0] S128x128
  slices_S32512x256_o20864_128_S128x128 : S32512x256.Slices ![20864, 128] S128x128
  slices_S32512x256_o20608_0_S128x128 : S32512x256.Slices ![20608, 0] S128x128
  slices_S32512x256_o20992_128_S128x128 : S32512x256.Slices ![20992, 128] S128x128
  slices_S32512x256_o20736_0_S128x128 : S32512x256.Slices ![20736, 0] S128x128
  slices_S32512x256_o21120_128_S128x128 : S32512x256.Slices ![21120, 128] S128x128
  slices_S32512x256_o20864_0_S128x128 : S32512x256.Slices ![20864, 0] S128x128
  slices_S32512x256_o21248_128_S128x128 : S32512x256.Slices ![21248, 128] S128x128
  slices_S32512x256_o20992_0_S128x128 : S32512x256.Slices ![20992, 0] S128x128
  slices_S32512x256_o21376_128_S128x128 : S32512x256.Slices ![21376, 128] S128x128
  slices_S32512x256_o21120_0_S128x128 : S32512x256.Slices ![21120, 0] S128x128
  slices_S32512x256_o21504_128_S128x128 : S32512x256.Slices ![21504, 128] S128x128
  slices_S32512x256_o21248_0_S128x128 : S32512x256.Slices ![21248, 0] S128x128
  slices_S32512x256_o21632_128_S128x128 : S32512x256.Slices ![21632, 128] S128x128
  slices_S32512x256_o21376_0_S128x128 : S32512x256.Slices ![21376, 0] S128x128
  slices_S32512x256_o21760_128_S128x128 : S32512x256.Slices ![21760, 128] S128x128
  slices_S32512x256_o21504_0_S128x128 : S32512x256.Slices ![21504, 0] S128x128
  slices_S32512x256_o21888_128_S128x128 : S32512x256.Slices ![21888, 128] S128x128
  slices_S32512x256_o21632_0_S128x128 : S32512x256.Slices ![21632, 0] S128x128
  slices_S32512x256_o22016_128_S128x128 : S32512x256.Slices ![22016, 128] S128x128
  slices_S32512x256_o21760_0_S128x128 : S32512x256.Slices ![21760, 0] S128x128
  slices_S32512x256_o22144_128_S128x128 : S32512x256.Slices ![22144, 128] S128x128
  slices_S32512x256_o21888_0_S128x128 : S32512x256.Slices ![21888, 0] S128x128
  slices_S32512x256_o22272_128_S128x128 : S32512x256.Slices ![22272, 128] S128x128
  slices_S32512x256_o22016_0_S128x128 : S32512x256.Slices ![22016, 0] S128x128
  slices_S32512x256_o22400_128_S128x128 : S32512x256.Slices ![22400, 128] S128x128
  slices_S32512x256_o22144_0_S128x128 : S32512x256.Slices ![22144, 0] S128x128
  slices_S32512x256_o22528_128_S128x128 : S32512x256.Slices ![22528, 128] S128x128
  slices_S32512x256_o22272_0_S128x128 : S32512x256.Slices ![22272, 0] S128x128
  slices_S32512x256_o22656_128_S128x128 : S32512x256.Slices ![22656, 128] S128x128
  slices_S32512x256_o22400_0_S128x128 : S32512x256.Slices ![22400, 0] S128x128
  slices_S32512x256_o22784_128_S128x128 : S32512x256.Slices ![22784, 128] S128x128
  slices_S32512x256_o22528_0_S128x128 : S32512x256.Slices ![22528, 0] S128x128
  slices_S32512x256_o22912_128_S128x128 : S32512x256.Slices ![22912, 128] S128x128
  slices_S32512x256_o22656_0_S128x128 : S32512x256.Slices ![22656, 0] S128x128
  slices_S32512x256_o23040_128_S128x128 : S32512x256.Slices ![23040, 128] S128x128
  slices_S32512x256_o22784_0_S128x128 : S32512x256.Slices ![22784, 0] S128x128
  slices_S32512x256_o23168_128_S128x128 : S32512x256.Slices ![23168, 128] S128x128
  slices_S32512x256_o22912_0_S128x128 : S32512x256.Slices ![22912, 0] S128x128
  slices_S32512x256_o23296_128_S128x128 : S32512x256.Slices ![23296, 128] S128x128
  slices_S32512x256_o23040_0_S128x128 : S32512x256.Slices ![23040, 0] S128x128
  slices_S32512x256_o23424_128_S128x128 : S32512x256.Slices ![23424, 128] S128x128
  slices_S32512x256_o23168_0_S128x128 : S32512x256.Slices ![23168, 0] S128x128
  slices_S32512x256_o23552_128_S128x128 : S32512x256.Slices ![23552, 128] S128x128
  slices_S32512x256_o23296_0_S128x128 : S32512x256.Slices ![23296, 0] S128x128
  slices_S32512x256_o23680_128_S128x128 : S32512x256.Slices ![23680, 128] S128x128
  slices_S32512x256_o23424_0_S128x128 : S32512x256.Slices ![23424, 0] S128x128
  slices_S32512x256_o23808_128_S128x128 : S32512x256.Slices ![23808, 128] S128x128
  slices_S32512x256_o23552_0_S128x128 : S32512x256.Slices ![23552, 0] S128x128
  slices_S32512x256_o23936_128_S128x128 : S32512x256.Slices ![23936, 128] S128x128
  slices_S32512x256_o23680_0_S128x128 : S32512x256.Slices ![23680, 0] S128x128
  slices_S32512x256_o24064_128_S128x128 : S32512x256.Slices ![24064, 128] S128x128
  slices_S32512x256_o23808_0_S128x128 : S32512x256.Slices ![23808, 0] S128x128
  slices_S32512x256_o24192_128_S128x128 : S32512x256.Slices ![24192, 128] S128x128
  slices_S32512x256_o23936_0_S128x128 : S32512x256.Slices ![23936, 0] S128x128
  slices_S32512x256_o24320_128_S128x128 : S32512x256.Slices ![24320, 128] S128x128
  slices_S32512x256_o24064_0_S128x128 : S32512x256.Slices ![24064, 0] S128x128
  slices_S32512x256_o24448_128_S128x128 : S32512x256.Slices ![24448, 128] S128x128
  slices_S32512x256_o24192_0_S128x128 : S32512x256.Slices ![24192, 0] S128x128
  slices_S32512x256_o24576_128_S128x128 : S32512x256.Slices ![24576, 128] S128x128
  slices_S32512x256_o24320_0_S128x128 : S32512x256.Slices ![24320, 0] S128x128
  slices_S32512x256_o24704_128_S128x128 : S32512x256.Slices ![24704, 128] S128x128
  slices_S32512x256_o24448_0_S128x128 : S32512x256.Slices ![24448, 0] S128x128
  slices_S32512x256_o24832_128_S128x128 : S32512x256.Slices ![24832, 128] S128x128
  slices_S32512x256_o24576_0_S128x128 : S32512x256.Slices ![24576, 0] S128x128
  slices_S32512x256_o24960_128_S128x128 : S32512x256.Slices ![24960, 128] S128x128
  slices_S32512x256_o24704_0_S128x128 : S32512x256.Slices ![24704, 0] S128x128
  slices_S32512x256_o25088_128_S128x128 : S32512x256.Slices ![25088, 128] S128x128
  slices_S32512x256_o24832_0_S128x128 : S32512x256.Slices ![24832, 0] S128x128
  slices_S32512x256_o25216_128_S128x128 : S32512x256.Slices ![25216, 128] S128x128
  slices_S32512x256_o24960_0_S128x128 : S32512x256.Slices ![24960, 0] S128x128
  slices_S32512x256_o25344_128_S128x128 : S32512x256.Slices ![25344, 128] S128x128
  slices_S32512x256_o25088_0_S128x128 : S32512x256.Slices ![25088, 0] S128x128
  slices_S32512x256_o25472_128_S128x128 : S32512x256.Slices ![25472, 128] S128x128
  slices_S32512x256_o25216_0_S128x128 : S32512x256.Slices ![25216, 0] S128x128
  slices_S32512x256_o25600_128_S128x128 : S32512x256.Slices ![25600, 128] S128x128
  slices_S32512x256_o25344_0_S128x128 : S32512x256.Slices ![25344, 0] S128x128
  slices_S32512x256_o25728_128_S128x128 : S32512x256.Slices ![25728, 128] S128x128
  slices_S32512x256_o25472_0_S128x128 : S32512x256.Slices ![25472, 0] S128x128
  slices_S32512x256_o25856_128_S128x128 : S32512x256.Slices ![25856, 128] S128x128
  slices_S32512x256_o25600_0_S128x128 : S32512x256.Slices ![25600, 0] S128x128
  slices_S32512x256_o25984_128_S128x128 : S32512x256.Slices ![25984, 128] S128x128
  slices_S32512x256_o25728_0_S128x128 : S32512x256.Slices ![25728, 0] S128x128
  slices_S32512x256_o26112_128_S128x128 : S32512x256.Slices ![26112, 128] S128x128
  slices_S32512x256_o25856_0_S128x128 : S32512x256.Slices ![25856, 0] S128x128
  slices_S32512x256_o26240_128_S128x128 : S32512x256.Slices ![26240, 128] S128x128
  slices_S32512x256_o25984_0_S128x128 : S32512x256.Slices ![25984, 0] S128x128
  slices_S32512x256_o26368_128_S128x128 : S32512x256.Slices ![26368, 128] S128x128
  slices_S32512x256_o26112_0_S128x128 : S32512x256.Slices ![26112, 0] S128x128
  slices_S32512x256_o26496_128_S128x128 : S32512x256.Slices ![26496, 128] S128x128
  slices_S32512x256_o26240_0_S128x128 : S32512x256.Slices ![26240, 0] S128x128
  slices_S32512x256_o26624_128_S128x128 : S32512x256.Slices ![26624, 128] S128x128
  slices_S32512x256_o26368_0_S128x128 : S32512x256.Slices ![26368, 0] S128x128
  slices_S32512x256_o26752_128_S128x128 : S32512x256.Slices ![26752, 128] S128x128
  slices_S32512x256_o26496_0_S128x128 : S32512x256.Slices ![26496, 0] S128x128
  slices_S32512x256_o26880_128_S128x128 : S32512x256.Slices ![26880, 128] S128x128
  slices_S32512x256_o26624_0_S128x128 : S32512x256.Slices ![26624, 0] S128x128
  slices_S32512x256_o27008_128_S128x128 : S32512x256.Slices ![27008, 128] S128x128
  slices_S32512x256_o26752_0_S128x128 : S32512x256.Slices ![26752, 0] S128x128
  slices_S32512x256_o27136_128_S128x128 : S32512x256.Slices ![27136, 128] S128x128
  slices_S32512x256_o26880_0_S128x128 : S32512x256.Slices ![26880, 0] S128x128
  slices_S32512x256_o27264_128_S128x128 : S32512x256.Slices ![27264, 128] S128x128
  slices_S32512x256_o27008_0_S128x128 : S32512x256.Slices ![27008, 0] S128x128
  slices_S32512x256_o27392_128_S128x128 : S32512x256.Slices ![27392, 128] S128x128
  slices_S32512x256_o27136_0_S128x128 : S32512x256.Slices ![27136, 0] S128x128
  slices_S32512x256_o27520_128_S128x128 : S32512x256.Slices ![27520, 128] S128x128
  slices_S32512x256_o27264_0_S128x128 : S32512x256.Slices ![27264, 0] S128x128
  slices_S32512x256_o27648_128_S128x128 : S32512x256.Slices ![27648, 128] S128x128
  slices_S32512x256_o27392_0_S128x128 : S32512x256.Slices ![27392, 0] S128x128
  slices_S32512x256_o27776_128_S128x128 : S32512x256.Slices ![27776, 128] S128x128
  slices_S32512x256_o27520_0_S128x128 : S32512x256.Slices ![27520, 0] S128x128
  slices_S32512x256_o27904_128_S128x128 : S32512x256.Slices ![27904, 128] S128x128
  slices_S32512x256_o27648_0_S128x128 : S32512x256.Slices ![27648, 0] S128x128
  slices_S32512x256_o28032_128_S128x128 : S32512x256.Slices ![28032, 128] S128x128
  slices_S32512x256_o27776_0_S128x128 : S32512x256.Slices ![27776, 0] S128x128
  slices_S32512x256_o28160_128_S128x128 : S32512x256.Slices ![28160, 128] S128x128
  slices_S32512x256_o27904_0_S128x128 : S32512x256.Slices ![27904, 0] S128x128
  slices_S32512x256_o28288_128_S128x128 : S32512x256.Slices ![28288, 128] S128x128
  slices_S32512x256_o28032_0_S128x128 : S32512x256.Slices ![28032, 0] S128x128
  slices_S32512x256_o28416_128_S128x128 : S32512x256.Slices ![28416, 128] S128x128
  slices_S32512x256_o28160_0_S128x128 : S32512x256.Slices ![28160, 0] S128x128
  slices_S32512x256_o28544_128_S128x128 : S32512x256.Slices ![28544, 128] S128x128
  slices_S32512x256_o28288_0_S128x128 : S32512x256.Slices ![28288, 0] S128x128
  slices_S32512x256_o28672_128_S128x128 : S32512x256.Slices ![28672, 128] S128x128
  slices_S32512x256_o28416_0_S128x128 : S32512x256.Slices ![28416, 0] S128x128
  slices_S32512x256_o28800_128_S128x128 : S32512x256.Slices ![28800, 128] S128x128
  slices_S32512x256_o28544_0_S128x128 : S32512x256.Slices ![28544, 0] S128x128
  slices_S32512x256_o28928_128_S128x128 : S32512x256.Slices ![28928, 128] S128x128
  slices_S32512x256_o28672_0_S128x128 : S32512x256.Slices ![28672, 0] S128x128
  slices_S32512x256_o29056_128_S128x128 : S32512x256.Slices ![29056, 128] S128x128
  slices_S32512x256_o28800_0_S128x128 : S32512x256.Slices ![28800, 0] S128x128
  slices_S32512x256_o29184_128_S128x128 : S32512x256.Slices ![29184, 128] S128x128
  slices_S32512x256_o28928_0_S128x128 : S32512x256.Slices ![28928, 0] S128x128
  slices_S32512x256_o29312_128_S128x128 : S32512x256.Slices ![29312, 128] S128x128
  slices_S32512x256_o29056_0_S128x128 : S32512x256.Slices ![29056, 0] S128x128
  slices_S32512x256_o29440_128_S128x128 : S32512x256.Slices ![29440, 128] S128x128
  slices_S32512x256_o29184_0_S128x128 : S32512x256.Slices ![29184, 0] S128x128
  slices_S32512x256_o29568_128_S128x128 : S32512x256.Slices ![29568, 128] S128x128
  slices_S32512x256_o29312_0_S128x128 : S32512x256.Slices ![29312, 0] S128x128
  slices_S32512x256_o29696_128_S128x128 : S32512x256.Slices ![29696, 128] S128x128
  slices_S32512x256_o29440_0_S128x128 : S32512x256.Slices ![29440, 0] S128x128
  slices_S32512x256_o29824_128_S128x128 : S32512x256.Slices ![29824, 128] S128x128
  slices_S32512x256_o29568_0_S128x128 : S32512x256.Slices ![29568, 0] S128x128
  slices_S32512x256_o29952_128_S128x128 : S32512x256.Slices ![29952, 128] S128x128
  slices_S32512x256_o29696_0_S128x128 : S32512x256.Slices ![29696, 0] S128x128
  slices_S32512x256_o30080_128_S128x128 : S32512x256.Slices ![30080, 128] S128x128
  slices_S32512x256_o29824_0_S128x128 : S32512x256.Slices ![29824, 0] S128x128
  slices_S32512x256_o30208_128_S128x128 : S32512x256.Slices ![30208, 128] S128x128
  slices_S32512x256_o29952_0_S128x128 : S32512x256.Slices ![29952, 0] S128x128
  slices_S32512x256_o30336_128_S128x128 : S32512x256.Slices ![30336, 128] S128x128
  slices_S32512x256_o30080_0_S128x128 : S32512x256.Slices ![30080, 0] S128x128
  slices_S32512x256_o30464_128_S128x128 : S32512x256.Slices ![30464, 128] S128x128
  slices_S32512x256_o30208_0_S128x128 : S32512x256.Slices ![30208, 0] S128x128
  slices_S32512x256_o30592_128_S128x128 : S32512x256.Slices ![30592, 128] S128x128
  slices_S32512x256_o30336_0_S128x128 : S32512x256.Slices ![30336, 0] S128x128
  slices_S32512x256_o30720_128_S128x128 : S32512x256.Slices ![30720, 128] S128x128
  slices_S32512x256_o30464_0_S128x128 : S32512x256.Slices ![30464, 0] S128x128
  slices_S32512x256_o30848_128_S128x128 : S32512x256.Slices ![30848, 128] S128x128
  slices_S32512x256_o30592_0_S128x128 : S32512x256.Slices ![30592, 0] S128x128
  slices_S32512x256_o30976_128_S128x128 : S32512x256.Slices ![30976, 128] S128x128
  slices_S32512x256_o30720_0_S128x128 : S32512x256.Slices ![30720, 0] S128x128
  slices_S32512x256_o31104_128_S128x128 : S32512x256.Slices ![31104, 128] S128x128
  slices_S32512x256_o30848_0_S128x128 : S32512x256.Slices ![30848, 0] S128x128
  slices_S32512x256_o31232_128_S128x128 : S32512x256.Slices ![31232, 128] S128x128
  slices_S32512x256_o30976_0_S128x128 : S32512x256.Slices ![30976, 0] S128x128
  slices_S32512x256_o31360_128_S128x128 : S32512x256.Slices ![31360, 128] S128x128
  slices_S32512x256_o31104_0_S128x128 : S32512x256.Slices ![31104, 0] S128x128
  slices_S32512x256_o31488_128_S128x128 : S32512x256.Slices ![31488, 128] S128x128
  slices_S32512x256_o31232_0_S128x128 : S32512x256.Slices ![31232, 0] S128x128
  slices_S32512x256_o31616_128_S128x128 : S32512x256.Slices ![31616, 128] S128x128
  slices_S32512x256_o31360_0_S128x128 : S32512x256.Slices ![31360, 0] S128x128
  slices_S32512x256_o31744_128_S128x128 : S32512x256.Slices ![31744, 128] S128x128
  slices_S32512x256_o31488_0_S128x128 : S32512x256.Slices ![31488, 0] S128x128
  slices_S32512x256_o31872_128_S128x128 : S32512x256.Slices ![31872, 128] S128x128
  slices_S32512x256_o31616_0_S128x128 : S32512x256.Slices ![31616, 0] S128x128
  slices_S32512x256_o32000_128_S128x128 : S32512x256.Slices ![32000, 128] S128x128
  slices_S32512x256_o31744_0_S128x128 : S32512x256.Slices ![31744, 0] S128x128
  slices_S32512x256_o32128_128_S128x128 : S32512x256.Slices ![32128, 128] S128x128
  slices_S32512x256_o31872_0_S128x128 : S32512x256.Slices ![31872, 0] S128x128
  slices_S32512x256_o32256_128_S128x128 : S32512x256.Slices ![32256, 128] S128x128
  slices_S32512x256_o32000_0_S128x128 : S32512x256.Slices ![32000, 0] S128x128
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x8064_d1 : Shape.Concatenates (S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: S128x128 :: []) S128x8064 1
  inb_S8064x16_S8064x16_0_0 : ∀ a, (![0, 0] : Fin 2 → Nat) a + S8064x16.size a ≤ S8064x16.size a
  h_S8064x16 : 0 < S8064x16.numel
  shapeCasts_S8064x16_S8064x16 : S8064x16.ShapeCasts S8064x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  dot_S128x128_S128x128_S128x128_1_0_0_1_n_n_wf : DotDims.WF S128x128 S128x128 S128x128 [1] [0] [0] [1] [] []
  dot_S32512x384_S384x256_S32512x256_1_0_0_1_n_n_wf : DotDims.WF S32512x384 S384x256 S32512x256 [1] [0] [0] [1] [] []
  dot_S128x8064_S8064x16_S128x16_1_0_0_1_n_n_wf : DotDims.WF S128x8064 S8064x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768x128.size a ≤ S4x32768x128.size a
  hwx0_0 : ∀ i : grid0.Coords, EltTy.bits .bf16 = 32 ∨ (Rect.block (s := S4x32768x128) S1x32768x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .bf16 = 32 ∨ (Rect.block (s := S384x256) S384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8064x16.size a ≤ S8064x16.size a
  hwx0_3 : ∀ i : grid0.Coords, EltTy.bits .bf16 = 32 ∨ (Rect.block (s := S8064x16) S8064x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S512x16.size a
  hwx0_5 : ∀ i : grid0.Coords, EltTy.bits .f32 = 32 ∨ (Rect.block (s := S512x16) S128x16.size (cc0_transform_5 i) (hinb0_5 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S32512x384_S384x256_S32512x256_1_0_0_1_n_n : DotDims S32512x384 S384x256 S32512x256 where
  lhsContracting := [1]
  rhsContracting := [0]
  lhsNonContracting := [0]
  rhsNonContracting := [1]
  lhsBatch := []
  rhsBatch := []
  wf := dot_S32512x384_S384x256_S32512x256_1_0_0_1_n_n_wf
def dot_S128x8064_S8064x16_S128x16_1_0_0_1_n_n : DotDims S128x8064 S8064x16 S128x16 where
  lhsContracting := [1]
  rhsContracting := [0]
  lhsNonContracting := [0]
  rhsNonContracting := [1]
  lhsBatch := []
  rhsBatch := []
  wf := dot_S128x8064_S8064x16_S128x16_1_0_0_1_n_n_wf

abbrev win0_0 : Pipeline.Window sig grid0 :=
  Pipeline.Window.ofSpec (Memref.whole main_v27) S1x32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S8064x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S512x1x255x128 : Shape := ⟨4, ![512, 1, 255, 128]⟩
abbrev S512x255x128 : Shape := ⟨3, ![512, 255, 128]⟩
abbrev S_ : Shape := ⟨0, ![]⟩
abbrev S528x256x128 : Shape := ⟨3, ![528, 256, 128]⟩
abbrev S11x48x256x128 : Shape := ⟨4, ![11, 48, 256, 128]⟩
abbrev S11x256x48x128 : Shape := ⟨4, ![11, 256, 48, 128]⟩
abbrev S11x12288x128 : Shape := ⟨3, ![11, 12288, 128]⟩
abbrev S128x5x128 : Shape := ⟨3, ![128, 5, 128]⟩
abbrev S5x128x128 : Shape := ⟨3, ![5, 128, 128]⟩
abbrev S1x128 : Shape := ⟨2, ![1, 128]⟩
abbrev S16x128x63 : Shape := ⟨3, ![16, 128, 63]⟩
abbrev S63x128x16 : Shape := ⟨3, ![63, 128, 16]⟩
abbrev S63x128x128 : Shape := ⟨3, ![63, 128, 128]⟩
abbrev S1x16 : Shape := ⟨2, ![1, 16]⟩
abbrev S528x128 : Shape := ⟨2, ![528, 128]⟩
abbrev S1x12288x128 : Shape := ⟨3, ![1, 12288, 128]⟩
abbrev S48x128 : Shape := ⟨2, ![48, 128]⟩
abbrev S1x12096x128 : Shape := ⟨3, ![1, 12096, 128]⟩
abbrev S12096x128 : Shape := ⟨2, ![12096, 128]⟩
abbrev S1x128x128 : Shape := ⟨3, ![1, 128, 128]⟩
abbrev S128x128 : Shape := ⟨2, ![128, 128]⟩
abbrev S512x16 : Shape := ⟨2, ![512, 16]⟩

abbrev nBuf : Space → Nat
  | .hbm => 36
  | .vmem => 8
  | .smem => 0
  | _ => 0

abbrev bufTy : (tb : Table) → Fin (tcTables nBuf tb) → BufTy
  | .hbm, ⟨0, _⟩ => ⟨S512x1x256x128, .f32⟩
  | .hbm, ⟨1, _⟩ => ⟨S128x1x5x128, .f32⟩
  | .hbm, ⟨2, _⟩ => ⟨S128, .f32⟩
  | .hbm, ⟨3, _⟩ => ⟨S16x8064, .f32⟩
  | .hbm, ⟨4, _⟩ => ⟨S16, .f32⟩
  | .hbm, ⟨5, _⟩ => ⟨S512x1x255x128, .f32⟩
  | .hbm, ⟨6, _⟩ => ⟨S512x255x128, .f32⟩
  | .hbm, ⟨7, _⟩ => ⟨S512x255x128, .bf16⟩
  | .hbm, ⟨8, _⟩ => ⟨S_, .i32⟩
  | .hbm, ⟨9, _⟩ => ⟨S_, .bf16⟩
  | .hbm, ⟨10, _⟩ => ⟨S528x256x128, .bf16⟩
  | .hbm, ⟨11, _⟩ => ⟨S11x48x256x128, .bf16⟩
  | .hbm, ⟨12, _⟩ => ⟨S11x256x48x128, .bf16⟩
  | .hbm, ⟨13, _⟩ => ⟨S11x12288x128, .bf16⟩
  | .hbm, ⟨14, _⟩ => ⟨S128x5x128, .f32⟩
  | .hbm, ⟨15, _⟩ => ⟨S5x128x128, .f32⟩
  | .hbm, ⟨16, _⟩ => ⟨S_, .i32⟩
  | .hbm, ⟨17, _⟩ => ⟨S_, .f32⟩
  | .hbm, ⟨18, _⟩ => ⟨S5x128x128, .f32⟩
  | .hbm, ⟨19, _⟩ => ⟨S5x128x128, .bf16⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S16x128x63, .f32⟩
  | .hbm, ⟨25, _⟩ => ⟨S63x128x16, .f32⟩
  | .hbm, ⟨26, _⟩ => ⟨S_, .i32⟩
  | .hbm, ⟨27, _⟩ => ⟨S_, .f32⟩
  | .hbm, ⟨28, _⟩ => ⟨S63x128x128, .f32⟩
  | .hbm, ⟨29, _⟩ => ⟨S63x128x128, .bf16⟩
  | .hbm, ⟨30, _⟩ => ⟨S1x16, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S528x128, .f32⟩
  | .hbm, ⟨35, _⟩ => ⟨S512x16, .f32⟩
  | .local _ .vmem, ⟨0, _⟩ => ⟨S1x12288x128, .bf16⟩
  | .local _ .vmem, ⟨1, _⟩ => ⟨S1x12288x128, .bf16⟩
  | .local _ .vmem, ⟨2, _⟩ => ⟨S5x128x128, .bf16⟩
  | .local _ .vmem, ⟨3, _⟩ => ⟨S1x128, .f32⟩
  | .local _ .vmem, ⟨4, _⟩ => ⟨S63x128x128, .bf16⟩
  | .local _ .vmem, ⟨5, _⟩ => ⟨S1x128, .f32⟩
  | .local _ .vmem, ⟨6, _⟩ => ⟨S48x128, .f32⟩
  | .local _ .vmem, ⟨7, _⟩ => ⟨S48x128, .f32⟩
  | _, _ => ⟨S512x1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call4_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x12288x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S63x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x1x256x128_S512x1x255x128_0_0_0_0 : S512x1x256x128.Slices ![0, 0, 0, 0] S512x1x255x128
  shapeCasts_S512x1x255x128_S512x255x128 : S512x1x255x128.ShapeCasts S512x255x128
  bitsLt_bf16_f32 : FTy.bits .bf16 < FTy.bits .f32
  pads_S512x255x128_S528x256x128_0160_100_000 : S512x255x128.Pads (![0, 1, 0] : Fin 3 → Nat) ![16, 0, 0] ![0, 0, 0] S528x256x128
  h_S_ : 0 < S_.numel
  shapeCasts_S528x256x128_S11x48x256x128 : S528x256x128.ShapeCasts S11x48x256x128
  transposes_S11x48x256x128_S11x256x48x128_0_2_1_3 : S11x48x256x128.Transposes [0, 2, 1, 3] S11x256x48x128
  shapeCasts_S11x256x48x128_S11x12288x128 : S11x256x48x128.ShapeCasts S11x12288x128
  shapeCasts_S128x1x5x128_S128x5x128 : S128x1x5x128.ShapeCasts S128x5x128
  transposes_S128x5x128_S5x128x128_1_2_0 : S128x5x128.Transposes [1, 2, 0] S5x128x128
  pads_S5x128x128_S5x128x128_000_000_000 : S5x128x128.Pads (![0, 0, 0] : Fin 3 → Nat) ![0, 0, 0] ![0, 0, 0] S5x128x128
  shapeCasts_S128_S1x128 : S128.ShapeCasts S1x128
  pads_S1x128_S1x128_000_000 : S1x128.Pads (![0, 0] : Fin 2 → Nat) ![0, 0] ![0, 0] S1x128
  shapeCasts_S16x8064_S16x128x63 : S16x8064.ShapeCasts S16x128x63
  transposes_S16x128x63_S63x128x16_2_1_0 : S16x128x63.Transposes [2, 1, 0] S63x128x16
  pads_S63x128x16_S63x128x128_000_000_01120 : S63x128x16.Pads (![0, 0, 0] : Fin 3 → Nat) ![0, 0, 112] ![0, 0, 0] S63x128x128
  shapeCasts_S16_S1x16 : S16.ShapeCasts S1x16
  pads_S1x16_S1x128_000_01120 : S1x16.Pads (![0, 0] : Fin 2 → Nat) ![0, 112] ![0, 0] S1x128
  inb_S1x12288x128_S1x12096x128_0_0_0 : ∀ a, (![0, 0, 0] : Fin 3 → Nat) a + S1x12096x128.size a ≤ S1x12288x128.size a
  h_S1x12096x128 : 0 < S1x12096x128.numel
  shapeCasts_S1x12096x128_S12096x128 : S1x12096x128.ShapeCasts S12096x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S1x12288x128_S1x12096x128_0_48_0 : ∀ a, (![0, 48, 0] : Fin 3 → Nat) a + S1x12096x128.size a ≤ S1x12288x128.size a
  inb_S5x128x128_S1x128x128_1_0_0 : ∀ a, (![1, 0, 0] : Fin 3 → Nat) a + S1x128x128.size a ≤ S5x128x128.size a
  inb_S1x12288x128_S1x12096x128_0_96_0 : ∀ a, (![0, 96, 0] : Fin 3 → Nat) a + S1x12096x128.size a ≤ S1x12288x128.size a
  inb_S5x128x128_S1x128x128_2_0_0 : ∀ a, (![2, 0, 0] : Fin 3 → Nat) a + S1x128x128.size a ≤ S5x128x128.size a
  inb_S1x12288x128_S1x12096x128_0_144_0 : ∀ a, (![0, 144, 0] : Fin 3 → Nat) a + S1x12096x128.size a ≤ S1x12288x128.size a
  inb_S5x128x128_S1x128x128_3_0_0 : ∀ a, (![3, 0, 0] : Fin 3 → Nat) a + S1x128x128.size a ≤ S5x128x128.size a
  inb_S1x12288x128_S1x12096x128_0_192_0 : ∀ a, (![0, 192, 0] : Fin 3 → Nat) a + S1x12096x128.size a ≤ S1x12288x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12096x128 : S1x128.Broadcasts S12096x128
  slices_S12096x128_o0_0_S48x128 : S12096x128.Slices ![0, 0] S48x128
  slices_S12096x128_o48_0_S48x128 : S12096x128.Slices ![48, 0] S48x128
  slices_S12096x128_o96_0_S48x128 : S12096x128.Slices ![96, 0] S48x128
  slices_S12096x128_o144_0_S48x128 : S12096x128.Slices ![144, 0] S48x128
  inb_S63x128x128_S1x128x128_0_0_0 : ∀ a, (![0, 0, 0] : Fin 3 → Nat) a + S1x128x128.size a ≤ S63x128x128.size a
  slices_S12096x128_o192_0_S48x128 : S12096x128.Slices ![192, 0] S48x128
  slices_S12096x128_o240_0_S48x128 : S12096x128.Slices ![240, 0] S48x128
  slices_S12096x128_o288_0_S48x128 : S12096x128.Slices ![288, 0] S48x128
  slices_S12096x128_o336_0_S48x128 : S12096x128.Slices ![336, 0] S48x128
  inb_S63x128x128_S1x128x128_1_0_0 : ∀ a, (![1, 0, 0] : Fin 3 → Nat) a + S1x128x128.size a ≤ S63x128x128.size a
  slices_S12096x128_o384_0_S48x128 : S12096x128.Slices ![384, 0] S48x128
  slices_S12096x128_o432_0_S48x128 : S12096x128.Slices ![432, 0] S48x128
  slices_S12096x128_o480_0_S48x128 : S12096x128.Slices ![480, 0] S48x128
  slices_S12096x128_o528_0_S48x128 : S12096x128.Slices ![528, 0] S48x128
  inb_S63x128x128_S1x128x128_2_0_0 : ∀ a, (![2, 0, 0] : Fin 3 → Nat) a + S1x128x128.size a ≤ S63x128x128.size a
  slices_S12096x128_o576_0_S48x128 : S12096x128.Slices ![576, 0] S48x128
  slices_S12096x128_o624_0_S48x128 : S12096x128.Slices ![624, 0] S48x128
  slices_S12096x128_o672_0_S48x128 : S12096x128.Slices ![672, 0] S48x128
  slices_S12096x128_o720_0_S48x128 : S12096x128.Slices ![720, 0] S48x128
  inb_S63x128x128_S1x128x128_3_0_0 : ∀ a, (![3, 0, 0] : Fin 3 → Nat) a + S1x128x128.size a ≤ S63x128x128.size a
  slices_S12096x128_o768_0_S48x128 : S12096x128.Slices ![768, 0] S48x128
  slices_S12096x128_o816_0_S48x128 : S12096x128.Slices ![816, 0] S48x128
  slices_S12096x128_o864_0_S48x128 : S12096x128.Slices ![864, 0] S48x128
  slices_S12096x128_o912_0_S48x128 : S12096x128.Slices ![912, 0] S48x128
  inb_S63x128x128_S1x128x128_4_0_0 : ∀ a, (![4, 0, 0] : Fin 3 → Nat) a + S1x128x128.size a ≤ S63x128x128.size a
  slices_S12096x128_o960_0_S48x128 : S12096x128.Slices ![960, 0] S48x128
  slices_S12096x128_o1008_0_S48x128 : S12096x128.Slices ![1008, 0] S48x128
  slices_S12096x128_o1056_0_S48x128 : S12096x128.Slices ![1056, 0] S48x128
  slices_S12096x128_o1104_0_S48x128 : S12096x128.Slices ![1104, 0] S48x128
  inb_S63x128x128_S1x128x128_5_0_0 : ∀ a, (![5, 0, 0] : Fin 3 → Nat) a + S1x128x128.size a ≤ S63x128x128.size a
  slices_S12096x128_o1152_0_S48x128 : S12096x128.Slices ![1152, 0] S48x128
  slices_S12096x128_o1200_0_S48x128 : S12096x128.Slices ![1200, 0] S48x128
  slices_S12096x128_o1248_0_S48x128 : S12096x128.Slices ![1248, 0] S48x128
  slices_S12096x128_o1296_0_S48x128 : S12096x128.Slices ![1296, 0] S48x128
  inb_S63x128x128_S1x128x128_6_0_0 : ∀ a, (![6, 0, 0] : Fin 3 → Nat) a + S1x128x128.size a ≤ S63x128x128.size a
  slices_S12096x128_o1344_0_S48x128 : S12096x128.Slices ![1344, 0] S48x128
  slices_S12096x128_o1392_0_S48x128 : S12096x128.Slices ![1392, 0] S48x128
  slices_S12096x128_o1440_0_S48x128 : S12096x128.Slices ![1440, 0] S48x128
  slices_S12096x128_o1488_0_S48x128 : S12096x128.Slices ![1488, 0] S48x128
  inb_S63x128x128_S1x128x128_7_0_0 : ∀ a, (![7, 0, 0] : Fin 3 → Nat) a + S1x128x128.size a ≤ S63x128x128.size a
  slices_S12096x128_o1536_0_S48x128 : S12096x128.Slices ![1536, 0] S48x128
  slices_S12096x128_o1584_0_S48x128 : S12096x128.Slices ![1584, 0] S48x128
  slices_S12096x128_o1632_0_S48x128 : S12096x128.Slices ![1632, 0] S48x128
  slices_S12096x128_o1680_0_S48x128 : S12096x128.Slices ![1680, 0] S48x128
  inb_S63x128x128_S1x128x128_8_0_0 : ∀ a, (![8, 0, 0] : Fin 3 → Nat) a + S1x128x128.size a ≤ S63x128x128.size a
  slices_S12096x128_o1728_0_S48x128 : S12096x128.Slices ![1728, 0] S48x128
  slices_S12096x128_o1776_0_S48x128 : S12096x128.Slices ![1776, 0] S48x128
  slices_S12096x128_o1824_0_S48x128 : S12096x128.Slices ![1824, 0] S48x128
  slices_S12096x128_o1872_0_S48x128 : S12096x128.Slices ![1872, 0] S48x128
  inb_S63x128x128_S1x128x128_9_0_0 : ∀ a, (![9, 0, 0] : Fin 3 → Nat) a + S1x128x128.size a ≤ S63x128x128.size a
  slices_S12096x128_o1920_0_S48x128 : S12096x128.Slices ![1920, 0] S48x128
  slices_S12096x128_o1968_0_S48x128 : S12096x128.Slices ![1968, 0] S48x128
  slices_S12096x128_o2016_0_S48x128 : S12096x128.Slices ![2016, 0] S48x128
  slices_S12096x128_o2064_0_S48x128 : S12096x128.Slices ![2064, 0] S48x128
  inb_S63x128x128_S1x128x128_10_0_0 : ∀ a, (![10, 0, 0] : Fin 3 → Nat) a + S1x128x128.size a ≤ S63x128x128.size a
  slices_S12096x128_o2112_0_S48x128 : S12096x128.Slices ![2112, 0] S48x128
  slices_S12096x128_o2160_0_S48x128 : S12096x128.Slices ![2160, 0] S48x128
  slices_S12096x128_o2208_0_S48x128 : S12096x128.Slices ![2208, 0] S48x128
  slices_S12096x128_o2256_0_S48x128 : S12096x128.Slices ![2256, 0] S48x128
  inb_S63x128x128_S1x128x128_11_0_0 : ∀ a, (![11, 0, 0] : Fin 3 → Nat) a + S1x128x128.size a ≤ S63x128x128.size a
  slices_S12096x128_o2304_0_S48x128 : S12096x128.Slices ![2304, 0] S48x128
  slices_S12096x128_o2352_0_S48x128 : S12096x128.Slices ![2352, 0] S48x128
  slices_S12096x128_o2400_0_S48x128 : S12096x128.Slices ![2400, 0] S48x128
  slices_S12096x128_o2448_0_S48x128 : S12096x128.Slices ![2448, 0] S48x128
  inb_S63x128x128_S1x128x128_12_0_0 : ∀ a, (![12, 0, 0] : Fin 3 → Nat) a + S1x128x128.size a ≤ S63x128x128.size a
  slices_S12096x128_o2496_0_S48x128 : S12096x128.Slices ![2496, 0] S48x128
  slices_S12096x128_o2544_0_S48x128 : S12096x128.Slices ![2544, 0] S48x128
  slices_S12096x128_o2592_0_S48x128 : S12096x128.Slices ![2592, 0] S48x128
  slices_S12096x128_o2640_0_S48x128 : S12096x128.Slices ![2640, 0] S48x128
  inb_S63x128x128_S1x128x128_13_0_0 : ∀ a, (![13, 0, 0] : Fin 3 → Nat) a + S1x128x128.size a ≤ S63x128x128.size a
  slices_S12096x128_o2688_0_S48x128 : S12096x128.Slices ![2688, 0] S48x128
  slices_S12096x128_o2736_0_S48x128 : S12096x128.Slices ![2736, 0] S48x128
  slices_S12096x128_o2784_0_S48x128 : S12096x128.Slices ![2784, 0] S48x128
  slices_S12096x128_o2832_0_S48x128 : S12096x128.Slices ![2832, 0] S48x128
  inb_S63x128x128_S1x128x128_14_0_0 : ∀ a, (![14, 0, 0] : Fin 3 → Nat) a + S1x128x128.size a ≤ S63x128x128.size a
  slices_S12096x128_o2880_0_S48x128 : S12096x128.Slices ![2880, 0] S48x128
  slices_S12096x128_o2928_0_S48x128 : S12096x128.Slices ![2928, 0] S48x128
  slices_S12096x128_o2976_0_S48x128 : S12096x128.Slices ![2976, 0] S48x128
  slices_S12096x128_o3024_0_S48x128 : S12096x128.Slices ![3024, 0] S48x128
  inb_S63x128x128_S1x128x128_15_0_0 : ∀ a, (![15, 0, 0] : Fin 3 → Nat) a + S1x128x128.size a ≤ S63x128x128.size a
  slices_S12096x128_o3072_0_S48x128 : S12096x128.Slices ![3072, 0] S48x128
  slices_S12096x128_o3120_0_S48x128 : S12096x128.Slices ![3120, 0] S48x128
  slices_S12096x128_o3168_0_S48x128 : S12096x128.Slices ![3168, 0] S48x128
  slices_S12096x128_o3216_0_S48x128 : S12096x128.Slices ![3216, 0] S48x128
  inb_S63x128x128_S1x128x128_16_0_0 : ∀ a, (![16, 0, 0] : Fin 3 → Nat) a + S1x128x128.size a ≤ S63x128x128.size a
  slices_S12096x128_o3264_0_S48x128 : S12096x128.Slices ![3264, 0] S48x128
  slices_S12096x128_o3312_0_S48x128 : S12096x128.Slices ![3312, 0] S48x128
  slices_S12096x128_o3360_0_S48x128 : S12096x128.Slices ![3360, 0] S48x128
  slices_S12096x128_o3408_0_S48x128 : S12096x128.Slices ![3408, 0] S48x128
  inb_S63x128x128_S1x128x128_17_0_0 : ∀ a, (![17, 0, 0] : Fin 3 → Nat) a + S1x128x128.size a ≤ S63x128x128.size a
  slices_S12096x128_o3456_0_S48x128 : S12096x128.Slices ![3456, 0] S48x128
  slices_S12096x128_o3504_0_S48x128 : S12096x128.Slices ![3504, 0] S48x128
  slices_S12096x128_o3552_0_S48x128 : S12096x128.Slices ![3552, 0] S48x128
  slices_S12096x128_o3600_0_S48x128 : S12096x128.Slices ![3600, 0] S48x128
  inb_S63x128x128_S1x128x128_18_0_0 : ∀ a, (![18, 0, 0] : Fin 3 → Nat) a + S1x128x128.size a ≤ S63x128x128.size a
  slices_S12096x128_o3648_0_S48x128 : S12096x128.Slices ![3648, 0] S48x128
  slices_S12096x128_o3696_0_S48x128 : S12096x128.Slices ![3696, 0] S48x128
  slices_S12096x128_o3744_0_S48x128 : S12096x128.Slices ![3744, 0] S48x128
  slices_S12096x128_o3792_0_S48x128 : S12096x128.Slices ![3792, 0] S48x128
  inb_S63x128x128_S1x128x128_19_0_0 : ∀ a, (![19, 0, 0] : Fin 3 → Nat) a + S1x128x128.size a ≤ S63x128x128.size a
  slices_S12096x128_o3840_0_S48x128 : S12096x128.Slices ![3840, 0] S48x128
  slices_S12096x128_o3888_0_S48x128 : S12096x128.Slices ![3888, 0] S48x128
  slices_S12096x128_o3936_0_S48x128 : S12096x128.Slices ![3936, 0] S48x128
  slices_S12096x128_o3984_0_S48x128 : S12096x128.Slices ![3984, 0] S48x128
  inb_S63x128x128_S1x128x128_20_0_0 : ∀ a, (![20, 0, 0] : Fin 3 → Nat) a + S1x128x128.size a ≤ S63x128x128.size a
  slices_S12096x128_o4032_0_S48x128 : S12096x128.Slices ![4032, 0] S48x128
  slices_S12096x128_o4080_0_S48x128 : S12096x128.Slices ![4080, 0] S48x128
  slices_S12096x128_o4128_0_S48x128 : S12096x128.Slices ![4128, 0] S48x128
  slices_S12096x128_o4176_0_S48x128 : S12096x128.Slices ![4176, 0] S48x128
  inb_S63x128x128_S1x128x128_21_0_0 : ∀ a, (![21, 0, 0] : Fin 3 → Nat) a + S1x128x128.size a ≤ S63x128x128.size a
  slices_S12096x128_o4224_0_S48x128 : S12096x128.Slices ![4224, 0] S48x128
  slices_S12096x128_o4272_0_S48x128 : S12096x128.Slices ![4272, 0] S48x128
  slices_S12096x128_o4320_0_S48x128 : S12096x128.Slices ![4320, 0] S48x128
  slices_S12096x128_o4368_0_S48x128 : S12096x128.Slices ![4368, 0] S48x128
  inb_S63x128x128_S1x128x128_22_0_0 : ∀ a, (![22, 0, 0] : Fin 3 → Nat) a + S1x128x128.size a ≤ S63x128x128.size a
  slices_S12096x128_o4416_0_S48x128 : S12096x128.Slices ![4416, 0] S48x128
  slices_S12096x128_o4464_0_S48x128 : S12096x128.Slices ![4464, 0] S48x128
  slices_S12096x128_o4512_0_S48x128 : S12096x128.Slices ![4512, 0] S48x128
  slices_S12096x128_o4560_0_S48x128 : S12096x128.Slices ![4560, 0] S48x128
  inb_S63x128x128_S1x128x128_23_0_0 : ∀ a, (![23, 0, 0] : Fin 3 → Nat) a + S1x128x128.size a ≤ S63x128x128.size a
  slices_S12096x128_o4608_0_S48x128 : S12096x128.Slices ![4608, 0] S48x128
  slices_S12096x128_o4656_0_S48x128 : S12096x128.Slices ![4656, 0] S48x128
  slices_S12096x128_o4704_0_S48x128 : S12096x128.Slices ![4704, 0] S48x128
  slices_S12096x128_o4752_0_S48x128 : S12096x128.Slices ![4752, 0] S48x128
  inb_S63x128x128_S1x128x128_24_0_0 : ∀ a, (![24, 0, 0] : Fin 3 → Nat) a + S1x128x128.size a ≤ S63x128x128.size a
  slices_S12096x128_o4800_0_S48x128 : S12096x128.Slices ![4800, 0] S48x128
  slices_S12096x128_o4848_0_S48x128 : S12096x128.Slices ![4848, 0] S48x128
  slices_S12096x128_o4896_0_S48x128 : S12096x128.Slices ![4896, 0] S48x128
  slices_S12096x128_o4944_0_S48x128 : S12096x128.Slices ![4944, 0] S48x128
  inb_S63x128x128_S1x128x128_25_0_0 : ∀ a, (![25, 0, 0] : Fin 3 → Nat) a + S1x128x128.size a ≤ S63x128x128.size a
  slices_S12096x128_o4992_0_S48x128 : S12096x128.Slices ![4992, 0] S48x128
  slices_S12096x128_o5040_0_S48x128 : S12096x128.Slices ![5040, 0] S48x128
  slices_S12096x128_o5088_0_S48x128 : S12096x128.Slices ![5088, 0] S48x128
  slices_S12096x128_o5136_0_S48x128 : S12096x128.Slices ![5136, 0] S48x128
  inb_S63x128x128_S1x128x128_26_0_0 : ∀ a, (![26, 0, 0] : Fin 3 → Nat) a + S1x128x128.size a ≤ S63x128x128.size a
  slices_S12096x128_o5184_0_S48x128 : S12096x128.Slices ![5184, 0] S48x128
  slices_S12096x128_o5232_0_S48x128 : S12096x128.Slices ![5232, 0] S48x128
  slices_S12096x128_o5280_0_S48x128 : S12096x128.Slices ![5280, 0] S48x128
  slices_S12096x128_o5328_0_S48x128 : S12096x128.Slices ![5328, 0] S48x128
  inb_S63x128x128_S1x128x128_27_0_0 : ∀ a, (![27, 0, 0] : Fin 3 → Nat) a + S1x128x128.size a ≤ S63x128x128.size a
  slices_S12096x128_o5376_0_S48x128 : S12096x128.Slices ![5376, 0] S48x128
  slices_S12096x128_o5424_0_S48x128 : S12096x128.Slices ![5424, 0] S48x128
  slices_S12096x128_o5472_0_S48x128 : S12096x128.Slices ![5472, 0] S48x128
  slices_S12096x128_o5520_0_S48x128 : S12096x128.Slices ![5520, 0] S48x128
  inb_S63x128x128_S1x128x128_28_0_0 : ∀ a, (![28, 0, 0] : Fin 3 → Nat) a + S1x128x128.size a ≤ S63x128x128.size a
  slices_S12096x128_o5568_0_S48x128 : S12096x128.Slices ![5568, 0] S48x128
  slices_S12096x128_o5616_0_S48x128 : S12096x128.Slices ![5616, 0] S48x128
  slices_S12096x128_o5664_0_S48x128 : S12096x128.Slices ![5664, 0] S48x128
  slices_S12096x128_o5712_0_S48x128 : S12096x128.Slices ![5712, 0] S48x128
  inb_S63x128x128_S1x128x128_29_0_0 : ∀ a, (![29, 0, 0] : Fin 3 → Nat) a + S1x128x128.size a ≤ S63x128x128.size a
  slices_S12096x128_o5760_0_S48x128 : S12096x128.Slices ![5760, 0] S48x128
  slices_S12096x128_o5808_0_S48x128 : S12096x128.Slices ![5808, 0] S48x128
  slices_S12096x128_o5856_0_S48x128 : S12096x128.Slices ![5856, 0] S48x128
  slices_S12096x128_o5904_0_S48x128 : S12096x128.Slices ![5904, 0] S48x128
  inb_S63x128x128_S1x128x128_30_0_0 : ∀ a, (![30, 0, 0] : Fin 3 → Nat) a + S1x128x128.size a ≤ S63x128x128.size a
  slices_S12096x128_o5952_0_S48x128 : S12096x128.Slices ![5952, 0] S48x128
  slices_S12096x128_o6000_0_S48x128 : S12096x128.Slices ![6000, 0] S48x128
  slices_S12096x128_o6048_0_S48x128 : S12096x128.Slices ![6048, 0] S48x128
  slices_S12096x128_o6096_0_S48x128 : S12096x128.Slices ![6096, 0] S48x128
  inb_S63x128x128_S1x128x128_31_0_0 : ∀ a, (![31, 0, 0] : Fin 3 → Nat) a + S1x128x128.size a ≤ S63x128x128.size a
  slices_S12096x128_o6144_0_S48x128 : S12096x128.Slices ![6144, 0] S48x128
  slices_S12096x128_o6192_0_S48x128 : S12096x128.Slices ![6192, 0] S48x128
  slices_S12096x128_o6240_0_S48x128 : S12096x128.Slices ![6240, 0] S48x128
  slices_S12096x128_o6288_0_S48x128 : S12096x128.Slices ![6288, 0] S48x128
  inb_S63x128x128_S1x128x128_32_0_0 : ∀ a, (![32, 0, 0] : Fin 3 → Nat) a + S1x128x128.size a ≤ S63x128x128.size a
  slices_S12096x128_o6336_0_S48x128 : S12096x128.Slices ![6336, 0] S48x128
  slices_S12096x128_o6384_0_S48x128 : S12096x128.Slices ![6384, 0] S48x128
  slices_S12096x128_o6432_0_S48x128 : S12096x128.Slices ![6432, 0] S48x128
  slices_S12096x128_o6480_0_S48x128 : S12096x128.Slices ![6480, 0] S48x128
  inb_S63x128x128_S1x128x128_33_0_0 : ∀ a, (![33, 0, 0] : Fin 3 → Nat) a + S1x128x128.size a ≤ S63x128x128.size a
  slices_S12096x128_o6528_0_S48x128 : S12096x128.Slices ![6528, 0] S48x128
  slices_S12096x128_o6576_0_S48x128 : S12096x128.Slices ![6576, 0] S48x128
  slices_S12096x128_o6624_0_S48x128 : S12096x128.Slices ![6624, 0] S48x128
  slices_S12096x128_o6672_0_S48x128 : S12096x128.Slices ![6672, 0] S48x128
  inb_S63x128x128_S1x128x128_34_0_0 : ∀ a, (![34, 0, 0] : Fin 3 → Nat) a + S1x128x128.size a ≤ S63x128x128.size a
  slices_S12096x128_o6720_0_S48x128 : S12096x128.Slices ![6720, 0] S48x128
  slices_S12096x128_o6768_0_S48x128 : S12096x128.Slices ![6768, 0] S48x128
  slices_S12096x128_o6816_0_S48x128 : S12096x128.Slices ![6816, 0] S48x128
  slices_S12096x128_o6864_0_S48x128 : S12096x128.Slices ![6864, 0] S48x128
  inb_S63x128x128_S1x128x128_35_0_0 : ∀ a, (![35, 0, 0] : Fin 3 → Nat) a + S1x128x128.size a ≤ S63x128x128.size a
  slices_S12096x128_o6912_0_S48x128 : S12096x128.Slices ![6912, 0] S48x128
  slices_S12096x128_o6960_0_S48x128 : S12096x128.Slices ![6960, 0] S48x128
  slices_S12096x128_o7008_0_S48x128 : S12096x128.Slices ![7008, 0] S48x128
  slices_S12096x128_o7056_0_S48x128 : S12096x128.Slices ![7056, 0] S48x128
  inb_S63x128x128_S1x128x128_36_0_0 : ∀ a, (![36, 0, 0] : Fin 3 → Nat) a + S1x128x128.size a ≤ S63x128x128.size a
  slices_S12096x128_o7104_0_S48x128 : S12096x128.Slices ![7104, 0] S48x128
  slices_S12096x128_o7152_0_S48x128 : S12096x128.Slices ![7152, 0] S48x128
  slices_S12096x128_o7200_0_S48x128 : S12096x128.Slices ![7200, 0] S48x128
  slices_S12096x128_o7248_0_S48x128 : S12096x128.Slices ![7248, 0] S48x128
  inb_S63x128x128_S1x128x128_37_0_0 : ∀ a, (![37, 0, 0] : Fin 3 → Nat) a + S1x128x128.size a ≤ S63x128x128.size a
  slices_S12096x128_o7296_0_S48x128 : S12096x128.Slices ![7296, 0] S48x128
  slices_S12096x128_o7344_0_S48x128 : S12096x128.Slices ![7344, 0] S48x128
  slices_S12096x128_o7392_0_S48x128 : S12096x128.Slices ![7392, 0] S48x128
  slices_S12096x128_o7440_0_S48x128 : S12096x128.Slices ![7440, 0] S48x128
  inb_S63x128x128_S1x128x128_38_0_0 : ∀ a, (![38, 0, 0] : Fin 3 → Nat) a + S1x128x128.size a ≤ S63x128x128.size a
  slices_S12096x128_o7488_0_S48x128 : S12096x128.Slices ![7488, 0] S48x128
  slices_S12096x128_o7536_0_S48x128 : S12096x128.Slices ![7536, 0] S48x128
  slices_S12096x128_o7584_0_S48x128 : S12096x128.Slices ![7584, 0] S48x128
  slices_S12096x128_o7632_0_S48x128 : S12096x128.Slices ![7632, 0] S48x128
  inb_S63x128x128_S1x128x128_39_0_0 : ∀ a, (![39, 0, 0] : Fin 3 → Nat) a + S1x128x128.size a ≤ S63x128x128.size a
  slices_S12096x128_o7680_0_S48x128 : S12096x128.Slices ![7680, 0] S48x128
  slices_S12096x128_o7728_0_S48x128 : S12096x128.Slices ![7728, 0] S48x128
  slices_S12096x128_o7776_0_S48x128 : S12096x128.Slices ![7776, 0] S48x128
  slices_S12096x128_o7824_0_S48x128 : S12096x128.Slices ![7824, 0] S48x128
  inb_S63x128x128_S1x128x128_40_0_0 : ∀ a, (![40, 0, 0] : Fin 3 → Nat) a + S1x128x128.size a ≤ S63x128x128.size a
  slices_S12096x128_o7872_0_S48x128 : S12096x128.Slices ![7872, 0] S48x128
  slices_S12096x128_o7920_0_S48x128 : S12096x128.Slices ![7920, 0] S48x128
  slices_S12096x128_o7968_0_S48x128 : S12096x128.Slices ![7968, 0] S48x128
  slices_S12096x128_o8016_0_S48x128 : S12096x128.Slices ![8016, 0] S48x128
  inb_S63x128x128_S1x128x128_41_0_0 : ∀ a, (![41, 0, 0] : Fin 3 → Nat) a + S1x128x128.size a ≤ S63x128x128.size a
  slices_S12096x128_o8064_0_S48x128 : S12096x128.Slices ![8064, 0] S48x128
  slices_S12096x128_o8112_0_S48x128 : S12096x128.Slices ![8112, 0] S48x128
  slices_S12096x128_o8160_0_S48x128 : S12096x128.Slices ![8160, 0] S48x128
  slices_S12096x128_o8208_0_S48x128 : S12096x128.Slices ![8208, 0] S48x128
  inb_S63x128x128_S1x128x128_42_0_0 : ∀ a, (![42, 0, 0] : Fin 3 → Nat) a + S1x128x128.size a ≤ S63x128x128.size a
  slices_S12096x128_o8256_0_S48x128 : S12096x128.Slices ![8256, 0] S48x128
  slices_S12096x128_o8304_0_S48x128 : S12096x128.Slices ![8304, 0] S48x128
  slices_S12096x128_o8352_0_S48x128 : S12096x128.Slices ![8352, 0] S48x128
  slices_S12096x128_o8400_0_S48x128 : S12096x128.Slices ![8400, 0] S48x128
  inb_S63x128x128_S1x128x128_43_0_0 : ∀ a, (![43, 0, 0] : Fin 3 → Nat) a + S1x128x128.size a ≤ S63x128x128.size a
  slices_S12096x128_o8448_0_S48x128 : S12096x128.Slices ![8448, 0] S48x128
  slices_S12096x128_o8496_0_S48x128 : S12096x128.Slices ![8496, 0] S48x128
  slices_S12096x128_o8544_0_S48x128 : S12096x128.Slices ![8544, 0] S48x128
  slices_S12096x128_o8592_0_S48x128 : S12096x128.Slices ![8592, 0] S48x128
  inb_S63x128x128_S1x128x128_44_0_0 : ∀ a, (![44, 0, 0] : Fin 3 → Nat) a + S1x128x128.size a ≤ S63x128x128.size a
  slices_S12096x128_o8640_0_S48x128 : S12096x128.Slices ![8640, 0] S48x128
  slices_S12096x128_o8688_0_S48x128 : S12096x128.Slices ![8688, 0] S48x128
  slices_S12096x128_o8736_0_S48x128 : S12096x128.Slices ![8736, 0] S48x128
  slices_S12096x128_o8784_0_S48x128 : S12096x128.Slices ![8784, 0] S48x128
  inb_S63x128x128_S1x128x128_45_0_0 : ∀ a, (![45, 0, 0] : Fin 3 → Nat) a + S1x128x128.size a ≤ S63x128x128.size a
  slices_S12096x128_o8832_0_S48x128 : S12096x128.Slices ![8832, 0] S48x128
  slices_S12096x128_o8880_0_S48x128 : S12096x128.Slices ![8880, 0] S48x128
  slices_S12096x128_o8928_0_S48x128 : S12096x128.Slices ![8928, 0] S48x128
  slices_S12096x128_o8976_0_S48x128 : S12096x128.Slices ![8976, 0] S48x128
  inb_S63x128x128_S1x128x128_46_0_0 : ∀ a, (![46, 0, 0] : Fin 3 → Nat) a + S1x128x128.size a ≤ S63x128x128.size a
  slices_S12096x128_o9024_0_S48x128 : S12096x128.Slices ![9024, 0] S48x128
  slices_S12096x128_o9072_0_S48x128 : S12096x128.Slices ![9072, 0] S48x128
  slices_S12096x128_o9120_0_S48x128 : S12096x128.Slices ![9120, 0] S48x128
  slices_S12096x128_o9168_0_S48x128 : S12096x128.Slices ![9168, 0] S48x128
  inb_S63x128x128_S1x128x128_47_0_0 : ∀ a, (![47, 0, 0] : Fin 3 → Nat) a + S1x128x128.size a ≤ S63x128x128.size a
  slices_S12096x128_o9216_0_S48x128 : S12096x128.Slices ![9216, 0] S48x128
  slices_S12096x128_o9264_0_S48x128 : S12096x128.Slices ![9264, 0] S48x128
  slices_S12096x128_o9312_0_S48x128 : S12096x128.Slices ![9312, 0] S48x128
  slices_S12096x128_o9360_0_S48x128 : S12096x128.Slices ![9360, 0] S48x128
  inb_S63x128x128_S1x128x128_48_0_0 : ∀ a, (![48, 0, 0] : Fin 3 → Nat) a + S1x128x128.size a ≤ S63x128x128.size a
  slices_S12096x128_o9408_0_S48x128 : S12096x128.Slices ![9408, 0] S48x128
  slices_S12096x128_o9456_0_S48x128 : S12096x128.Slices ![9456, 0] S48x128
  slices_S12096x128_o9504_0_S48x128 : S12096x128.Slices ![9504, 0] S48x128
  slices_S12096x128_o9552_0_S48x128 : S12096x128.Slices ![9552, 0] S48x128
  inb_S63x128x128_S1x128x128_49_0_0 : ∀ a, (![49, 0, 0] : Fin 3 → Nat) a + S1x128x128.size a ≤ S63x128x128.size a
  slices_S12096x128_o9600_0_S48x128 : S12096x128.Slices ![9600, 0] S48x128
  slices_S12096x128_o9648_0_S48x128 : S12096x128.Slices ![9648, 0] S48x128
  slices_S12096x128_o9696_0_S48x128 : S12096x128.Slices ![9696, 0] S48x128
  slices_S12096x128_o9744_0_S48x128 : S12096x128.Slices ![9744, 0] S48x128
  inb_S63x128x128_S1x128x128_50_0_0 : ∀ a, (![50, 0, 0] : Fin 3 → Nat) a + S1x128x128.size a ≤ S63x128x128.size a
  slices_S12096x128_o9792_0_S48x128 : S12096x128.Slices ![9792, 0] S48x128
  slices_S12096x128_o9840_0_S48x128 : S12096x128.Slices ![9840, 0] S48x128
  slices_S12096x128_o9888_0_S48x128 : S12096x128.Slices ![9888, 0] S48x128
  slices_S12096x128_o9936_0_S48x128 : S12096x128.Slices ![9936, 0] S48x128
  inb_S63x128x128_S1x128x128_51_0_0 : ∀ a, (![51, 0, 0] : Fin 3 → Nat) a + S1x128x128.size a ≤ S63x128x128.size a
  slices_S12096x128_o9984_0_S48x128 : S12096x128.Slices ![9984, 0] S48x128
  slices_S12096x128_o10032_0_S48x128 : S12096x128.Slices ![10032, 0] S48x128
  slices_S12096x128_o10080_0_S48x128 : S12096x128.Slices ![10080, 0] S48x128
  slices_S12096x128_o10128_0_S48x128 : S12096x128.Slices ![10128, 0] S48x128
  inb_S63x128x128_S1x128x128_52_0_0 : ∀ a, (![52, 0, 0] : Fin 3 → Nat) a + S1x128x128.size a ≤ S63x128x128.size a
  slices_S12096x128_o10176_0_S48x128 : S12096x128.Slices ![10176, 0] S48x128
  slices_S12096x128_o10224_0_S48x128 : S12096x128.Slices ![10224, 0] S48x128
  slices_S12096x128_o10272_0_S48x128 : S12096x128.Slices ![10272, 0] S48x128
  slices_S12096x128_o10320_0_S48x128 : S12096x128.Slices ![10320, 0] S48x128
  inb_S63x128x128_S1x128x128_53_0_0 : ∀ a, (![53, 0, 0] : Fin 3 → Nat) a + S1x128x128.size a ≤ S63x128x128.size a
  slices_S12096x128_o10368_0_S48x128 : S12096x128.Slices ![10368, 0] S48x128
  slices_S12096x128_o10416_0_S48x128 : S12096x128.Slices ![10416, 0] S48x128
  slices_S12096x128_o10464_0_S48x128 : S12096x128.Slices ![10464, 0] S48x128
  slices_S12096x128_o10512_0_S48x128 : S12096x128.Slices ![10512, 0] S48x128
  inb_S63x128x128_S1x128x128_54_0_0 : ∀ a, (![54, 0, 0] : Fin 3 → Nat) a + S1x128x128.size a ≤ S63x128x128.size a
  slices_S12096x128_o10560_0_S48x128 : S12096x128.Slices ![10560, 0] S48x128
  slices_S12096x128_o10608_0_S48x128 : S12096x128.Slices ![10608, 0] S48x128
  slices_S12096x128_o10656_0_S48x128 : S12096x128.Slices ![10656, 0] S48x128
  slices_S12096x128_o10704_0_S48x128 : S12096x128.Slices ![10704, 0] S48x128
  inb_S63x128x128_S1x128x128_55_0_0 : ∀ a, (![55, 0, 0] : Fin 3 → Nat) a + S1x128x128.size a ≤ S63x128x128.size a
  slices_S12096x128_o10752_0_S48x128 : S12096x128.Slices ![10752, 0] S48x128
  slices_S12096x128_o10800_0_S48x128 : S12096x128.Slices ![10800, 0] S48x128
  slices_S12096x128_o10848_0_S48x128 : S12096x128.Slices ![10848, 0] S48x128
  slices_S12096x128_o10896_0_S48x128 : S12096x128.Slices ![10896, 0] S48x128
  inb_S63x128x128_S1x128x128_56_0_0 : ∀ a, (![56, 0, 0] : Fin 3 → Nat) a + S1x128x128.size a ≤ S63x128x128.size a
  slices_S12096x128_o10944_0_S48x128 : S12096x128.Slices ![10944, 0] S48x128
  slices_S12096x128_o10992_0_S48x128 : S12096x128.Slices ![10992, 0] S48x128
  slices_S12096x128_o11040_0_S48x128 : S12096x128.Slices ![11040, 0] S48x128
  slices_S12096x128_o11088_0_S48x128 : S12096x128.Slices ![11088, 0] S48x128
  inb_S63x128x128_S1x128x128_57_0_0 : ∀ a, (![57, 0, 0] : Fin 3 → Nat) a + S1x128x128.size a ≤ S63x128x128.size a
  slices_S12096x128_o11136_0_S48x128 : S12096x128.Slices ![11136, 0] S48x128
  slices_S12096x128_o11184_0_S48x128 : S12096x128.Slices ![11184, 0] S48x128
  slices_S12096x128_o11232_0_S48x128 : S12096x128.Slices ![11232, 0] S48x128
  slices_S12096x128_o11280_0_S48x128 : S12096x128.Slices ![11280, 0] S48x128
  inb_S63x128x128_S1x128x128_58_0_0 : ∀ a, (![58, 0, 0] : Fin 3 → Nat) a + S1x128x128.size a ≤ S63x128x128.size a
  slices_S12096x128_o11328_0_S48x128 : S12096x128.Slices ![11328, 0] S48x128
  slices_S12096x128_o11376_0_S48x128 : S12096x128.Slices ![11376, 0] S48x128
  slices_S12096x128_o11424_0_S48x128 : S12096x128.Slices ![11424, 0] S48x128
  slices_S12096x128_o11472_0_S48x128 : S12096x128.Slices ![11472, 0] S48x128
  inb_S63x128x128_S1x128x128_59_0_0 : ∀ a, (![59, 0, 0] : Fin 3 → Nat) a + S1x128x128.size a ≤ S63x128x128.size a
  slices_S12096x128_o11520_0_S48x128 : S12096x128.Slices ![11520, 0] S48x128
  slices_S12096x128_o11568_0_S48x128 : S12096x128.Slices ![11568, 0] S48x128
  slices_S12096x128_o11616_0_S48x128 : S12096x128.Slices ![11616, 0] S48x128
  slices_S12096x128_o11664_0_S48x128 : S12096x128.Slices ![11664, 0] S48x128
  inb_S63x128x128_S1x128x128_60_0_0 : ∀ a, (![60, 0, 0] : Fin 3 → Nat) a + S1x128x128.size a ≤ S63x128x128.size a
  slices_S12096x128_o11712_0_S48x128 : S12096x128.Slices ![11712, 0] S48x128
  slices_S12096x128_o11760_0_S48x128 : S12096x128.Slices ![11760, 0] S48x128
  slices_S12096x128_o11808_0_S48x128 : S12096x128.Slices ![11808, 0] S48x128
  slices_S12096x128_o11856_0_S48x128 : S12096x128.Slices ![11856, 0] S48x128
  inb_S63x128x128_S1x128x128_61_0_0 : ∀ a, (![61, 0, 0] : Fin 3 → Nat) a + S1x128x128.size a ≤ S63x128x128.size a
  slices_S12096x128_o11904_0_S48x128 : S12096x128.Slices ![11904, 0] S48x128
  slices_S12096x128_o11952_0_S48x128 : S12096x128.Slices ![11952, 0] S48x128
  slices_S12096x128_o12000_0_S48x128 : S12096x128.Slices ![12000, 0] S48x128
  slices_S12096x128_o12048_0_S48x128 : S12096x128.Slices ![12048, 0] S48x128
  inb_S63x128x128_S1x128x128_62_0_0 : ∀ a, (![62, 0, 0] : Fin 3 → Nat) a + S1x128x128.size a ≤ S63x128x128.size a
  broadcasts_S1x128_S48x128 : S1x128.Broadcasts S48x128
  inb_S48x128_S48x128_0_0 : ∀ a, (![0, 0] : Fin 2 → Nat) a + S48x128.size a ≤ S48x128.size a
  h_S48x128 : 0 < S48x128.numel
  slices_S528x128_S512x16_0_0 : S528x128.Slices ![0, 0] S512x16
  dot_S12096x128_S128x128_S12096x128_1_0_0_1_n_n_wf : DotDims.WF S12096x128 S128x128 S12096x128 [1] [0] [0] [1] [] []
  dot_S48x128_S128x128_S48x128_1_0_0_1_n_n_wf : DotDims.WF S48x128 S128x128 S48x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12288x128.size a ≤ S11x12288x128.size a
  hwx0_0 : ∀ i : grid0.Coords, EltTy.bits .bf16 = 32 ∨ (Rect.block (s := S11x12288x128) S1x12288x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128x128.size a ≤ S5x128x128.size a
  hwx0_1 : ∀ i : grid0.Coords, EltTy.bits .bf16 = 32 ∨ (Rect.block (s := S5x128x128) S5x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S63x128x128.size a ≤ S63x128x128.size a
  hwx0_3 : ∀ i : grid0.Coords, EltTy.bits .bf16 = 32 ∨ (Rect.block (s := S63x128x128) S63x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S48x128.size a ≤ S528x128.size a
  hwx0_5 : ∀ i : grid0.Coords, EltTy.bits .f32 = 32 ∨ (Rect.block (s := S528x128) S48x128.size (cc0_transform_5 i) (hinb0_5 i)).WholeWords (EltTy.packing .f32)

variable [Facts₀]

def dot_S12096x128_S128x128_S12096x128_1_0_0_1_n_n : DotDims S12096x128 S128x128 S12096x128 where
  lhsContracting := [1]
  rhsContracting := [0]
  lhsNonContracting := [0]
  rhsNonContracting := [1]
  lhsBatch := []
  rhsBatch := []
  wf := dot_S12096x128_S128x128_S12096x128_1_0_0_1_n_n_wf
def dot_S48x128_S128x128_S48x128_1_0_0_1_n_n : DotDims S48x128 S128x128 S48x128 where
  lhsContracting := [1]
  rhsContracting := [0]
  lhsNonContracting := [0]
  rhsNonContracting := [1]
  lhsBatch := []
  rhsBatch := []
  wf := dot_S48x128_S128x128_S48x128_1_0_0_1_n_n_wf

abbrev win0_0 : Pipeline.Window sig grid0 :=
  Pipeline.Window.ofSpec (Memref.whole main_v6) S1x12288x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S63x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S48x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KernelRegion.lean ====
/-
  The frame of the program `Kernel`: one pallas_call on a grid of four batch tiles, after a line of host
  operations that re-lay the weights and the input. The body is straight-line: it loads its five input blocks whole (and one
  128×128 corner of the packed conv weight), computes, and stores the 128×16 output block whole. So at every grid point each
  input's staging buffer holds its block of the array the host line left, and the output's staging buffer ends at ONE pure
  function `outBlock` of the five input blocks; the pipeline library's frame run then gives termination, no fault, every
  bypassing buffer (the five arguments among them) as launched, and the output array assembled from the written-back blocks.
  Stated for any float instance `F`.
-/
import proofs.«128919_g2000302331999779_pallasbulk_1131_18_alg».proof.Proof.Gen.Kernel.Launch
import proofs.«128919_g2000302331999779_pallasbulk_1131_18_alg».proof.Proof.Gen.Kernel.Skeleton
import proofs.«128919_g2000302331999779_pallasbulk_1131_18_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- Core `c`'s buffer contents when the region is entered: the launch memory after the host line. -/
abbrev V (c : Dev nD) (b : Ref sig .tc) : Buf (Elt F) ((c : Thread nD τ).loc b) := StableHlo.after hostOps0 (fun b => m (c, b)) b

/-- The host line allocates nothing. -/
theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it stores -/

abbrev rX : Rect S1x32768x128 := Rect.unit (s := S1x32768x128) ![0, 0, 0] S1x32768x128.size inb_S1x32768x128_S1x32768x128_0_0_0
abbrev rW1 : Rect S384x256 := Rect.unit (s := S384x256) ![128, 0] S128x128.size inb_S384x256_S128x128_128_0
abbrev rB : Rect S1x128 := Rect.unit (s := S1x128) ![0, 0] S1x128.size inb_S1x128_S1x128_0_0
abbrev rW : Rect S384x256 := Rect.unit (s := S384x256) ![0, 0] S384x256.size inb_S384x256_S384x256_0_0
abbrev rL : Rect S8064x16 := Rect.unit (s := S8064x16) ![0, 0] S8064x16.size inb_S8064x16_S8064x16_0_0
abbrev rLb : Rect S1x16 := Rect.unit (s := S1x16) ![0, 0] S1x16.size inb_S1x16_S1x16_0_0
abbrev rO : Rect S128x16 := Rect.unit (s := S128x16) ![0, 0] S128x16.size inb_S128x16_S128x16_0_0

/-- The value the body stores, as a function of the five input blocks: the rows block `x0`, the packed conv weight `x1`,
    the conv bias row `x2`, the linear weight `x3` and the linear bias row `x4`; each intermediate value is named as the
    body names it. -/
def outVal (x0 : Vec F S1x32768x128 .bf16) (x1 : Vec F S384x256 .bf16) (x2 : Vec F S1x128 .f32) (x3 : Vec F S8064x16 .bf16) (x4 : Vec F S1x16 .f32) : FVec F S128x16 .f32 :=
  have v0 := View.ld x0 rX
  have v3 := View.ld x1 rW1
  have v6 := View.ld x2 rB
  have v12 := View.ld x1 rW
  have v7 := k0_pay3 v6
  have v14 := k0_pay4 v0 v12
  have v33 := k0_pay5 v0 v3 v6 v12
  have v44 := k0_pay6 v0 v12
  have v45 := k0_pay7 v0 v12
  have v46 := k0_pay8 v0 v12
  have v53 := k0_pay9 v7 v44 v45 v46
  have v73 := k0_pay10 v7 v14
  have v93 := k0_pay11 v7 v14
  have v100 := k0_pay12 v14
  have v103 := k0_pay13 v14
  have v113 := k0_pay14 v7 v14 v100 v103
  have v133 := k0_pay15 v7 v14
  have v153 := k0_pay16 v7 v14
  have v160 := k0_pay17 v14
  have v173 := k0_pay18 v7 v14 v160
  have v193 := k0_pay19 v7 v14
  have v213 := k0_pay20 v7 v14
  have v216 := k0_pay21 v14
  have v217 := k0_pay22 v14
  have v233 := k0_pay23 v7 v14 v216 v217
  have v253 := k0_pay24 v7 v14
  have v273 := k0_pay25 v7 v14
  have v274 := k0_pay26 v14
  have v293 := k0_pay27 v7 v14 v274
  have v313 := k0_pay28 v7 v14
  have v330 := k0_pay29 v7 v14
  have v331 := k0_pay30 (F := F)
  have v333 := k0_pay31 v330 v331
  have v353 := k0_pay32 v7 v14
  have v373 := k0_pay33 v7 v14
  have v388 := k0_pay34 v14
  have v389 := k0_pay35 v7
  have v393 := k0_pay36 v388 v389
  have v413 := k0_pay37 v7 v14
  have v433 := k0_pay38 v7 v14
  have v444 := k0_pay39 v14
  have v445 := k0_pay40 v14
  have v446 := k0_pay41 v14
  have v453 := k0_pay42 v7 v444 v445 v446
  have v473 := k0_pay43 v7 v14
  have v493 := k0_pay44 v7 v14
  have v500 := k0_pay45 v14
  have v503 := k0_pay46 v14
  have v513 := k0_pay47 v7 v14 v500 v503
  have v533 := k0_pay48 v7 v14
  have v553 := k0_pay49 v7 v14
  have v560 := k0_pay50 v14
  have v573 := k0_pay51 v7 v14 v560
  have v593 := k0_pay52 v7 v14
  have v613 := k0_pay53 v7 v14
  have v616 := k0_pay54 v14
  have v617 := k0_pay55 v14
  have v633 := k0_pay56 v7 v14 v616 v617
  have v653 := k0_pay57 v7 v14
  have v673 := k0_pay58 v7 v14
  have v674 := k0_pay59 v14
  have v693 := k0_pay60 v7 v14 v674
  have v713 := k0_pay61 v7 v14
  have v730 := k0_pay62 v7 v14
  have v731 := k0_pay63 (F := F)
  have v733 := k0_pay64 v730 v731
  have v753 := k0_pay65 v7 v14
  have v773 := k0_pay66 v7 v14
  have v788 := k0_pay67 v14
  have v789 := k0_pay68 v7
  have v793 := k0_pay69 v788 v789
  have v813 := k0_pay70 v7 v14
  have v833 := k0_pay71 v7 v14
  have v844 := k0_pay72 v14
  have v845 := k0_pay73 v14
  have v846 := k0_pay74 v14
  have v853 := k0_pay75 v7 v844 v845 v846
  have v873 := k0_pay76 v7 v14
  have v893 := k0_pay77 v7 v14
  have v900 := k0_pay78 v14
  have v903 := k0_pay79 v14
  have v913 := k0_pay80 v7 v14 v900 v903
  have v933 := k0_pay81 v7 v14
  have v953 := k0_pay82 v7 v14
  have v960 := k0_pay83 v14
  have v973 := k0_pay84 v7 v14 v960
  have v993 := k0_pay85 v7 v14
  have v1013 := k0_pay86 v7 v14
  have v1016 := k0_pay87 v14
  have v1017 := k0_pay88 v14
  have v1033 := k0_pay89 v7 v14 v1016 v1017
  have v1053 := k0_pay90 v7 v14
  have v1073 := k0_pay91 v7 v14
  have v1074 := k0_pay92 v14
  have v1093 := k0_pay93 v7 v14 v1074
  have v1113 := k0_pay94 v7 v14
  have v1130 := k0_pay95 v7 v14
  have v1131 := k0_pay96 (F := F)
  have v1133 := k0_pay97 v1130 v1131
  have v1153 := k0_pay98 v7 v14
  have v1173 := k0_pay99 v7 v14
  have v1188 := k0_pay100 v14
  have v1189 := k0_pay101 v7
  have v1193 := k0_pay102 v1188 v1189
  have v1213 := k0_pay103 v7 v14
  have v1233 := k0_pay104 v7 v14
  have v1244 := k0_pay105 v14
  have v1245 := k0_pay106 v14
  have v1246 := k0_pay107 v14
  have v1250 := k0_pay108 v7 v1244 v1245 v1246
  have v1270 := k0_pay109 v7 v14
  have v1274 := k0_pay110 v33 v53 v73 v93 v113 v133 v153 v173 v193 v213 v233 v253 v273 v293 v313 v333 v353 v373 v393 v413 v433 v453 v473 v493 v513 v533 v553 v573 v593 v613 v633 v653 v673 v693 v713 v733 v753 v773 v793 v813 v833 v853 v873 v893 v913 v933 v953 v973 v993 v1013 v1033 v1053 v1073 v1093 v1113 v1133 v1153 v1173 v1193 v1213 v1233 v1250 v1270
  have v1275 := View.ld x3 rL
  have v1278 := View.ld x4 rLb
  k0_pay1 (k0_pay111 v1274 v1275) v1278

/-- The output window's staging buffer after the body: its one whole store. -/
def outBlock (x0 : Vec F S1x32768x128 .bf16) (x1 : Vec F S384x256 .bf16) (x2 : Vec F S1x128 .f32) (x3 : Vec F S8064x16 .bf16) (x4 : Vec F S1x16 .f32) : Vec F S128x16 .f32 :=
  View.canon [⟨rO, outVal x0 x1 x2 x3 x4⟩]

/-- The one store covers the buffer. -/
theorem cover_out (p0 : Vec F S128x16 .f32) (y : S128x16.Idx) :
    ∃ pc ∈ ([⟨rO, p0⟩] : List (View.Piece (Elt F) S128x16 .f32)), y ∈ pc.1.set :=
  View.cover_of_tiled [⟨rO, p0⟩] S128x16.size (by rfl) y

/-! ## The body's triple -/

set_option maxHeartbeats 4000000 in
/-- The body on whole staging memrefs, the inputs' at contents `xW` and the output's at anything, runs to the continuation
    holding the inputs' as they were and the output's at `outBlock` of the inputs'. -/
theorem sound_kernel (c : Dev nD) (E : Set ℕ) (i : grid0.Coords) (arg1 : Memref sig .tc .vmem S1x32768x128 .bf16) (harg1 : arg1.IsWhole) (arg2 : Memref sig .tc .vmem S384x256 .bf16) (harg2 : arg2.IsWhole) (arg3 : Memref sig .tc .vmem S1x128 .f32) (harg3 : arg3.IsWhole) (arg4 : Memref sig .tc .vmem S8064x16 .bf16) (harg4 : arg4.IsWhole) (arg5 : Memref sig .tc .vmem S1x16 .f32) (harg5 : arg5.IsWhole) (arg6 : Memref sig .tc .vmem S128x16 .f32) (harg6 : arg6.IsWhole)
    (x0 : Vec F S1x32768x128 .bf16) (x1 : Vec F S384x256 .bf16) (x2 : Vec F S1x128 .f32) (x3 : Vec F S8064x16 .bf16) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x0 x1 x2 x3 x4)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  simp only [k0_part23_eq_skeleton]; unfold k0_part23_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = outBlock (iblk m c 0 t) (iblk m c 1 t) (iblk m c 2 t) (iblk m c 3 t) (iblk m c 4 t) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    written-back blocks assemble to and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the five argument arrays are staged by no window, so they end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Region

end
-- ==== Proof.KernelIdealRegion.lean ====
/-
  The frame of the program `KernelIdeal`: one pallas_call on a grid of four batch tiles, after a line of host
  operations that re-lay the weights and the input. The body is straight-line: it loads its five input blocks whole (and one
  128×128 corner of the packed conv weight), computes, and stores the 128×16 output block whole. So at every grid point each
  input's staging buffer holds its block of the array the host line left, and the output's staging buffer ends at ONE pure
  function `outBlock` of the five input blocks; the pipeline library's frame run then gives termination, no fault, every
  bypassing buffer (the five arguments among them) as launched, and the output array assembled from the written-back blocks.
  Stated for any float instance `F`.
-/
import proofs.«128919_g2000302331999779_pallasbulk_1131_18_alg».proof.Proof.Gen.KernelIdeal.Launch
import proofs.«128919_g2000302331999779_pallasbulk_1131_18_alg».proof.Proof.Gen.KernelIdeal.Skeleton
import proofs.«128919_g2000302331999779_pallasbulk_1131_18_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- Core `c`'s buffer contents when the region is entered: the launch memory after the host line. -/
abbrev V (c : Dev nD) (b : Ref sig .tc) : Buf (Elt F) ((c : Thread nD τ).loc b) := StableHlo.after hostOps0 (fun b => m (c, b)) b

/-- The host line allocates nothing. -/
theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it stores -/

abbrev rX : Rect S1x32768x128 := Rect.unit (s := S1x32768x128) ![0, 0, 0] S1x32768x128.size inb_S1x32768x128_S1x32768x128_0_0_0
abbrev rW1 : Rect S384x256 := Rect.unit (s := S384x256) ![128, 0] S128x128.size inb_S384x256_S128x128_128_0
abbrev rB : Rect S1x128 := Rect.unit (s := S1x128) ![0, 0] S1x128.size inb_S1x128_S1x128_0_0
abbrev rW : Rect S384x256 := Rect.unit (s := S384x256) ![0, 0] S384x256.size inb_S384x256_S384x256_0_0
abbrev rL : Rect S8064x16 := Rect.unit (s := S8064x16) ![0, 0] S8064x16.size inb_S8064x16_S8064x16_0_0
abbrev rLb : Rect S1x16 := Rect.unit (s := S1x16) ![0, 0] S1x16.size inb_S1x16_S1x16_0_0
abbrev rO : Rect S128x16 := Rect.unit (s := S128x16) ![0, 0] S128x16.size inb_S128x16_S128x16_0_0

/-- The value the body stores, as a function of the five input blocks: the rows block `x0`, the packed conv weight `x1`,
    the conv bias row `x2`, the linear weight `x3` and the linear bias row `x4`; each intermediate value is named as the
    body names it. -/
def outVal (x0 : Vec F S1x32768x128 .bf16) (x1 : Vec F S384x256 .bf16) (x2 : Vec F S1x128 .f32) (x3 : Vec F S8064x16 .bf16) (x4 : Vec F S1x16 .f32) : FVec F S128x16 .f32 :=
  have v0 := View.ld x0 rX
  have v3 := View.ld x1 rW1
  have v6 := View.ld x2 rB
  have v12 := View.ld x1 rW
  have v7 := k0_pay3 v6
  have v14 := k0_pay4 v0 v12
  have v33 := k0_pay5 v0 v3 v6 v12
  have v44 := k0_pay6 v0 v12
  have v45 := k0_pay7 v0 v12
  have v46 := k0_pay8 v0 v12
  have v53 := k0_pay9 v7 v44 v45 v46
  have v73 := k0_pay10 v7 v14
  have v93 := k0_pay11 v7 v14
  have v100 := k0_pay12 v14
  have v103 := k0_pay13 v14
  have v113 := k0_pay14 v7 v14 v100 v103
  have v133 := k0_pay15 v7 v14
  have v153 := k0_pay16 v7 v14
  have v160 := k0_pay17 v14
  have v173 := k0_pay18 v7 v14 v160
  have v193 := k0_pay19 v7 v14
  have v213 := k0_pay20 v7 v14
  have v216 := k0_pay21 v14
  have v217 := k0_pay22 v14
  have v233 := k0_pay23 v7 v14 v216 v217
  have v253 := k0_pay24 v7 v14
  have v273 := k0_pay25 v7 v14
  have v274 := k0_pay26 v14
  have v293 := k0_pay27 v7 v14 v274
  have v313 := k0_pay28 v7 v14
  have v330 := k0_pay29 v7 v14
  have v331 := k0_pay30 (F := F)
  have v333 := k0_pay31 v330 v331
  have v353 := k0_pay32 v7 v14
  have v373 := k0_pay33 v7 v14
  have v388 := k0_pay34 v14
  have v389 := k0_pay35 v7
  have v393 := k0_pay36 v388 v389
  have v413 := k0_pay37 v7 v14
  have v433 := k0_pay38 v7 v14
  have v444 := k0_pay39 v14
  have v445 := k0_pay40 v14
  have v446 := k0_pay41 v14
  have v453 := k0_pay42 v7 v444 v445 v446
  have v473 := k0_pay43 v7 v14
  have v493 := k0_pay44 v7 v14
  have v500 := k0_pay45 v14
  have v503 := k0_pay46 v14
  have v513 := k0_pay47 v7 v14 v500 v503
  have v533 := k0_pay48 v7 v14
  have v553 := k0_pay49 v7 v14
  have v560 := k0_pay50 v14
  have v573 := k0_pay51 v7 v14 v560
  have v593 := k0_pay52 v7 v14
  have v613 := k0_pay53 v7 v14
  have v616 := k0_pay54 v14
  have v617 := k0_pay55 v14
  have v633 := k0_pay56 v7 v14 v616 v617
  have v653 := k0_pay57 v7 v14
  have v673 := k0_pay58 v7 v14
  have v674 := k0_pay59 v14
  have v693 := k0_pay60 v7 v14 v674
  have v713 := k0_pay61 v7 v14
  have v730 := k0_pay62 v7 v14
  have v731 := k0_pay63 (F := F)
  have v733 := k0_pay64 v730 v731
  have v753 := k0_pay65 v7 v14
  have v773 := k0_pay66 v7 v14
  have v788 := k0_pay67 v14
  have v789 := k0_pay68 v7
  have v793 := k0_pay69 v788 v789
  have v813 := k0_pay70 v7 v14
  have v833 := k0_pay71 v7 v14
  have v844 := k0_pay72 v14
  have v845 := k0_pay73 v14
  have v846 := k0_pay74 v14
  have v853 := k0_pay75 v7 v844 v845 v846
  have v873 := k0_pay76 v7 v14
  have v893 := k0_pay77 v7 v14
  have v900 := k0_pay78 v14
  have v903 := k0_pay79 v14
  have v913 := k0_pay80 v7 v14 v900 v903
  have v933 := k0_pay81 v7 v14
  have v953 := k0_pay82 v7 v14
  have v960 := k0_pay83 v14
  have v973 := k0_pay84 v7 v14 v960
  have v993 := k0_pay85 v7 v14
  have v1013 := k0_pay86 v7 v14
  have v1016 := k0_pay87 v14
  have v1017 := k0_pay88 v14
  have v1033 := k0_pay89 v7 v14 v1016 v1017
  have v1053 := k0_pay90 v7 v14
  have v1073 := k0_pay91 v7 v14
  have v1074 := k0_pay92 v14
  have v1093 := k0_pay93 v7 v14 v1074
  have v1113 := k0_pay94 v7 v14
  have v1130 := k0_pay95 v7 v14
  have v1131 := k0_pay96 (F := F)
  have v1133 := k0_pay97 v1130 v1131
  have v1153 := k0_pay98 v7 v14
  have v1173 := k0_pay99 v7 v14
  have v1188 := k0_pay100 v14
  have v1189 := k0_pay101 v7
  have v1193 := k0_pay102 v1188 v1189
  have v1213 := k0_pay103 v7 v14
  have v1233 := k0_pay104 v7 v14
  have v1244 := k0_pay105 v14
  have v1245 := k0_pay106 v14
  have v1246 := k0_pay107 v14
  have v1250 := k0_pay108 v7 v1244 v1245 v1246
  have v1270 := k0_pay109 v7 v14
  have v1274 := k0_pay110 v33 v53 v73 v93 v113 v133 v153 v173 v193 v213 v233 v253 v273 v293 v313 v333 v353 v373 v393 v413 v433 v453 v473 v493 v513 v533 v553 v573 v593 v613 v633 v653 v673 v693 v713 v733 v753 v773 v793 v813 v833 v853 v873 v893 v913 v933 v953 v973 v993 v1013 v1033 v1053 v1073 v1093 v1113 v1133 v1153 v1173 v1193 v1213 v1233 v1250 v1270
  have v1275 := View.ld x3 rL
  have v1278 := View.ld x4 rLb
  k0_pay1 (k0_pay111 v1274 v1275) v1278

/-- The output window's staging buffer after the body: its one whole store. -/
def outBlock (x0 : Vec F S1x32768x128 .bf16) (x1 : Vec F S384x256 .bf16) (x2 : Vec F S1x128 .f32) (x3 : Vec F S8064x16 .bf16) (x4 : Vec F S1x16 .f32) : Vec F S128x16 .f32 :=
  View.canon [⟨rO, outVal x0 x1 x2 x3 x4⟩]

/-- The one store covers the buffer. -/
theorem cover_out (p0 : Vec F S128x16 .f32) (y : S128x16.Idx) :
    ∃ pc ∈ ([⟨rO, p0⟩] : List (View.Piece (Elt F) S128x16 .f32)), y ∈ pc.1.set :=
  View.cover_of_tiled [⟨rO, p0⟩] S128x16.size (by rfl) y

/-! ## The body's triple -/

set_option maxHeartbeats 4000000 in
/-- The body on whole staging memrefs, the inputs' at contents `xW` and the output's at anything, runs to the continuation
    holding the inputs' as they were and the output's at `outBlock` of the inputs'. -/
theorem sound_kernel (c : Dev nD) (E : Set ℕ) (i : grid0.Coords) (arg1 : Memref sig .tc .vmem S1x32768x128 .bf16) (harg1 : arg1.IsWhole) (arg2 : Memref sig .tc .vmem S384x256 .bf16) (harg2 : arg2.IsWhole) (arg3 : Memref sig .tc .vmem S1x128 .f32) (harg3 : arg3.IsWhole) (arg4 : Memref sig .tc .vmem S8064x16 .bf16) (harg4 : arg4.IsWhole) (arg5 : Memref sig .tc .vmem S1x16 .f32) (harg5 : arg5.IsWhole) (arg6 : Memref sig .tc .vmem S128x16 .f32) (harg6 : arg6.IsWhole)
    (x0 : Vec F S1x32768x128 .bf16) (x1 : Vec F S384x256 .bf16) (x2 : Vec F S1x128 .f32) (x3 : Vec F S8064x16 .bf16) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x0 x1 x2 x3 x4)) -∗ K ⟨⟩))
      ⊢ wp frame (wpE (defs₀ (F := F)) Variants.none c none) E (cc0__fused_body i arg1 harg1 arg2 harg2 arg3 harg3 arg4 harg4 arg5 harg5 arg6 harg6) K := by
  simp only [cc0__fused_body_eq_skeleton]; unfold cc0__fused_body_skel
  simp only [k0_part23_eq_skeleton]; unfold k0_part23_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = outBlock (iblk m c 0 t) (iblk m c 1 t) (iblk m c 2 t) (iblk m c 3 t) (iblk m c 4 t) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    written-back blocks assemble to and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the five argument arrays are staged by no window, so they end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Region

end
-- ==== Proof.Spec.lean ====
/-
  The text-CNN forward pass as one function over the extended reals, for one batch row.

  A batch row's input is a table X of rows h = 0, 1, 2, … of 128 features, row 0 being the convolution's zero row of padding
  on top. The convolution has five taps, each a 128 × 128 matrix Wc k: conv row t, feature f, is the sum over the taps k and
  the input features d of X (t + k) d · Wc k d f. Pooled feature (j, f) is the largest of conv rows 4j … 4j+3 at f, plus the
  bias, clamped at zero. The logits contract the 63 × 128 pooled features against Wl and add a bias.

  Two arrangements of the pooling meet here: bias and clamp applied AFTER the maximum of the four rows (`pooled`), and
  applied to every row BEFORE it (`pooledRows`). They are equal on all extended reals: adding a fixed number and clamping at
  zero are monotone, so they commute with a maximum.
-/
import Idealize.ShloMosaic.PureOps.Ideal.Laws
import Idealize.ShloMosaic.Lib.ValueIdx

noncomputable section

open scoped BigOperators

namespace Cert.TextCnn

open Idealize.ShloMosaic Idealize.ShloMosaic.ValueIdx

/-- Conv row `t`, feature `f`: five taps over 128 input features. -/
def conv (X : ℕ → Fin 128 → EReal) (Wc : Fin 5 → Fin 128 → Fin 128 → EReal) (t : ℕ) (f : Fin 128) : EReal :=
  ∑ k : Fin 5, ∑ d : Fin 128, X (t + k.val) d * Wc k d f

/-- Pooled feature (j, f): the maximum of four conv rows, then bias, then the clamp at zero. -/
def pooled (X : ℕ → Fin 128 → EReal) (Wc : Fin 5 → Fin 128 → Fin 128 → EReal) (bc : Fin 128 → EReal) (j : Fin 63) (f : Fin 128) : EReal :=
  max (max (max (max (conv X Wc (4 * j.val) f) (conv X Wc (4 * j.val + 1) f)) (conv X Wc (4 * j.val + 2) f)) (conv X Wc (4 * j.val + 3) f) + bc f) 0

/-- The same with bias and clamp on every conv row before the maximum. -/
def pooledRows (X : ℕ → Fin 128 → EReal) (Wc : Fin 5 → Fin 128 → Fin 128 → EReal) (bc : Fin 128 → EReal) (j : Fin 63) (f : Fin 128) : EReal :=
  max (max (max (max (conv X Wc (4 * j.val) f + bc f) 0) (max (conv X Wc (4 * j.val + 1) f + bc f) 0)) (max (conv X Wc (4 * j.val + 2) f + bc f) 0)) (max (conv X Wc (4 * j.val + 3) f + bc f) 0)

theorem max_add_max0 (a b β : EReal) : max (max a b + β) 0 = max (max (a + β) 0) (max (b + β) 0) := by
  rcases le_total a b with h | h
  · have h' : a + β ≤ b + β := add_le_add_left h β
    rw [max_eq_right h, max_eq_right (max_le_max h' le_rfl)]
  · have h' : b + β ≤ a + β := add_le_add_left h β
    rw [max_eq_left h, max_eq_left (max_le_max h' le_rfl)]

/-- Bias and clamp commute with the pool. -/
theorem pooledRows_eq (X : ℕ → Fin 128 → EReal) (Wc : Fin 5 → Fin 128 → Fin 128 → EReal) (bc : Fin 128 → EReal) (j : Fin 63) (f : Fin 128) :
    pooledRows X Wc bc j f = pooled X Wc bc j f := by
  unfold pooledRows pooled
  rw [max_add_max0, max_add_max0, max_add_max0]

/-- The logits of one batch row, over `n` classes. -/
def logits {n : ℕ} (X : ℕ → Fin 128 → EReal) (Wc : Fin 5 → Fin 128 → Fin 128 → EReal) (bc : Fin 128 → EReal)
    (Wl : Fin 63 → Fin 128 → Fin n → EReal) (bl : Fin n → EReal) (c : Fin n) : EReal :=
  (∑ j : Fin 63, ∑ f : Fin 128, pooled X Wc bc j f * Wl j f c) + bl c

/-- Only input rows 0 … 255 are read. -/
theorem conv_congr {X X' : ℕ → Fin 128 → EReal} (h : ∀ r, r ≤ 255 → X r = X' r) (Wc : Fin 5 → Fin 128 → Fin 128 → EReal) (t : ℕ) (ht : t ≤ 251) (f : Fin 128) :
    conv X Wc t f = conv X' Wc t f := by
  unfold conv
  refine Finset.sum_congr rfl fun k _ => Finset.sum_congr rfl fun d _ => ?_
  rw [h (t + k.val) (by have := k.isLt; omega)]

theorem pooled_congr {X X' : ℕ → Fin 128 → EReal} (h : ∀ r, r ≤ 255 → X r = X' r) (Wc : Fin 5 → Fin 128 → Fin 128 → EReal) (bc : Fin 128 → EReal) (j : Fin 63) (f : Fin 128) :
    pooled X Wc bc j f = pooled X' Wc bc j f := by
  have hj := j.isLt
  unfold pooled
  rw [conv_congr h Wc _ (by omega), conv_congr h Wc _ (by omega), conv_congr h Wc _ (by omega), conv_congr h Wc _ (by omega)]

theorem logits_congr {n : ℕ} {X X' : ℕ → Fin 128 → EReal} (h : ∀ r, r ≤ 255 → X r = X' r) (Wc : Fin 5 → Fin 128 → Fin 128 → EReal) (bc : Fin 128 → EReal)
    (Wl : Fin 63 → Fin 128 → Fin n → EReal) (bl : Fin n → EReal) (c : Fin n) :
    logits X Wc bc Wl bl c = logits X' Wc bc Wl bl c := by
  unfold logits
  simp only [pooled_congr h]

/-- The logit of one class depends only on that class's column of the linear weight and its bias: two layouts of the classes (16
    lanes, or 128 lanes of which the first 16 are used) give the same number. -/
theorem logits_class_congr {n n' : ℕ} (X : ℕ → Fin 128 → EReal) (Wc : Fin 5 → Fin 128 → Fin 128 → EReal) (bc : Fin 128 → EReal)
    (Wl : Fin 63 → Fin 128 → Fin n → EReal) (bl : Fin n → EReal) (Wl' : Fin 63 → Fin 128 → Fin n' → EReal) (bl' : Fin n' → EReal)
    (c : Fin n) (c' : Fin n') (hW : ∀ j f, Wl' j f c' = Wl j f c) (hb : bl' c' = bl c) :
    logits X Wc bc Wl' bl' c' = logits X Wc bc Wl bl c := by
  unfold logits
  simp only [hW, hb]

/-- The whole result: 512 batch rows, 16 classes, from the five argument arrays
    (x : 512×1×256×128, conv_w : 128×1×5×128, conv_b : 128, lin_w : 16×8064, lin_b : 16). Input row h ≥ 1 of batch row b is
    x[b, 0, h−1, ·]; tap k is conv_w[·, 0, k, ·] transposed; the linear weight of pooled feature (j, f) is lin_w[·, f·63 + j]. -/
def specOut (x : (⟨4, ![512, 1, 256, 128]⟩ : Shape).Idx → EReal) (cw : (⟨4, ![128, 1, 5, 128]⟩ : Shape).Idx → EReal)
    (cb : (⟨1, ![128]⟩ : Shape).Idx → EReal) (lw : (⟨2, ![16, 8064]⟩ : Shape).Idx → EReal) (lb : (⟨1, ![16]⟩ : Shape).Idx → EReal) :
    (⟨2, ![512, 16]⟩ : Shape).Idx → EReal := fun i =>
  logits
    (fun h d => if hh : 1 ≤ h ∧ h ≤ 255 then x (ix4 (i 0) (0 : Fin 1) (⟨h - 1, by omega⟩ : Fin 256) d) else 0)
    (fun k d f => cw (ix4 f (0 : Fin 1) k d))
    (fun f => cb (ix1 f))
    (fun j f c => lw (ix2 c (⟨f.val * 63 + j.val, by have := f.isLt; have := j.isLt; omega⟩ : Fin 8064)))
    (fun c => lb (ix1 c))
    (i 1)

end Cert.TextCnn

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KernelIdealBody.lean ====
/-
  The kernel body's stored value read at one entry, over the extended reals: row r of the 128-row block, class c.
  The row's input table has the zero padding row on top and block row (h−1)·128 + r as input row h; the five taps sit in the
  packed 384 × 256 weight as [[tap0 | tap2], [tap1 | tap3], [0 | tap4]], whose lower-left 128 × 128 block must hold zeros.
-/
import proofs.«128919_g2000302331999779_pallasbulk_1131_18_alg».proof.Proof.KernelIdealRegion
import proofs.«128919_g2000302331999779_pallasbulk_1131_18_alg».proof.Proof.Spec
import proofs.«128919_g2000302331999779_pallasbulk_1131_18_alg».proof.Proof.LibPlainDot
import proofs.«128919_g2000302331999779_pallasbulk_1131_18_alg».proof.Proof.LibRowVector
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region

open Cert.KernelIdeal Cert.KernelIdeal.Gen
open Idealize.ShloMosaic Idealize.ShloMosaic.ValueIdx

/-- Input row `h` of block row `r`: the zero row at h = 0, then the block's rows (h−1)·128 + r. -/
def blockX (x0 : Vec Ideal S1x32768x128 .bf16) (r : Fin 128) : ℕ → Fin 128 → EReal := fun h d =>
  if hh : 1 ≤ h ∧ h ≤ 255 then x0 (ix3 (0 : Fin 1) (⟨(h - 1) * 128 + r.val, by have := r.isLt; omega⟩ : Fin 32768) d) else 0

/-- Tap `k` read out of the packed weight. -/
def blockWc (x1 : Vec Ideal S384x256 .bf16) : Fin 5 → Fin 128 → Fin 128 → EReal := fun k d f =>
  match k with
  | ⟨0, _⟩ => x1 (ix2 (⟨d.val, by have := d.isLt; omega⟩ : Fin 384) (⟨f.val, by have := f.isLt; omega⟩ : Fin 256))
  | ⟨1, _⟩ => x1 (ix2 (⟨128 + d.val, by have := d.isLt; omega⟩ : Fin 384) (⟨f.val, by have := f.isLt; omega⟩ : Fin 256))
  | ⟨2, _⟩ => x1 (ix2 (⟨d.val, by have := d.isLt; omega⟩ : Fin 384) (⟨128 + f.val, by have := f.isLt; omega⟩ : Fin 256))
  | ⟨3, _⟩ => x1 (ix2 (⟨128 + d.val, by have := d.isLt; omega⟩ : Fin 384) (⟨128 + f.val, by have := f.isLt; omega⟩ : Fin 256))
  | ⟨4, _⟩ => x1 (ix2 (⟨256 + d.val, by have := d.isLt; omega⟩ : Fin 384) (⟨128 + f.val, by have := f.isLt; omega⟩ : Fin 256))

/-- The linear weight of pooled feature (j, f): row j·128 + f of the 8064 × 16 block. -/
def blockWl (x3 : Vec Ideal S8064x16 .bf16) : Fin 63 → Fin 128 → Fin 16 → EReal := fun j f c =>
  x3 (ix2 (⟨j.val * 128 + f.val, by have := j.isLt; have := f.isLt; omega⟩ : Fin 8064) c)

/-! ## The body's value with its repeated pieces written once -/

theorem slices_z (o l : ℕ) (ho : o + 128 ≤ 32512) (hl : l + 128 ≤ 256) : S32512x256.Slices ![o, l] S128x128 :=
  ⟨rfl, fun a => by
    match a with
    | ⟨0, _⟩ => exact ho
    | ⟨1, _⟩ => exact hl⟩

/-- Rows [o, o+128), lanes [l, l+128) of the big product. -/
def zBlk (z : FVec Ideal S32512x256 .f32) (o l : ℕ) (ho : o + 128 ≤ 32512) (hl : l + 128 ≤ 256) : FVec Ideal S128x128 .f32 :=
  extractStridedSlice S128x128 ![o, l] z (slices_z o l ho hl)

/-- Conv row block `t` (128 batch rows × 128 features): the right half of product row block t+1 plus the left half of row
    block t−1; at t = 0 the boundary product `top` stands for the missing block. -/
def slabK (z : FVec Ideal S32512x256 .f32) (top : FVec Ideal S128x128 .f32) (t : ℕ) (ht : t < 252) : FVec Ideal S128x128 .f32 :=
  if t = 0 then addf (zBlk z 128 128 (by omega) (by omega)) top
  else addf (zBlk z ((t + 1) * 128) 128 (by omega) (by omega)) (zBlk z ((t - 1) * 128) 0 (by omega) (by omega))

/-- Pooled block `j`: the maximum of conv row blocks 4j … 4j+3, plus the bias row, clamped at zero. -/
def pieceK (b : FVec Ideal S1x128 .f32) (z : FVec Ideal S32512x256 .f32) (top : FVec Ideal S128x128 .f32) (j : Fin 63) : FVec Ideal S128x128 .bf16 :=
  truncf .bf16
    (maximumf
      (addf
        (maximumf (maximumf (maximumf (slabK z top (4 * j.val) (by have := j.isLt; omega)) (slabK z top (4 * j.val + 1) (by have := j.isLt; omega)))
          (slabK z top (4 * j.val + 2) (by have := j.isLt; omega))) (slabK z top (4 * j.val + 3) (by have := j.isLt; omega)))
        (broadcastTo S128x128 b broadcasts_S1x128_S128x128))
      (broadcast S128x128 (Scalar.ofBits .f32 0x00000000#32)))
    bitsLt_bf16_f32

/-- The boundary product: the block's first 128 rows against tap 1. -/
def topK (v0 : Vec Ideal S1x32768x128 .bf16) (v3 : Vec Ideal S128x128 .bf16) : FVec Ideal S128x128 .f32 :=
  matmul dot_S128x128_S128x128_S128x128_1_0_0_1_n_n none
    (extractStridedSlice S128x128 ![0, 0] (k0_pay2 v0) slices_S32768x128_o0_0_S128x128 : FVec Ideal S128x128 .bf16)
    (shapeCast S128x128 v3 shapeCasts_S128x128_S128x128 : FVec Ideal S128x128 .bf16) (constant S128x128 .f32 0x00000000#32)

theorem piece_0 (v0 : Vec Ideal S1x32768x128 .bf16) (v3 : Vec Ideal S128x128 .bf16) (v6 : Vec Ideal S1x128 .f32) (v12 : Vec Ideal S384x256 .bf16) :
    (k0_pay5 v0 v3 v6 v12) = pieceK (k0_pay3 v6) (k0_pay4 v0 v12) (topK v0 v3) ⟨0, by omega⟩ := rfl

theorem piece_1 (v0 : Vec Ideal S1x32768x128 .bf16) (v3 : Vec Ideal S128x128 .bf16) (v6 : Vec Ideal S1x128 .f32) (v12 : Vec Ideal S384x256 .bf16) :
    (k0_pay9 (k0_pay3 v6) (k0_pay6 v0 v12) (k0_pay7 v0 v12) (k0_pay8 v0 v12)) = pieceK (k0_pay3 v6) (k0_pay4 v0 v12) (topK v0 v3) ⟨1, by omega⟩ := rfl

theorem piece_2 (v0 : Vec Ideal S1x32768x128 .bf16) (v3 : Vec Ideal S128x128 .bf16) (v6 : Vec Ideal S1x128 .f32) (v12 : Vec Ideal S384x256 .bf16) :
    (k0_pay10 (k0_pay3 v6) (k0_pay4 v0 v12)) = pieceK (k0_pay3 v6) (k0_pay4 v0 v12) (topK v0 v3) ⟨2, by omega⟩ := rfl

theorem piece_3 (v0 : Vec Ideal S1x32768x128 .bf16) (v3 : Vec Ideal S128x128 .bf16) (v6 : Vec Ideal S1x128 .f32) (v12 : Vec Ideal S384x256 .bf16) :
    (k0_pay11 (k0_pay3 v6) (k0_pay4 v0 v12)) = pieceK (k0_pay3 v6) (k0_pay4 v0 v12) (topK v0 v3) ⟨3, by omega⟩ := rfl

theorem piece_4 (v0 : Vec Ideal S1x32768x128 .bf16) (v3 : Vec Ideal S128x128 .bf16) (v6 : Vec Ideal S1x128 .f32) (v12 : Vec Ideal S384x256 .bf16) :
    (k0_pay14 (k0_pay3 v6) (k0_pay4 v0 v12) (k0_pay12 (k0_pay4 v0 v12)) (k0_pay13 (k0_pay4 v0 v12))) = pieceK (k0_pay3 v6) (k0_pay4 v0 v12) (topK v0 v3) ⟨4, by omega⟩ := rfl

theorem piece_5 (v0 : Vec Ideal S1x32768x128 .bf16) (v3 : Vec Ideal S128x128 .bf16) (v6 : Vec Ideal S1x128 .f32) (v12 : Vec Ideal S384x256 .bf16) :
    (k0_pay15 (k0_pay3 v6) (k0_pay4 v0 v12)) = pieceK (k0_pay3 v6) (k0_pay4 v0 v12) (topK v0 v3) ⟨5, by omega⟩ := rfl

theorem piece_6 (v0 : Vec Ideal S1x32768x128 .bf16) (v3 : Vec Ideal S128x128 .bf16) (v6 : Vec Ideal S1x128 .f32) (v12 : Vec Ideal S384x256 .bf16) :
    (k0_pay16 (k0_pay3 v6) (k0_pay4 v0 v12)) = pieceK (k0_pay3 v6) (k0_pay4 v0 v12) (topK v0 v3) ⟨6, by omega⟩ := rfl

theorem piece_7 (v0 : Vec Ideal S1x32768x128 .bf16) (v3 : Vec Ideal S128x128 .bf16) (v6 : Vec Ideal S1x128 .f32) (v12 : Vec Ideal S384x256 .bf16) :
    (k0_pay18 (k0_pay3 v6) (k0_pay4 v0 v12) (k0_pay17 (k0_pay4 v0 v12))) = pieceK (k0_pay3 v6) (k0_pay4 v0 v12) (topK v0 v3) ⟨7, by omega⟩ := rfl

theorem piece_8 (v0 : Vec Ideal S1x32768x128 .bf16) (v3 : Vec Ideal S128x128 .bf16) (v6 : Vec Ideal S1x128 .f32) (v12 : Vec Ideal S384x256 .bf16) :
    (k0_pay19 (k0_pay3 v6) (k0_pay4 v0 v12)) = pieceK (k0_pay3 v6) (k0_pay4 v0 v12) (topK v0 v3) ⟨8, by omega⟩ := rfl

theorem piece_9 (v0 : Vec Ideal S1x32768x128 .bf16) (v3 : Vec Ideal S128x128 .bf16) (v6 : Vec Ideal S1x128 .f32) (v12 : Vec Ideal S384x256 .bf16) :
    (k0_pay20 (k0_pay3 v6) (k0_pay4 v0 v12)) = pieceK (k0_pay3 v6) (k0_pay4 v0 v12) (topK v0 v3) ⟨9, by omega⟩ := rfl

theorem piece_10 (v0 : Vec Ideal S1x32768x128 .bf16) (v3 : Vec Ideal S128x128 .bf16) (v6 : Vec Ideal S1x128 .f32) (v12 : Vec Ideal S384x256 .bf16) :
    (k0_pay23 (k0_pay3 v6) (k0_pay4 v0 v12) (k0_pay21 (k0_pay4 v0 v12)) (k0_pay22 (k0_pay4 v0 v12))) = pieceK (k0_pay3 v6) (k0_pay4 v0 v12) (topK v0 v3) ⟨10, by omega⟩ := rfl

theorem piece_11 (v0 : Vec Ideal S1x32768x128 .bf16) (v3 : Vec Ideal S128x128 .bf16) (v6 : Vec Ideal S1x128 .f32) (v12 : Vec Ideal S384x256 .bf16) :
    (k0_pay24 (k0_pay3 v6) (k0_pay4 v0 v12)) = pieceK (k0_pay3 v6) (k0_pay4 v0 v12) (topK v0 v3) ⟨11, by omega⟩ := rfl

theorem piece_12 (v0 : Vec Ideal S1x32768x128 .bf16) (v3 : Vec Ideal S128x128 .bf16) (v6 : Vec Ideal S1x128 .f32) (v12 : Vec Ideal S384x256 .bf16) :
    (k0_pay25 (k0_pay3 v6) (k0_pay4 v0 v12)) = pieceK (k0_pay3 v6) (k0_pay4 v0 v12) (topK v0 v3) ⟨12, by omega⟩ := rfl

theorem piece_13 (v0 : Vec Ideal S1x32768x128 .bf16) (v3 : Vec Ideal S128x128 .bf16) (v6 : Vec Ideal S1x128 .f32) (v12 : Vec Ideal S384x256 .bf16) :
    (k0_pay27 (k0_pay3 v6) (k0_pay4 v0 v12) (k0_pay26 (k0_pay4 v0 v12))) = pieceK (k0_pay3 v6) (k0_pay4 v0 v12) (topK v0 v3) ⟨13, by omega⟩ := rfl

theorem piece_14 (v0 : Vec Ideal S1x32768x128 .bf16) (v3 : Vec Ideal S128x128 .bf16) (v6 : Vec Ideal S1x128 .f32) (v12 : Vec Ideal S384x256 .bf16) :
    (k0_pay28 (k0_pay3 v6) (k0_pay4 v0 v12)) = pieceK (k0_pay3 v6) (k0_pay4 v0 v12) (topK v0 v3) ⟨14, by omega⟩ := rfl

theorem piece_15 (v0 : Vec Ideal S1x32768x128 .bf16) (v3 : Vec Ideal S128x128 .bf16) (v6 : Vec Ideal S1x128 .f32) (v12 : Vec Ideal S384x256 .bf16) :
    (k0_pay31 (k0_pay29 (k0_pay3 v6) (k0_pay4 v0 v12)) (k0_pay30 (F := Ideal))) = pieceK (k0_pay3 v6) (k0_pay4 v0 v12) (topK v0 v3) ⟨15, by omega⟩ := rfl

theorem piece_16 (v0 : Vec Ideal S1x32768x128 .bf16) (v3 : Vec Ideal S128x128 .bf16) (v6 : Vec Ideal S1x128 .f32) (v12 : Vec Ideal S384x256 .bf16) :
    (k0_pay32 (k0_pay3 v6) (k0_pay4 v0 v12)) = pieceK (k0_pay3 v6) (k0_pay4 v0 v12) (topK v0 v3) ⟨16, by omega⟩ := rfl

theorem piece_17 (v0 : Vec Ideal S1x32768x128 .bf16) (v3 : Vec Ideal S128x128 .bf16) (v6 : Vec Ideal S1x128 .f32) (v12 : Vec Ideal S384x256 .bf16) :
    (k0_pay33 (k0_pay3 v6) (k0_pay4 v0 v12)) = pieceK (k0_pay3 v6) (k0_pay4 v0 v12) (topK v0 v3) ⟨17, by omega⟩ := rfl

theorem piece_18 (v0 : Vec Ideal S1x32768x128 .bf16) (v3 : Vec Ideal S128x128 .bf16) (v6 : Vec Ideal S1x128 .f32) (v12 : Vec Ideal S384x256 .bf16) :
    (k0_pay36 (k0_pay34 (k0_pay4 v0 v12)) (k0_pay35 (k0_pay3 v6))) = pieceK (k0_pay3 v6) (k0_pay4 v0 v12) (topK v0 v3) ⟨18, by omega⟩ := rfl

theorem piece_19 (v0 : Vec Ideal S1x32768x128 .bf16) (v3 : Vec Ideal S128x128 .bf16) (v6 : Vec Ideal S1x128 .f32) (v12 : Vec Ideal S384x256 .bf16) :
    (k0_pay37 (k0_pay3 v6) (k0_pay4 v0 v12)) = pieceK (k0_pay3 v6) (k0_pay4 v0 v12) (topK v0 v3) ⟨19, by omega⟩ := rfl

theorem piece_20 (v0 : Vec Ideal S1x32768x128 .bf16) (v3 : Vec Ideal S128x128 .bf16) (v6 : Vec Ideal S1x128 .f32) (v12 : Vec Ideal S384x256 .bf16) :
    (k0_pay38 (k0_pay3 v6) (k0_pay4 v0 v12)) = pieceK (k0_pay3 v6) (k0_pay4 v0 v12) (topK v0 v3) ⟨20, by omega⟩ := rfl

theorem piece_21 (v0 : Vec Ideal S1x32768x128 .bf16) (v3 : Vec Ideal S128x128 .bf16) (v6 : Vec Ideal S1x128 .f32) (v12 : Vec Ideal S384x256 .bf16) :
    (k0_pay42 (k0_pay3 v6) (k0_pay39 (k0_pay4 v0 v12)) (k0_pay40 (k0_pay4 v0 v12)) (k0_pay41 (k0_pay4 v0 v12))) = pieceK (k0_pay3 v6) (k0_pay4 v0 v12) (topK v0 v3) ⟨21, by omega⟩ := rfl

theorem piece_22 (v0 : Vec Ideal S1x32768x128 .bf16) (v3 : Vec Ideal S128x128 .bf16) (v6 : Vec Ideal S1x128 .f32) (v12 : Vec Ideal S384x256 .bf16) :
    (k0_pay43 (k0_pay3 v6) (k0_pay4 v0 v12)) = pieceK (k0_pay3 v6) (k0_pay4 v0 v12) (topK v0 v3) ⟨22, by omega⟩ := rfl

theorem piece_23 (v0 : Vec Ideal S1x32768x128 .bf16) (v3 : Vec Ideal S128x128 .bf16) (v6 : Vec Ideal S1x128 .f32) (v12 : Vec Ideal S384x256 .bf16) :
    (k0_pay44 (k0_pay3 v6) (k0_pay4 v0 v12)) = pieceK (k0_pay3 v6) (k0_pay4 v0 v12) (topK v0 v3) ⟨23, by omega⟩ := rfl

theorem piece_24 (v0 : Vec Ideal S1x32768x128 .bf16) (v3 : Vec Ideal S128x128 .bf16) (v6 : Vec Ideal S1x128 .f32) (v12 : Vec Ideal S384x256 .bf16) :
    (k0_pay47 (k0_pay3 v6) (k0_pay4 v0 v12) (k0_pay45 (k0_pay4 v0 v12)) (k0_pay46 (k0_pay4 v0 v12))) = pieceK (k0_pay3 v6) (k0_pay4 v0 v12) (topK v0 v3) ⟨24, by omega⟩ := rfl

theorem piece_25 (v0 : Vec Ideal S1x32768x128 .bf16) (v3 : Vec Ideal S128x128 .bf16) (v6 : Vec Ideal S1x128 .f32) (v12 : Vec Ideal S384x256 .bf16) :
    (k0_pay48 (k0_pay3 v6) (k0_pay4 v0 v12)) = pieceK (k0_pay3 v6) (k0_pay4 v0 v12) (topK v0 v3) ⟨25, by omega⟩ := rfl

theorem piece_26 (v0 : Vec Ideal S1x32768x128 .bf16) (v3 : Vec Ideal S128x128 .bf16) (v6 : Vec Ideal S1x128 .f32) (v12 : Vec Ideal S384x256 .bf16) :
    (k0_pay49 (k0_pay3 v6) (k0_pay4 v0 v12)) = pieceK (k0_pay3 v6) (k0_pay4 v0 v12) (topK v0 v3) ⟨26, by omega⟩ := rfl

theorem piece_27 (v0 : Vec Ideal S1x32768x128 .bf16) (v3 : Vec Ideal S128x128 .bf16) (v6 : Vec Ideal S1x128 .f32) (v12 : Vec Ideal S384x256 .bf16) :
    (k0_pay51 (k0_pay3 v6) (k0_pay4 v0 v12) (k0_pay50 (k0_pay4 v0 v12))) = pieceK (k0_pay3 v6) (k0_pay4 v0 v12) (topK v0 v3) ⟨27, by omega⟩ := rfl

theorem piece_28 (v0 : Vec Ideal S1x32768x128 .bf16) (v3 : Vec Ideal S128x128 .bf16) (v6 : Vec Ideal S1x128 .f32) (v12 : Vec Ideal S384x256 .bf16) :
    (k0_pay52 (k0_pay3 v6) (k0_pay4 v0 v12)) = pieceK (k0_pay3 v6) (k0_pay4 v0 v12) (topK v0 v3) ⟨28, by omega⟩ := rfl

theorem piece_29 (v0 : Vec Ideal S1x32768x128 .bf16) (v3 : Vec Ideal S128x128 .bf16) (v6 : Vec Ideal S1x128 .f32) (v12 : Vec Ideal S384x256 .bf16) :
    (k0_pay53 (k0_pay3 v6) (k0_pay4 v0 v12)) = pieceK (k0_pay3 v6) (k0_pay4 v0 v12) (topK v0 v3) ⟨29, by omega⟩ := rfl

theorem piece_30 (v0 : Vec Ideal S1x32768x128 .bf16) (v3 : Vec Ideal S128x128 .bf16) (v6 : Vec Ideal S1x128 .f32) (v12 : Vec Ideal S384x256 .bf16) :
    (k0_pay56 (k0_pay3 v6) (k0_pay4 v0 v12) (k0_pay54 (k0_pay4 v0 v12)) (k0_pay55 (k0_pay4 v0 v12))) = pieceK (k0_pay3 v6) (k0_pay4 v0 v12) (topK v0 v3) ⟨30, by omega⟩ := rfl

theorem piece_31 (v0 : Vec Ideal S1x32768x128 .bf16) (v3 : Vec Ideal S128x128 .bf16) (v6 : Vec Ideal S1x128 .f32) (v12 : Vec Ideal S384x256 .bf16) :
    (k0_pay57 (k0_pay3 v6) (k0_pay4 v0 v12)) = pieceK (k0_pay3 v6) (k0_pay4 v0 v12) (topK v0 v3) ⟨31, by omega⟩ := rfl

theorem piece_32 (v0 : Vec Ideal S1x32768x128 .bf16) (v3 : Vec Ideal S128x128 .bf16) (v6 : Vec Ideal S1x128 .f32) (v12 : Vec Ideal S384x256 .bf16) :
    (k0_pay58 (k0_pay3 v6) (k0_pay4 v0 v12)) = pieceK (k0_pay3 v6) (k0_pay4 v0 v12) (topK v0 v3) ⟨32, by omega⟩ := rfl

theorem piece_33 (v0 : Vec Ideal S1x32768x128 .bf16) (v3 : Vec Ideal S128x128 .bf16) (v6 : Vec Ideal S1x128 .f32) (v12 : Vec Ideal S384x256 .bf16) :
    (k0_pay60 (k0_pay3 v6) (k0_pay4 v0 v12) (k0_pay59 (k0_pay4 v0 v12))) = pieceK (k0_pay3 v6) (k0_pay4 v0 v12) (topK v0 v3) ⟨33, by omega⟩ := rfl

theorem piece_34 (v0 : Vec Ideal S1x32768x128 .bf16) (v3 : Vec Ideal S128x128 .bf16) (v6 : Vec Ideal S1x128 .f32) (v12 : Vec Ideal S384x256 .bf16) :
    (k0_pay61 (k0_pay3 v6) (k0_pay4 v0 v12)) = pieceK (k0_pay3 v6) (k0_pay4 v0 v12) (topK v0 v3) ⟨34, by omega⟩ := rfl

theorem piece_35 (v0 : Vec Ideal S1x32768x128 .bf16) (v3 : Vec Ideal S128x128 .bf16) (v6 : Vec Ideal S1x128 .f32) (v12 : Vec Ideal S384x256 .bf16) :
    (k0_pay64 (k0_pay62 (k0_pay3 v6) (k0_pay4 v0 v12)) (k0_pay63 (F := Ideal))) = pieceK (k0_pay3 v6) (k0_pay4 v0 v12) (topK v0 v3) ⟨35, by omega⟩ := rfl

theorem piece_36 (v0 : Vec Ideal S1x32768x128 .bf16) (v3 : Vec Ideal S128x128 .bf16) (v6 : Vec Ideal S1x128 .f32) (v12 : Vec Ideal S384x256 .bf16) :
    (k0_pay65 (k0_pay3 v6) (k0_pay4 v0 v12)) = pieceK (k0_pay3 v6) (k0_pay4 v0 v12) (topK v0 v3) ⟨36, by omega⟩ := rfl

theorem piece_37 (v0 : Vec Ideal S1x32768x128 .bf16) (v3 : Vec Ideal S128x128 .bf16) (v6 : Vec Ideal S1x128 .f32) (v12 : Vec Ideal S384x256 .bf16) :
    (k0_pay66 (k0_pay3 v6) (k0_pay4 v0 v12)) = pieceK (k0_pay3 v6) (k0_pay4 v0 v12) (topK v0 v3) ⟨37, by omega⟩ := rfl

theorem piece_38 (v0 : Vec Ideal S1x32768x128 .bf16) (v3 : Vec Ideal S128x128 .bf16) (v6 : Vec Ideal S1x128 .f32) (v12 : Vec Ideal S384x256 .bf16) :
    (k0_pay69 (k0_pay67 (k0_pay4 v0 v12)) (k0_pay68 (k0_pay3 v6))) = pieceK (k0_pay3 v6) (k0_pay4 v0 v12) (topK v0 v3) ⟨38, by omega⟩ := rfl

theorem piece_39 (v0 : Vec Ideal S1x32768x128 .bf16) (v3 : Vec Ideal S128x128 .bf16) (v6 : Vec Ideal S1x128 .f32) (v12 : Vec Ideal S384x256 .bf16) :
    (k0_pay70 (k0_pay3 v6) (k0_pay4 v0 v12)) = pieceK (k0_pay3 v6) (k0_pay4 v0 v12) (topK v0 v3) ⟨39, by omega⟩ := rfl

theorem piece_40 (v0 : Vec Ideal S1x32768x128 .bf16) (v3 : Vec Ideal S128x128 .bf16) (v6 : Vec Ideal S1x128 .f32) (v12 : Vec Ideal S384x256 .bf16) :
    (k0_pay71 (k0_pay3 v6) (k0_pay4 v0 v12)) = pieceK (k0_pay3 v6) (k0_pay4 v0 v12) (topK v0 v3) ⟨40, by omega⟩ := rfl

theorem piece_41 (v0 : Vec Ideal S1x32768x128 .bf16) (v3 : Vec Ideal S128x128 .bf16) (v6 : Vec Ideal S1x128 .f32) (v12 : Vec Ideal S384x256 .bf16) :
    (k0_pay75 (k0_pay3 v6) (k0_pay72 (k0_pay4 v0 v12)) (k0_pay73 (k0_pay4 v0 v12)) (k0_pay74 (k0_pay4 v0 v12))) = pieceK (k0_pay3 v6) (k0_pay4 v0 v12) (topK v0 v3) ⟨41, by omega⟩ := rfl

theorem piece_42 (v0 : Vec Ideal S1x32768x128 .bf16) (v3 : Vec Ideal S128x128 .bf16) (v6 : Vec Ideal S1x128 .f32) (v12 : Vec Ideal S384x256 .bf16) :
    (k0_pay76 (k0_pay3 v6) (k0_pay4 v0 v12)) = pieceK (k0_pay3 v6) (k0_pay4 v0 v12) (topK v0 v3) ⟨42, by omega⟩ := rfl

theorem piece_43 (v0 : Vec Ideal S1x32768x128 .bf16) (v3 : Vec Ideal S128x128 .bf16) (v6 : Vec Ideal S1x128 .f32) (v12 : Vec Ideal S384x256 .bf16) :
    (k0_pay77 (k0_pay3 v6) (k0_pay4 v0 v12)) = pieceK (k0_pay3 v6) (k0_pay4 v0 v12) (topK v0 v3) ⟨43, by omega⟩ := rfl

theorem piece_44 (v0 : Vec Ideal S1x32768x128 .bf16) (v3 : Vec Ideal S128x128 .bf16) (v6 : Vec Ideal S1x128 .f32) (v12 : Vec Ideal S384x256 .bf16) :
    (k0_pay80 (k0_pay3 v6) (k0_pay4 v0 v12) (k0_pay78 (k0_pay4 v0 v12)) (k0_pay79 (k0_pay4 v0 v12))) = pieceK (k0_pay3 v6) (k0_pay4 v0 v12) (topK v0 v3) ⟨44, by omega⟩ := rfl

theorem piece_45 (v0 : Vec Ideal S1x32768x128 .bf16) (v3 : Vec Ideal S128x128 .bf16) (v6 : Vec Ideal S1x128 .f32) (v12 : Vec Ideal S384x256 .bf16) :
    (k0_pay81 (k0_pay3 v6) (k0_pay4 v0 v12)) = pieceK (k0_pay3 v6) (k0_pay4 v0 v12) (topK v0 v3) ⟨45, by omega⟩ := rfl

theorem piece_46 (v0 : Vec Ideal S1x32768x128 .bf16) (v3 : Vec Ideal S128x128 .bf16) (v6 : Vec Ideal S1x128 .f32) (v12 : Vec Ideal S384x256 .bf16) :
    (k0_pay82 (k0_pay3 v6) (k0_pay4 v0 v12)) = pieceK (k0_pay3 v6) (k0_pay4 v0 v12) (topK v0 v3) ⟨46, by omega⟩ := rfl

theorem piece_47 (v0 : Vec Ideal S1x32768x128 .bf16) (v3 : Vec Ideal S128x128 .bf16) (v6 : Vec Ideal S1x128 .f32) (v12 : Vec Ideal S384x256 .bf16) :
    (k0_pay84 (k0_pay3 v6) (k0_pay4 v0 v12) (k0_pay83 (k0_pay4 v0 v12))) = pieceK (k0_pay3 v6) (k0_pay4 v0 v12) (topK v0 v3) ⟨47, by omega⟩ := rfl

theorem piece_48 (v0 : Vec Ideal S1x32768x128 .bf16) (v3 : Vec Ideal S128x128 .bf16) (v6 : Vec Ideal S1x128 .f32) (v12 : Vec Ideal S384x256 .bf16) :
    (k0_pay85 (k0_pay3 v6) (k0_pay4 v0 v12)) = pieceK (k0_pay3 v6) (k0_pay4 v0 v12) (topK v0 v3) ⟨48, by omega⟩ := rfl

theorem piece_49 (v0 : Vec Ideal S1x32768x128 .bf16) (v3 : Vec Ideal S128x128 .bf16) (v6 : Vec Ideal S1x128 .f32) (v12 : Vec Ideal S384x256 .bf16) :
    (k0_pay86 (k0_pay3 v6) (k0_pay4 v0 v12)) = pieceK (k0_pay3 v6) (k0_pay4 v0 v12) (topK v0 v3) ⟨49, by omega⟩ := rfl

theorem piece_50 (v0 : Vec Ideal S1x32768x128 .bf16) (v3 : Vec Ideal S128x128 .bf16) (v6 : Vec Ideal S1x128 .f32) (v12 : Vec Ideal S384x256 .bf16) :
    (k0_pay89 (k0_pay3 v6) (k0_pay4 v0 v12) (k0_pay87 (k0_pay4 v0 v12)) (k0_pay88 (k0_pay4 v0 v12))) = pieceK (k0_pay3 v6) (k0_pay4 v0 v12) (topK v0 v3) ⟨50, by omega⟩ := rfl

theorem piece_51 (v0 : Vec Ideal S1x32768x128 .bf16) (v3 : Vec Ideal S128x128 .bf16) (v6 : Vec Ideal S1x128 .f32) (v12 : Vec Ideal S384x256 .bf16) :
    (k0_pay90 (k0_pay3 v6) (k0_pay4 v0 v12)) = pieceK (k0_pay3 v6) (k0_pay4 v0 v12) (topK v0 v3) ⟨51, by omega⟩ := rfl

theorem piece_52 (v0 : Vec Ideal S1x32768x128 .bf16) (v3 : Vec Ideal S128x128 .bf16) (v6 : Vec Ideal S1x128 .f32) (v12 : Vec Ideal S384x256 .bf16) :
    (k0_pay91 (k0_pay3 v6) (k0_pay4 v0 v12)) = pieceK (k0_pay3 v6) (k0_pay4 v0 v12) (topK v0 v3) ⟨52, by omega⟩ := rfl

theorem piece_53 (v0 : Vec Ideal S1x32768x128 .bf16) (v3 : Vec Ideal S128x128 .bf16) (v6 : Vec Ideal S1x128 .f32) (v12 : Vec Ideal S384x256 .bf16) :
    (k0_pay93 (k0_pay3 v6) (k0_pay4 v0 v12) (k0_pay92 (k0_pay4 v0 v12))) = pieceK (k0_pay3 v6) (k0_pay4 v0 v12) (topK v0 v3) ⟨53, by omega⟩ := rfl

theorem piece_54 (v0 : Vec Ideal S1x32768x128 .bf16) (v3 : Vec Ideal S128x128 .bf16) (v6 : Vec Ideal S1x128 .f32) (v12 : Vec Ideal S384x256 .bf16) :
    (k0_pay94 (k0_pay3 v6) (k0_pay4 v0 v12)) = pieceK (k0_pay3 v6) (k0_pay4 v0 v12) (topK v0 v3) ⟨54, by omega⟩ := rfl

theorem piece_55 (v0 : Vec Ideal S1x32768x128 .bf16) (v3 : Vec Ideal S128x128 .bf16) (v6 : Vec Ideal S1x128 .f32) (v12 : Vec Ideal S384x256 .bf16) :
    (k0_pay97 (k0_pay95 (k0_pay3 v6) (k0_pay4 v0 v12)) (k0_pay96 (F := Ideal))) = pieceK (k0_pay3 v6) (k0_pay4 v0 v12) (topK v0 v3) ⟨55, by omega⟩ := rfl

theorem piece_56 (v0 : Vec Ideal S1x32768x128 .bf16) (v3 : Vec Ideal S128x128 .bf16) (v6 : Vec Ideal S1x128 .f32) (v12 : Vec Ideal S384x256 .bf16) :
    (k0_pay98 (k0_pay3 v6) (k0_pay4 v0 v12)) = pieceK (k0_pay3 v6) (k0_pay4 v0 v12) (topK v0 v3) ⟨56, by omega⟩ := rfl

theorem piece_57 (v0 : Vec Ideal S1x32768x128 .bf16) (v3 : Vec Ideal S128x128 .bf16) (v6 : Vec Ideal S1x128 .f32) (v12 : Vec Ideal S384x256 .bf16) :
    (k0_pay99 (k0_pay3 v6) (k0_pay4 v0 v12)) = pieceK (k0_pay3 v6) (k0_pay4 v0 v12) (topK v0 v3) ⟨57, by omega⟩ := rfl

theorem piece_58 (v0 : Vec Ideal S1x32768x128 .bf16) (v3 : Vec Ideal S128x128 .bf16) (v6 : Vec Ideal S1x128 .f32) (v12 : Vec Ideal S384x256 .bf16) :
    (k0_pay102 (k0_pay100 (k0_pay4 v0 v12)) (k0_pay101 (k0_pay3 v6))) = pieceK (k0_pay3 v6) (k0_pay4 v0 v12) (topK v0 v3) ⟨58, by omega⟩ := rfl

theorem piece_59 (v0 : Vec Ideal S1x32768x128 .bf16) (v3 : Vec Ideal S128x128 .bf16) (v6 : Vec Ideal S1x128 .f32) (v12 : Vec Ideal S384x256 .bf16) :
    (k0_pay103 (k0_pay3 v6) (k0_pay4 v0 v12)) = pieceK (k0_pay3 v6) (k0_pay4 v0 v12) (topK v0 v3) ⟨59, by omega⟩ := rfl

theorem piece_60 (v0 : Vec Ideal S1x32768x128 .bf16) (v3 : Vec Ideal S128x128 .bf16) (v6 : Vec Ideal S1x128 .f32) (v12 : Vec Ideal S384x256 .bf16) :
    (k0_pay104 (k0_pay3 v6) (k0_pay4 v0 v12)) = pieceK (k0_pay3 v6) (k0_pay4 v0 v12) (topK v0 v3) ⟨60, by omega⟩ := rfl

theorem piece_61 (v0 : Vec Ideal S1x32768x128 .bf16) (v3 : Vec Ideal S128x128 .bf16) (v6 : Vec Ideal S1x128 .f32) (v12 : Vec Ideal S384x256 .bf16) :
    (truncf .bf16 (maximumf (k0_pay108 (k0_pay3 v6) (k0_pay105 (k0_pay4 v0 v12)) (k0_pay106 (k0_pay4 v0 v12)) (k0_pay107 (k0_pay4 v0 v12))) (broadcast S128x128 (Scalar.ofBits .f32 0x00000000#32))) bitsLt_bf16_f32) = pieceK (k0_pay3 v6) (k0_pay4 v0 v12) (topK v0 v3) ⟨61, by omega⟩ := rfl

theorem piece_62 (v0 : Vec Ideal S1x32768x128 .bf16) (v3 : Vec Ideal S128x128 .bf16) (v6 : Vec Ideal S1x128 .f32) (v12 : Vec Ideal S384x256 .bf16) :
    (truncf .bf16 (maximumf (k0_pay109 (k0_pay3 v6) (k0_pay4 v0 v12)) (broadcast S128x128 (Scalar.ofBits .f32 0x00000000#32))) bitsLt_bf16_f32) = pieceK (k0_pay3 v6) (k0_pay4 v0 v12) (topK v0 v3) ⟨62, by omega⟩ := rfl

/-! ## Reading the pieces at an entry -/

/-- A sum over n·w positions, block by block. -/
theorem sum_blocks {M : Type*} [AddCommMonoid M] (n w : ℕ) (F : Fin (n * w) → M) :
    ∑ c : Fin (n * w), F c = ∑ a : Fin n, ∑ d : Fin w, F ⟨a.val * w + d.val, by
      have ha := a.isLt; have hd := d.isLt
      calc a.val * w + d.val < a.val * w + w := by omega
        _ = (a.val + 1) * w := by ring
        _ ≤ n * w := Nat.mul_le_mul_right w ha⟩ := by
  rw [← Equiv.sum_comp finProdFinEquiv F, Fintype.sum_prod_type]
  refine Finset.sum_congr rfl fun a _ => Finset.sum_congr rfl fun d _ => ?_
  congr 1
  apply Fin.ext
  show d.val + w * a.val = a.val * w + d.val
  rw [Nat.mul_comm, Nat.add_comm]

theorem zBlk_apply (z : FVec Ideal S32512x256 .f32) (o l : ℕ) (ho : o + 128 ≤ 32512) (hl : l + 128 ≤ 256) (r f : Fin 128)
    (R : Fin 32512) (C : Fin 256) (hR : R.val = o + r.val) (hC : C.val = l + f.val) :
    zBlk z o l ho hl (ix2 r f) = z (ix2 R C) := by
  unfold zBlk
  exact extractStridedSlice_apply ![o, l] z (slices_z o l ho hl) (ix2 r f) (ix2 R C) (fun a => by
    match a with
    | ⟨0, _⟩ => exact hR
    | ⟨1, _⟩ => exact hC)

/-- Conv row block t at (r, f): product row (t+1)·128 + r, lane 128 + f, plus product row (t−1)·128 + r, lane f (at t = 0: the
    boundary product). -/
theorem slabK_apply (z : FVec Ideal S32512x256 .f32) (top : FVec Ideal S128x128 .f32) (t : ℕ) (ht : t < 252) (r f : Fin 128) :
    slabK z top t ht (ix2 r f)
      = z (ix2 (⟨(t + 1) * 128 + r.val, by have := r.isLt; omega⟩ : Fin 32512) (⟨128 + f.val, by have := f.isLt; omega⟩ : Fin 256))
        + (if t = 0 then top (ix2 r f)
           else z (ix2 (⟨(t - 1) * 128 + r.val, by have := r.isLt; omega⟩ : Fin 32512) (⟨f.val, by have := f.isLt; omega⟩ : Fin 256))) := by
  unfold slabK
  by_cases h0 : t = 0
  · subst h0
    rw [if_pos rfl, if_pos rfl, addf_apply]
    exact congrArg (· + top (ix2 r f)) (zBlk_apply z 128 128 _ _ r f _ _ rfl rfl)
  · rw [if_neg h0, if_neg h0, addf_apply]
    exact congrArg₂ (· + ·) (zBlk_apply z _ 128 _ _ r f _ _ rfl rfl) (zBlk_apply z _ 0 _ _ r f _ _ rfl (Nat.zero_add _).symm)

/-- The rows block viewed as a 32768 × 128 matrix. -/
theorem rows_apply (v0 : Vec Ideal S1x32768x128 .bf16) (R : Fin 32768) (d : Fin 128) :
    k0_pay2 v0 (ix2 R d) = v0 (ix3 (0 : Fin 1) R d) := by
  unfold k0_pay2
  exact shapeCast_apply v0 _ (ix2 R d) (ix3 (0 : Fin 1) R d) (by
    rw [Shape.rowMajor_val_three, Shape.rowMajor_val_two]
    show (0 * 32768 + R.val) * 128 + d.val = R.val * 128 + d.val
    omega)

/-- The left operand of the big product: three copies of the rows matrix, shifted by 0, 128 and 256 rows, side by side. -/
def lhsList (v0 : Vec Ideal S1x32768x128 .bf16) : List ((s : Shape) × (s.Idx → Ideal .bf16)) :=
  [⟨S32512x128, extractStridedSlice S32512x128 ![0, 0] (k0_pay2 v0) slices_S32768x128_o0_0_S32512x128⟩,
   ⟨S32512x128, extractStridedSlice S32512x128 ![128, 0] (k0_pay2 v0) slices_S32768x128_o128_0_S32512x128⟩,
   ⟨S32512x128, extractStridedSlice S32512x128 ![256, 0] (k0_pay2 v0) slices_S32768x128_o256_0_S32512x128⟩]

def lhsK (v0 : Vec Ideal S1x32768x128 .bf16) : FVec Ideal S32512x384 .bf16 :=
  concatenate S32512x384 1 (lhsList v0) concatenates_S32512x128_S32512x128_S32512x128_S32512x384_d1

theorem z_eq (v0 : Vec Ideal S1x32768x128 .bf16) (v12 : Vec Ideal S384x256 .bf16) :
    k0_pay4 v0 v12 = matmul dot_S32512x384_S384x256_S32512x256_1_0_0_1_n_n none (lhsK v0)
      (shapeCast S384x256 v12 shapeCasts_S384x256_S384x256 : FVec Ideal S384x256 .bf16) (constant S32512x256 .f32 0x00000000#32) := rfl

/-- Lane k·128 + d of the left operand's row R is feature d of row R + 128·k of the rows block. -/
theorem lhsK_apply (v0 : Vec Ideal S1x32768x128 .bf16) (R : Fin 32512) (d : Fin 128) (k : ℕ) (hk : k < 3) (c : Fin 384) (hc : c.val = k * 128 + d.val) :
    lhsK v0 (ix2 R c) = v0 (ix3 (0 : Fin 1) (⟨R.val + 128 * k, by have := R.isLt; omega⟩ : Fin 32768) d) := by
  unfold lhsK
  interval_cases k
  · refine (concatenate_apply_piece (1 : Fin 2) (lhsList v0) (show Shape.Concatenates ((lhsList v0).map (·.1)) S32512x384 1 from concatenates_S32512x128_S32512x128_S32512x128_S32512x384_d1) (ix2 R c) 0 (by unfold lhsList; exact (by decide : (0 : ℕ) < 3)) S32512x128 _ rfl rfl 0 rfl (ix2 R d)
      (fun b hb => by
        match b with
        | ⟨0, _⟩ => rfl
        | ⟨1, _⟩ => exact absurd rfl hb) (by show 0 + d.val = c.val; omega)).trans ?_
    refine (extractStridedSlice_apply _ _ _ (ix2 R d) (ix2 (⟨R.val + 128 * 0, by have := R.isLt; omega⟩ : Fin 32768) d) (fun a => by
      match a with
      | ⟨0, _⟩ => show R.val + 128 * 0 = 0 + R.val; omega
      | ⟨1, _⟩ => show d.val = 0 + d.val; omega)).trans ?_
    exact rows_apply v0 _ d
  · refine (concatenate_apply_piece (1 : Fin 2) (lhsList v0) (show Shape.Concatenates ((lhsList v0).map (·.1)) S32512x384 1 from concatenates_S32512x128_S32512x128_S32512x128_S32512x384_d1) (ix2 R c) 1 (by unfold lhsList; exact (by decide : (1 : ℕ) < 3)) S32512x128 _ rfl rfl 128 rfl (ix2 R d)
      (fun b hb => by
        match b with
        | ⟨0, _⟩ => rfl
        | ⟨1, _⟩ => exact absurd rfl hb) (by show 128 + d.val = c.val; omega)).trans ?_
    refine (extractStridedSlice_apply _ _ _ (ix2 R d) (ix2 (⟨R.val + 128 * 1, by have := R.isLt; omega⟩ : Fin 32768) d) (fun a => by
      match a with
      | ⟨0, _⟩ => show R.val + 128 * 1 = 128 + R.val; omega
      | ⟨1, _⟩ => show d.val = 0 + d.val; omega)).trans ?_
    exact rows_apply v0 _ d
  · refine (concatenate_apply_piece (1 : Fin 2) (lhsList v0) (show Shape.Concatenates ((lhsList v0).map (·.1)) S32512x384 1 from concatenates_S32512x128_S32512x128_S32512x128_S32512x384_d1) (ix2 R c) 2 (by unfold lhsList; exact (by decide : (2 : ℕ) < 3)) S32512x128 _ rfl rfl 256 rfl (ix2 R d)
      (fun b hb => by
        match b with
        | ⟨0, _⟩ => rfl
        | ⟨1, _⟩ => exact absurd rfl hb) (by show 256 + d.val = c.val; omega)).trans ?_
    refine (extractStridedSlice_apply _ _ _ (ix2 R d) (ix2 (⟨R.val + 128 * 2, by have := R.isLt; omega⟩ : Fin 32768) d) (fun a => by
      match a with
      | ⟨0, _⟩ => show R.val + 128 * 2 = 256 + R.val; omega
      | ⟨1, _⟩ => show d.val = 0 + d.val; omega)).trans ?_
    exact rows_apply v0 _ d

/-- THE BIG PRODUCT AT AN ENTRY: row R, lane C, is the sum over the three row shifts a and the features d of row R + 128·a of the
    rows block against row a·128 + d of the packed weight. -/
theorem z_apply (v0 : Vec Ideal S1x32768x128 .bf16) (v12 : Vec Ideal S384x256 .bf16) (R : Fin 32512) (C : Fin 256) :
    k0_pay4 v0 v12 (ix2 R C)
      = ∑ a : Fin 3, ∑ d : Fin 128, v0 (ix3 (0 : Fin 1) (⟨R.val + 128 * a.val, by have := R.isLt; have := a.isLt; omega⟩ : Fin 32768) d)
          * v12 (ix2 (⟨a.val * 128 + d.val, by have := a.isLt; have := d.isLt; omega⟩ : Fin 384) C) := by
  rw [z_eq]
  refine (Cert.PlainDot.matmul_zero_apply _ rfl none (lhsK v0) _ R C).trans ?_
  refine (sum_blocks 3 128 _).trans ?_
  refine Finset.sum_congr rfl fun a _ => Finset.sum_congr rfl fun d _ => ?_
  rw [lhsK_apply v0 R d a.val a.isLt _ rfl, shapeCast_self]

/-- THE BOUNDARY PRODUCT AT AN ENTRY: the block's row r against the 128 × 128 corner the body loaded. -/
theorem topK_apply (v0 : Vec Ideal S1x32768x128 .bf16) (v3 : Vec Ideal S128x128 .bf16) (r f : Fin 128) :
    topK v0 v3 (ix2 r f) = ∑ d : Fin 128, v0 (ix3 (0 : Fin 1) (⟨r.val, by have := r.isLt; omega⟩ : Fin 32768) d) * v3 (ix2 d f) := by
  unfold topK
  refine (Cert.PlainDot.matmul_zero_apply _ rfl none _ _ r f).trans ?_
  refine Finset.sum_congr rfl fun d _ => ?_
  rw [shapeCast_self]
  congr 1
  refine (extractStridedSlice_apply _ _ _ (ix2 r d) (ix2 (⟨r.val, by have := r.isLt; omega⟩ : Fin 32768) d) (fun a => by
    match a with
    | ⟨0, _⟩ => show r.val = 0 + r.val; omega
    | ⟨1, _⟩ => show d.val = 0 + d.val; omega)).trans ?_
  exact rows_apply v0 _ d

/-! ## A conv row block is the five-tap convolution -/

section Conv

variable (x0 : Vec Ideal S1x32768x128 .bf16) (x1 : Vec Ideal S384x256 .bf16) (r : Fin 128)

theorem blockX_zero (d : Fin 128) : blockX x0 r 0 d = 0 := by
  unfold blockX; rw [dif_neg (by omega)]

theorem blockX_pos (h : ℕ) (h1 : 1 ≤ h) (h2 : h ≤ 255) (R : Fin 32768) (hR : R.val = (h - 1) * 128 + r.val) (d : Fin 128) :
    x0 (ix3 (0 : Fin 1) R d) = blockX x0 r h d := by
  unfold blockX
  rw [dif_pos ⟨h1, h2⟩]
  have e : R = ⟨(h - 1) * 128 + r.val, by have := r.isLt; omega⟩ := Fin.ext hR
  rw [e]

theorem x1_congr (R R' : Fin 384) (C C' : Fin 256) (hR : R.val = R'.val) (hC : C.val = C'.val) : x1 (ix2 R C) = x1 (ix2 R' C') := by
  rw [Fin.ext hR, Fin.ext hC]

/-- Tap k's share of conv row t at feature f. -/
def tapTerm (t k : ℕ) (hk : k < 5) (f : Fin 128) : EReal :=
  ∑ d : Fin 128, blockX x0 r (t + k) d * blockWc x1 ⟨k, hk⟩ d f

theorem conv_eq_taps (t : ℕ) (f : Fin 128) :
    Cert.TextCnn.conv (blockX x0 r) (blockWc x1) t f
      = tapTerm x0 x1 r t 0 (by omega) f + tapTerm x0 x1 r t 1 (by omega) f + tapTerm x0 x1 r t 2 (by omega) f
        + tapTerm x0 x1 r t 3 (by omega) f + tapTerm x0 x1 r t 4 (by omega) f := by
  unfold Cert.TextCnn.conv tapTerm
  rw [Fin.sum_univ_five]
  rfl

/-- The right half of product row block t+1: taps 2, 3 and 4. -/
theorem z_hi (t : ℕ) (ht : t < 252) (f : Fin 128) :
    k0_pay4 x0 x1 (ix2 (⟨(t + 1) * 128 + r.val, by have := r.isLt; omega⟩ : Fin 32512) (⟨128 + f.val, by have := f.isLt; omega⟩ : Fin 256))
      = tapTerm x0 x1 r t 2 (by omega) f + tapTerm x0 x1 r t 3 (by omega) f + tapTerm x0 x1 r t 4 (by omega) f := by
  rw [z_apply, Fin.sum_univ_three]
  unfold tapTerm
  refine congrArg₂ (· + ·) (congrArg₂ (· + ·) ?_ ?_) ?_
  · refine Finset.sum_congr rfl fun d _ => congrArg₂ (· * ·) ?_ ?_
    · exact blockX_pos x0 r (t + 2) (by omega) (by omega) _ (by show (t + 1) * 128 + r.val + 128 * 0 = (t + 2 - 1) * 128 + r.val; omega) d
    · exact x1_congr x1 _ _ _ _ (by show 0 * 128 + d.val = d.val; omega) rfl
  · refine Finset.sum_congr rfl fun d _ => congrArg₂ (· * ·) ?_ ?_
    · exact blockX_pos x0 r (t + 3) (by omega) (by omega) _ (by show (t + 1) * 128 + r.val + 128 * 1 = (t + 3 - 1) * 128 + r.val; omega) d
    · exact x1_congr x1 _ _ _ _ (by show 1 * 128 + d.val = 128 + d.val; omega) rfl
  · refine Finset.sum_congr rfl fun d _ => congrArg₂ (· * ·) ?_ ?_
    · exact blockX_pos x0 r (t + 4) (by omega) (by omega) _ (by show (t + 1) * 128 + r.val + 128 * 2 = (t + 4 - 1) * 128 + r.val; omega) d
    · exact x1_congr x1 _ _ _ _ (by show 2 * 128 + d.val = 256 + d.val; omega) rfl

/-- The left half of product row block t−1 (t ≥ 1): taps 0 and 1; the third row shift meets the weight's zero block. -/
theorem z_lo (hz : ∀ d f : Fin 128, x1 (ix2 (⟨256 + d.val, by have := d.isLt; omega⟩ : Fin 384) (⟨f.val, by have := f.isLt; omega⟩ : Fin 256)) = 0)
    (t : ℕ) (h1 : 1 ≤ t) (ht : t < 252) (f : Fin 128) :
    k0_pay4 x0 x1 (ix2 (⟨(t - 1) * 128 + r.val, by have := r.isLt; omega⟩ : Fin 32512) (⟨f.val, by have := f.isLt; omega⟩ : Fin 256))
      = tapTerm x0 x1 r t 0 (by omega) f + tapTerm x0 x1 r t 1 (by omega) f := by
  rw [z_apply, Fin.sum_univ_three]
  unfold tapTerm
  have h3 : (∑ d : Fin 128, x0 (ix3 (0 : Fin 1) (⟨(t - 1) * 128 + r.val + 128 * ((2 : Fin 3) : ℕ), by have := r.isLt; omega⟩ : Fin 32768) d)
      * x1 (ix2 (⟨((2 : Fin 3) : ℕ) * 128 + d.val, by have := d.isLt; omega⟩ : Fin 384) (⟨f.val, by have := f.isLt; omega⟩ : Fin 256))) = 0 := by
    refine Finset.sum_eq_zero fun d _ => ?_
    rw [x1_congr x1 _ (⟨256 + d.val, by have := d.isLt; omega⟩ : Fin 384) _ (⟨f.val, by have := f.isLt; omega⟩ : Fin 256) (by show 2 * 128 + d.val = 256 + d.val; omega) rfl, hz d f, mul_zero]
  rw [h3, add_zero]
  refine congrArg₂ (· + ·) ?_ ?_
  · refine Finset.sum_congr rfl fun d _ => congrArg₂ (· * ·) ?_ ?_
    · exact blockX_pos x0 r (t + 0) (by omega) (by omega) _ (by show (t - 1) * 128 + r.val + 128 * 0 = (t + 0 - 1) * 128 + r.val; omega) d
    · exact x1_congr x1 _ _ _ _ (by show 0 * 128 + d.val = d.val; omega) rfl
  · refine Finset.sum_congr rfl fun d _ => congrArg₂ (· * ·) ?_ ?_
    · exact blockX_pos x0 r (t + 1) (by omega) (by omega) _ (by show (t - 1) * 128 + r.val + 128 * 1 = (t + 1 - 1) * 128 + r.val; omega) d
    · exact x1_congr x1 _ _ _ _ (by show 1 * 128 + d.val = 128 + d.val; omega) rfl

/-- CONV ROW BLOCK t AT (r, f) is conv row t of block row r at feature f: at t ≥ 1 the two product halves are the five taps; at
    t = 0 the padding row contributes nothing and the boundary product is tap 1. -/
theorem slab_conv (hz : ∀ d f : Fin 128, x1 (ix2 (⟨256 + d.val, by have := d.isLt; omega⟩ : Fin 384) (⟨f.val, by have := f.isLt; omega⟩ : Fin 256)) = 0)
    (v3 : Vec Ideal S128x128 .bf16) (hv3 : ∀ d f : Fin 128, v3 (ix2 d f) = x1 (ix2 (⟨128 + d.val, by have := d.isLt; omega⟩ : Fin 384) (⟨f.val, by have := f.isLt; omega⟩ : Fin 256)))
    (t : ℕ) (ht : t < 252) (f : Fin 128) :
    slabK (k0_pay4 x0 x1) (topK x0 v3) t ht (ix2 r f) = Cert.TextCnn.conv (blockX x0 r) (blockWc x1) t f := by
  rw [slabK_apply, z_hi x0 x1 r t ht f, conv_eq_taps]
  by_cases h0 : t = 0
  · subst h0
    rw [if_pos rfl, topK_apply]
    have e0 : tapTerm x0 x1 r 0 0 (by omega) f = 0 := by
      unfold tapTerm
      refine Finset.sum_eq_zero fun d _ => ?_
      rw [blockX_zero, zero_mul]
    have e1 : (∑ d : Fin 128, x0 (ix3 (0 : Fin 1) (⟨r.val, by have := r.isLt; omega⟩ : Fin 32768) d) * v3 (ix2 d f)) = tapTerm x0 x1 r 0 1 (by omega) f := by
      unfold tapTerm
      refine Finset.sum_congr rfl fun d _ => congrArg₂ (· * ·) ?_ ?_
      · exact blockX_pos x0 r (0 + 1) (by omega) (by omega) _ (by show r.val = (0 + 1 - 1) * 128 + r.val; omega) d
      · rw [hv3]; rfl
    rw [e0, e1, zero_add]
    abel
  · rw [if_neg h0, z_lo x0 x1 r hz t (by omega) ht f]
    abel

end Conv

/-! ## The pooled blocks, the joined features and the logits -/

/-- POOLED BLOCK j AT (r, f) is pooled feature (j, f) of block row r. -/
theorem pieceK_apply (x0 : Vec Ideal S1x32768x128 .bf16) (x1 : Vec Ideal S384x256 .bf16) (b : FVec Ideal S1x128 .f32)
    (hz : ∀ d f : Fin 128, x1 (ix2 (⟨256 + d.val, by have := d.isLt; omega⟩ : Fin 384) (⟨f.val, by have := f.isLt; omega⟩ : Fin 256)) = 0)
    (v3 : Vec Ideal S128x128 .bf16) (hv3 : ∀ d f : Fin 128, v3 (ix2 d f) = x1 (ix2 (⟨128 + d.val, by have := d.isLt; omega⟩ : Fin 384) (⟨f.val, by have := f.isLt; omega⟩ : Fin 256)))
    (j : Fin 63) (r f : Fin 128) :
    pieceK b (k0_pay4 x0 x1) (topK x0 v3) j (ix2 r f)
      = Cert.TextCnn.pooled (blockX x0 r) (blockWc x1) (fun f => b (ix2 (0 : Fin 1) f)) j f := by
  unfold pieceK Cert.TextCnn.pooled
  rw [truncf_apply, maximumf_apply, addf_apply, maximumf_apply, maximumf_apply, maximumf_apply,
    slab_conv x0 x1 r hz v3 hv3, slab_conv x0 x1 r hz v3 hv3, slab_conv x0 x1 r hz v3 hv3, slab_conv x0 x1 r hz v3 hv3,
    Cert.RowVector.broadcastTo_row (by decide) b _ r f, broadcast_apply]
  show max _ (Ideal.ofBits .f32 0x00000000#32) = _
  rw [Ideal.ofBits_zero_f32]

/-- The 63 pooled blocks side by side: 128 rows × 8064 features. -/
def gcatK (b : FVec Ideal S1x128 .f32) (z : FVec Ideal S32512x256 .f32) (top : FVec Ideal S128x128 .f32) : FVec Ideal S128x8064 .bf16 :=
  concatenate S128x8064 1 (List.ofFn fun j : Fin 63 => (⟨S128x128, pieceK b z top j⟩ : (s : Shape) × (s.Idx → Ideal .bf16)))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x8064_d1

/-- The body's value with the repeated pieces written once. -/
theorem outVal_eq (x0 : Vec Ideal S1x32768x128 .bf16) (x1 : Vec Ideal S384x256 .bf16) (x2 : Vec Ideal S1x128 .f32)
    (x3 : Vec Ideal S8064x16 .bf16) (x4 : Vec Ideal S1x16 .f32) :
    outVal (F := Ideal) x0 x1 x2 x3 x4
      = k0_pay1 (k0_pay111 (gcatK (k0_pay3 (View.ld x2 rB)) (k0_pay4 (View.ld x0 rX) (View.ld x1 rW)) (topK (View.ld x0 rX) (View.ld x1 rW1)))
          (View.ld x3 rL)) (View.ld x4 rLb) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Feature j·128 + f of the joined block's row r is pooled block j at (r, f). -/
theorem gcatK_apply (b : FVec Ideal S1x128 .f32) (z : FVec Ideal S32512x256 .f32) (top : FVec Ideal S128x128 .f32)
    (r : Fin 128) (j : Fin 63) (f : Fin 128) (k : Fin 8064) (hk : k.val = j.val * 128 + f.val) :
    gcatK b z top (ix2 r k) = pieceK b z top j (ix2 r f) := by
  unfold gcatK
  exact concatenate_ofFn_apply (t := S128x8064) (1 : Fin 2) (fun j : Fin 63 => pieceK b z top j) _ rfl 128 rfl (ix2 r k) j
    (by show k.val / 128 = j.val; have := f.isLt; omega) (ix2 r f) (by show f.val = k.val % 128; have := f.isLt; omega)
    (fun b hb => by
      match b with
      | ⟨0, _⟩ => rfl
      | ⟨1, _⟩ => exact absurd rfl hb)

/-- The 128 × 128 corner the body loads from the packed weight is rows 128 … 255, lanes 0 … 127 (tap 1). -/
theorem ld_corner (x1 : Vec Ideal S384x256 .bf16) (d f : Fin 128) :
    View.ld x1 rW1 (ix2 d f) = x1 (ix2 (⟨128 + d.val, by have := d.isLt; omega⟩ : Fin 384) (⟨f.val, by have := f.isLt; omega⟩ : Fin 256)) := by
  show x1 (rW1.emb (ix2 d f)) = _
  rw [eq_ix2 (rW1.emb (ix2 d f))]
  exact x1_congr x1 _ _ _ _ (by show 128 + 1 * d.val = 128 + d.val; omega) (by show 0 + 1 * f.val = f.val; omega)

/-- THE BODY AT AN ENTRY: the stored value at (r, c) is the logits of block row r. -/
theorem outVal_apply (x0 : Vec Ideal S1x32768x128 .bf16) (x1 : Vec Ideal S384x256 .bf16) (x2 : Vec Ideal S1x128 .f32)
    (x3 : Vec Ideal S8064x16 .bf16) (x4 : Vec Ideal S1x16 .f32)
    (hz : ∀ d f : Fin 128, x1 (ix2 (⟨256 + d.val, by have := d.isLt; omega⟩ : Fin 384) (⟨f.val, by have := f.isLt; omega⟩ : Fin 256)) = 0)
    (r : Fin 128) (c : Fin 16) :
    outVal (F := Ideal) x0 x1 x2 x3 x4 (ix2 r c)
      = Cert.TextCnn.logits (blockX x0 r) (blockWc x1) (fun f => x2 (ix2 (0 : Fin 1) f)) (blockWl x3) (fun c => x4 (ix2 (0 : Fin 1) c)) c := by
  rw [outVal_eq]
  have e0 : View.ld x0 rX = x0 := View.ld_unit_zero (S := S1x32768x128) hz3 _ x0
  have e1 : View.ld x1 rW = x1 := View.ld_unit_zero (S := S384x256) hz2 _ x1
  have e2 : View.ld x2 rB = x2 := View.ld_unit_zero (S := S1x128) hz2 _ x2
  have e3 : View.ld x3 rL = x3 := View.ld_unit_zero (S := S8064x16) hz2 _ x3
  have e4 : View.ld x4 rLb = x4 := View.ld_unit_zero (S := S1x16) hz2 _ x4
  rw [e0, e1, e2, e3, e4]
  simp only [k0_pay1, k0_pay111, k0_pay3, addf_apply, shapeCast_self]
  rw [Cert.RowVector.broadcastTo_row (by decide) x4 _ r c]
  unfold Cert.TextCnn.logits
  refine congrArg (· + x4 (ix2 (0 : Fin 1) c)) ?_
  refine (Cert.PlainDot.matmul_zero_apply (φ₁ := .bf16) (φ₂ := .bf16) dot_S128x8064_S8064x16_S128x16_1_0_0_1_n_n rfl none _ x3 r c).trans ?_
  refine (sum_blocks 63 128 _).trans ?_
  refine Finset.sum_congr rfl fun j _ => Finset.sum_congr rfl fun f _ => ?_
  rw [gcatK_apply _ _ _ r j f _ rfl, pieceK_apply x0 x1 x2 hz (View.ld x1 rW1) (ld_corner x1) j r f]
  rfl

end Cert.KernelIdeal.Region

end
-- ==== Proof.Assembly.lean ====
/-
  The two runs side by side. Each program, run from its own memory, ends with its result array at the specification's function
  of its own argument arrays and with the arguments unchanged; from memories that agree on the arguments the two results are the
  same array.
-/
import proofs.«128919_g2000302331999779_pallasbulk_1131_18_alg».proof.Defs
import proofs.«128919_g2000302331999779_pallasbulk_1131_18_alg».proof.Proof.Gen.KernelIdeal
import proofs.«128919_g2000302331999779_pallasbulk_1131_18_alg».proof.Proof.Gen.ReferenceIdeal
import proofs.«128919_g2000302331999779_pallasbulk_1131_18_alg».proof.Proof.Gen.Pre_finite_inputs
import proofs.«128919_g2000302331999779_pallasbulk_1131_18_alg».proof.Proof.Spec

noncomputable section

namespace Cert.Proof

open Idealize.ShloMosaic Idealize.SL.Sem

/-- The kernel's run, read against the specification. -/
def KernelRunsToSpec : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v28) = Cert.TextCnn.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The reference's run, read against the specification. -/
def ReferenceRunsToSpec : Prop :=
  ∀ (m' : (ℓ : Loc Cert.ReferenceIdeal.nD Cert.ReferenceIdeal.τ Cert.ReferenceIdeal.sig) → Buf (Elt Ideal) ℓ) (g' : Dev Cert.ReferenceIdeal.nD → PrngReg),
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v20) = Cert.TextCnn.specOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

/-- Equal results from agreeing arguments: both results are the specification's function of the same five arrays. -/
theorem algebraic_of (hK : KernelRunsToSpec) (hR : ReferenceRunsToSpec) :
    @Cert.algebraic_KernelIdeal_ReferenceIdeal Cert.KernelIdeal.Gen.facts Cert.ReferenceIdeal.Gen.facts Cert.Pre_finite_inputs.Gen.facts := by
  intro m g m' g' _ hagree
  refine ⟨fun c => Cert.TextCnn.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), hK m g, ?_⟩
  refine (θ_run (Cert.ReferenceIdeal.defs (F := Ideal)) _ _).mono (fun r h c => ⟨?_, (h c).2⟩) (hR m' g')
  rw [(h c).1, (hagree c).1, (hagree c).2.1, (hagree c).2.2.1, (hagree c).2.2.2.1, (hagree c).2.2.2.2]

end Cert.Proof

end
-- ==== Proof.KernelIdealValue.lean ====
/-
  The kernel's run read against the specification.

  The host line before the region re-lays the arguments: the input as four tiles of 256·128 rows (row h·128 + r of tile i is
  input row h of batch row 128·i + r), the conv weight as the packed 384 × 256 matrix [[tap0 | tap2], [tap1 | tap3], [0 | tap4]]
  (tap k at (d, f) is conv_w[f, 0, k, d]; the lower-left block is the constant zero), the linear weight as an 8064 × 16 matrix
  (row j·128 + f is column f·63 + j of lin_w), and the two biases as rows. Each re-laying is read here at one entry, over a
  variable array. Grid point t stages tile t of the input and the four weight arrays whole, so by the body's value at an entry
  the block it writes back holds, at row r and class c, the logits of batch row 128·t + r: block t of the specification. Batch
  row b lies in the block of point b / 128, so the four blocks cover the output array, which therefore ends holding the
  specification; the five arguments are staged by no window and end as launched.
-/
import proofs.«128919_g2000302331999779_pallasbulk_1131_18_alg».proof.Proof.KernelIdealBody
import proofs.«128919_g2000302331999779_pallasbulk_1131_18_alg».proof.Proof.Assembly
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The host line's re-layings, read at an entry

Each is stated over a VARIABLE array, so that nothing here mentions the program's buffers. -/

/-- The input re-laid for the four batch tiles: 512×1×256×128 to 4×(256·128)×128, row h·128 + r of tile i being input row h of batch
    row 128·i + r. -/
def relaidX (x : FVec Ideal S512x1x256x128 .f32) : FVec Ideal S4x32768x128 .bf16 :=
  shapeCast S4x32768x128 (truncf (F := Ideal) .bf16 (transpose S4x256x128x128 [0, 2, 1, 3] (shapeCast S4x128x256x128 x shapeCasts_S512x1x256x128_S4x128x256x128) transposes_S4x128x256x128_S4x256x128x128_0_2_1_3 : FVec Ideal S4x256x128x128 .f32) bitsLt_bf16_f32 : FVec Ideal S4x256x128x128 .bf16) shapeCasts_S4x256x128x128_S4x32768x128

theorem relaidX_apply (x : FVec Ideal S512x1x256x128 .f32) (i : Fin 4) (q : Fin 32768) (d : Fin 128) (b : Fin 512) (h : Fin 256)
    (hb : b.val = 128 * i.val + q.val % 128) (hh : h.val = q.val / 128) :
    relaidX x (ix3 i q d) = x (ix4 b (0 : Fin 1) h d) := by
  have hq := q.isLt
  unfold relaidX
  refine (shapeCast_apply _ _ (ix3 i q d) (ix4 i h (⟨q.val % 128, Nat.mod_lt _ (by decide)⟩ : Fin 128) d) (by
    rw [Shape.rowMajor_val_four, Shape.rowMajor_val_three]
    show ((i.val * 256 + h.val) * 128 + q.val % 128) * 128 + d.val = (i.val * 32768 + q.val) * 128 + d.val
    omega)).trans ?_
  refine (truncf_apply (ψ := .bf16) _ bitsLt_bf16_f32 _).trans ?_
  refine (transpose_apply _ _ _ _ (ix4 i (⟨q.val % 128, Nat.mod_lt _ (by decide)⟩ : Fin 128) h d)
    (fun a => match a with | ⟨0, _⟩ => rfl | ⟨1, _⟩ => rfl | ⟨2, _⟩ => rfl | ⟨3, _⟩ => rfl)).trans ?_
  exact shapeCast_apply _ _ _ (ix4 b (0 : Fin 1) h d) (by
    rw [Shape.rowMajor_val_four, Shape.rowMajor_val_four]
    show ((b.val * 1 + 0) * 256 + h.val) * 128 + d.val = ((i.val * 128 + q.val % 128) * 256 + h.val) * 128 + d.val
    omega)

/-- The conv weight re-laid as five taps: entry (k, d, f) is conv_w[f, 0, k, d]. -/
def taps (cw : FVec Ideal S128x1x5x128 .f32) : FVec Ideal S5x128x128 .bf16 :=
  truncf (F := Ideal) .bf16 (transpose S5x128x128 [1, 2, 0] (shapeCast S128x5x128 cw shapeCasts_S128x1x5x128_S128x5x128) transposes_S128x5x128_S5x128x128_1_2_0 : FVec Ideal S5x128x128 .f32) bitsLt_bf16_f32

theorem taps_apply (cw : FVec Ideal S128x1x5x128 .f32) (k : Fin 5) (d f : Fin 128) :
    taps cw (ix3 k d f) = cw (ix4 f (0 : Fin 1) k d) := by
  unfold taps
  refine (truncf_apply (ψ := .bf16) _ bitsLt_bf16_f32 _).trans ?_
  refine (transpose_apply _ _ _ _ (ix3 f k d) (fun a => match a with | ⟨0, _⟩ => rfl | ⟨1, _⟩ => rfl | ⟨2, _⟩ => rfl)).trans ?_
  exact shapeCast_apply _ _ _ (ix4 f (0 : Fin 1) k d) (by
    rw [Shape.rowMajor_val_four, Shape.rowMajor_val_three]
    show ((f.val * 1 + 0) * 5 + k.val) * 128 + d.val = (f.val * 5 + k.val) * 128 + d.val
    omega)

/-- One tap as a 128 × 128 matrix: the slice of the taps at offsets `off` = (k, 0, 0), its unit axis dropped. -/
def tapAt (cw : FVec Ideal S128x1x5x128 .f32) (off : Fin 3 → Nat) (h : S5x128x128.Slices off S1x128x128) : FVec Ideal S128x128 .bf16 :=
  shapeCast S128x128 (extractStridedSlice S1x128x128 off (taps cw) h) shapeCasts_S1x128x128_S128x128

theorem tapAt_apply (cw : FVec Ideal S128x1x5x128 .f32) (off : Fin 3 → Nat) (h : S5x128x128.Slices off S1x128x128) (k : Fin 5)
    (h0 : off 0 = k.val) (h1 : off 1 = 0) (h2 : off 2 = 0) (d f : Fin 128) :
    tapAt cw off h (ix2 d f) = cw (ix4 f (0 : Fin 1) k d) := by
  unfold tapAt
  refine (shapeCast_apply _ _ (ix2 d f) (ix3 (0 : Fin 1) d f) (by
    rw [Shape.rowMajor_val_three, Shape.rowMajor_val_two]
    show (0 * 128 + d.val) * 128 + f.val = d.val * 128 + f.val
    omega)).trans ?_
  refine (extractStridedSlice_apply off _ h _ (ix3 k d f) (fun a => match a with
    | ⟨0, _⟩ => by show k.val = off 0 + 0; omega
    | ⟨1, _⟩ => by show d.val = off 1 + d.val; omega
    | ⟨2, _⟩ => by show f.val = off 2 + f.val; omega)).trans ?_
  exact taps_apply cw k d f

/-- The 128 × 128 block of zeros. -/
def zeroBlk : FVec Ideal S128x128 .bf16 :=
  broadcastInDim S128x128 ![] bcast_S_S128x128 (constant (F := Ideal) S_ .bf16 0x0000#16)

theorem zeroBlk_apply (j : S128x128.Idx) : zeroBlk j = 0 := by
  unfold zeroBlk
  refine (broadcastInDim_apply _ _ _ j ix0 (fun a => a.elim0)).trans ?_
  rw [constant_apply]
  simp [Ideal.ofBits, Ideal.ieee]

/-- Two 128 × 128 blocks side by side. -/
def pair (a b : FVec Ideal S128x128 .bf16) : FVec Ideal S128x256 .bf16 :=
  concatenate S128x256 1 [⟨S128x128, a⟩, ⟨S128x128, b⟩] concatenates_S128x128_S128x128_S128x256_d1

theorem pair_apply_left (a b : FVec Ideal S128x128 .bf16) (r : Fin 128) (f : Fin 128) (f' : Fin 256) (hf : f'.val = f.val) :
    pair a b (ix2 r f') = a (ix2 r f) := by
  unfold pair
  exact concatenate_pair_apply_left _ a b _ (ix2 r f') rfl (ix2 r f) (fun x => match x with
    | ⟨0, _⟩ => rfl
    | ⟨1, _⟩ => hf.symm)

theorem pair_apply_right (a b : FVec Ideal S128x128 .bf16) (r : Fin 128) (f : Fin 128) (f' : Fin 256) (hf : f'.val = 128 + f.val) :
    pair a b (ix2 r f') = b (ix2 r f) := by
  unfold pair
  exact concatenate_pair_apply_right _ a b _ (ix2 r f') rfl rfl (ix2 r f) (fun x => match x with
    | ⟨0, _⟩ => fun _ => rfl
    | ⟨1, _⟩ => fun hne => absurd rfl hne) (by show f.val + 128 = f'.val; omega)

/-- Three 128 × 256 blocks stacked. -/
def stack3 (p0 p1 p2 : FVec Ideal S128x256 .bf16) : FVec Ideal S384x256 .bf16 :=
  concatenate S384x256 0 [⟨S128x256, p0⟩, ⟨S128x256, p1⟩, ⟨S128x256, p2⟩] concatenates_S128x256_S128x256_S128x256_S384x256_d0

theorem stack3_apply0 (p0 p1 p2 : FVec Ideal S128x256 .bf16) (d : Fin 128) (d' : Fin 384) (col : Fin 256) (hd : d'.val = d.val) :
    stack3 p0 p1 p2 (ix2 d' col) = p0 (ix2 d col) := by
  unfold stack3
  exact concatenate_apply_piece _ _ _ (ix2 d' col) 0 (by show (0 : Nat) < 3; decide) S128x256 p0 rfl rfl 0 rfl (ix2 d col)
    (fun x => match x with | ⟨0, _⟩ => fun hne => absurd rfl hne | ⟨1, _⟩ => fun _ => rfl) (by show 0 + d.val = d'.val; omega)

theorem stack3_apply1 (p0 p1 p2 : FVec Ideal S128x256 .bf16) (d : Fin 128) (d' : Fin 384) (col : Fin 256) (hd : d'.val = 128 + d.val) :
    stack3 p0 p1 p2 (ix2 d' col) = p1 (ix2 d col) := by
  unfold stack3
  exact concatenate_apply_piece _ _ _ (ix2 d' col) 1 (by show (1 : Nat) < 3; decide) S128x256 p1 rfl rfl 128 rfl (ix2 d col)
    (fun x => match x with | ⟨0, _⟩ => fun hne => absurd rfl hne | ⟨1, _⟩ => fun _ => rfl) (by show 128 + d.val = d'.val; omega)

theorem stack3_apply2 (p0 p1 p2 : FVec Ideal S128x256 .bf16) (d : Fin 128) (d' : Fin 384) (col : Fin 256) (hd : d'.val = 256 + d.val) :
    stack3 p0 p1 p2 (ix2 d' col) = p2 (ix2 d col) := by
  unfold stack3
  exact concatenate_apply_piece _ _ _ (ix2 d' col) 2 (by show (2 : Nat) < 3; decide) S128x256 p2 rfl rfl 256 rfl (ix2 d col)
    (fun x => match x with | ⟨0, _⟩ => fun hne => absurd rfl hne | ⟨1, _⟩ => fun _ => rfl) (by show 256 + d.val = d'.val; omega)

/-- The linear weight re-laid: 16 × 8064 to 8064 × 16, row j·128 + f being column f·63 + j. -/
def relaidL (lw : FVec Ideal S16x8064 .f32) : FVec Ideal S8064x16 .bf16 :=
  truncf (F := Ideal) .bf16 (shapeCast S8064x16 (transpose S63x128x16 [2, 1, 0] (shapeCast S16x128x63 lw shapeCasts_S16x8064_S16x128x63) transposes_S16x128x63_S63x128x16_2_1_0) shapeCasts_S63x128x16_S8064x16 : FVec Ideal S8064x16 .f32) bitsLt_bf16_f32

theorem relaidL_apply (lw : FVec Ideal S16x8064 .f32) (j : Fin 63) (f : Fin 128) (cc : Fin 16) (row : Fin 8064) (col : Fin 8064)
    (hrow : row.val = j.val * 128 + f.val) (hcol : col.val = f.val * 63 + j.val) :
    relaidL lw (ix2 row cc) = lw (ix2 cc col) := by
  unfold relaidL
  refine (truncf_apply (ψ := .bf16) _ bitsLt_bf16_f32 _).trans ?_
  refine (shapeCast_apply _ _ (ix2 row cc) (ix3 j f cc) (by
    rw [Shape.rowMajor_val_three, Shape.rowMajor_val_two]
    show (j.val * 128 + f.val) * 16 + cc.val = row.val * 16 + cc.val
    omega)).trans ?_
  refine (transpose_apply _ _ _ _ (ix3 cc f j) (fun a => match a with | ⟨0, _⟩ => rfl | ⟨1, _⟩ => rfl | ⟨2, _⟩ => rfl)).trans ?_
  exact shapeCast_apply _ _ _ (ix2 cc col) (by
    rw [Shape.rowMajor_val_two, Shape.rowMajor_val_three]
    show cc.val * 8064 + col.val = (cc.val * 128 + f.val) * 63 + j.val
    omega)

/-- The packed conv weight: [[tap0 | tap2], [tap1 | tap3], [0 | tap4]]. -/
def packedW (cw : FVec Ideal S128x1x5x128 .f32) : FVec Ideal S384x256 .bf16 :=
  stack3
    (pair (tapAt cw ![0, 0, 0] slices_S5x128x128_S1x128x128_0_0_0) (tapAt cw ![2, 0, 0] slices_S5x128x128_S1x128x128_2_0_0))
    (pair (tapAt cw ![1, 0, 0] slices_S5x128x128_S1x128x128_1_0_0) (tapAt cw ![3, 0, 0] slices_S5x128x128_S1x128x128_3_0_0))
    (pair zeroBlk (tapAt cw ![4, 0, 0] slices_S5x128x128_S1x128x128_4_0_0))

/-- The packed weight's lower-left block is zero. -/
theorem packedW_zero (cw : FVec Ideal S128x1x5x128 .f32) (d f : Fin 128) :
    packedW cw (ix2 (⟨256 + d.val, by have := d.isLt; omega⟩ : Fin 384) (⟨f.val, by have := f.isLt; omega⟩ : Fin 256)) = 0 := by
  unfold packedW
  refine (stack3_apply2 _ _ _ d _ _ rfl).trans ?_
  refine (pair_apply_left _ _ d f _ rfl).trans ?_
  exact zeroBlk_apply _

/-- The five taps read out of the packed weight are the conv weight's. -/
theorem blockWc_packedW (cw : FVec Ideal S128x1x5x128 .f32) :
    blockWc (packedW cw) = fun k d f => cw (ix4 f (0 : Fin 1) k d) := by
  funext k d f
  match k with
  | ⟨0, _⟩ =>
    show packedW cw (ix2 (⟨d.val, _⟩ : Fin 384) (⟨f.val, _⟩ : Fin 256)) = _
    unfold packedW
    refine (stack3_apply0 _ _ _ d _ _ rfl).trans ?_
    refine (pair_apply_left _ _ d f _ rfl).trans ?_
    exact tapAt_apply cw _ _ (0 : Fin 5) rfl rfl rfl d f
  | ⟨1, _⟩ =>
    show packedW cw (ix2 (⟨128 + d.val, _⟩ : Fin 384) (⟨f.val, _⟩ : Fin 256)) = _
    unfold packedW
    refine (stack3_apply1 _ _ _ d _ _ rfl).trans ?_
    refine (pair_apply_left _ _ d f _ rfl).trans ?_
    exact tapAt_apply cw _ _ (1 : Fin 5) rfl rfl rfl d f
  | ⟨2, _⟩ =>
    show packedW cw (ix2 (⟨d.val, _⟩ : Fin 384) (⟨128 + f.val, _⟩ : Fin 256)) = _
    unfold packedW
    refine (stack3_apply0 _ _ _ d _ _ rfl).trans ?_
    refine (pair_apply_right _ _ d f _ rfl).trans ?_
    exact tapAt_apply cw _ _ (2 : Fin 5) rfl rfl rfl d f
  | ⟨3, _⟩ =>
    show packedW cw (ix2 (⟨128 + d.val, _⟩ : Fin 384) (⟨128 + f.val, _⟩ : Fin 256)) = _
    unfold packedW
    refine (stack3_apply1 _ _ _ d _ _ rfl).trans ?_
    refine (pair_apply_right _ _ d f _ rfl).trans ?_
    exact tapAt_apply cw _ _ (3 : Fin 5) rfl rfl rfl d f
  | ⟨4, _⟩ =>
    show packedW cw (ix2 (⟨256 + d.val, _⟩ : Fin 384) (⟨128 + f.val, _⟩ : Fin 256)) = _
    unfold packedW
    refine (stack3_apply2 _ _ _ d _ _ rfl).trans ?_
    refine (pair_apply_right _ _ d f _ rfl).trans ?_
    exact tapAt_apply cw _ _ (4 : Fin 5) rfl rfl rfl d f

/-- The linear weight of pooled feature (j, f) read out of the re-laid weight is column f·63 + j. -/
theorem blockWl_relaidL (lw : FVec Ideal S16x8064 .f32) :
    blockWl (relaidL lw) = fun j f cc => lw (ix2 cc (⟨f.val * 63 + j.val, by have := f.isLt; have := j.isLt; omega⟩ : Fin 8064)) := by
  funext j f cc
  exact relaidL_apply lw j f cc _ _ rfl rfl

/-- Input row h of block row r of tile i, read out of the re-laid input, is input row h − 1 of batch row 128·i + r. -/
theorem relaidX_row (x : FVec Ideal S512x1x256x128 .f32) (i : Fin 4) (r : Fin 128) (b : Fin 512) (hb : b.val = i.val * 128 + r.val)
    (h : ℕ) (hh : 1 ≤ h ∧ h ≤ 255) (d : Fin 128) :
    relaidX x (ix3 i (⟨(h - 1) * 128 + r.val, by have := r.isLt; omega⟩ : Fin 32768) d)
      = x (ix4 b (0 : Fin 1) (⟨h - 1, by omega⟩ : Fin 256) d) := by
  have hr := r.isLt
  refine relaidX_apply x i _ d b _ ?_ ?_
  · show b.val = 128 * i.val + ((h - 1) * 128 + r.val) % 128
    omega
  · show h - 1 = ((h - 1) * 128 + r.val) / 128
    omega

/-! ## The window arrays as the region finds them -/

theorem V27_eq (c : Dev nD) : (V m c main_v27 : FVec Ideal S4x32768x128 .bf16) = relaidX (m ((c.tc : Thread nD τ).loc main_arg0)) := by
  dsimp only [V, hostOps0]
  after_results
  rfl

theorem V17_eq (c : Dev nD) : (V m c main_v17 : FVec Ideal S384x256 .bf16) = packedW (m ((c.tc : Thread nD τ).loc main_arg1)) := by
  dsimp only [V, hostOps0]
  after_results
  rfl

theorem V18_eq (c : Dev nD) : (V m c main_v18 : FVec Ideal S1x128 .f32)
    = shapeCast S1x128 (m ((c.tc : Thread nD τ).loc main_arg2) : FVec Ideal S128 .f32) shapeCasts_S128_S1x128 := by
  dsimp only [V, hostOps0]
  after_results
  rfl

theorem V22_eq (c : Dev nD) : (V m c main_v22 : FVec Ideal S8064x16 .bf16) = relaidL (m ((c.tc : Thread nD τ).loc main_arg3)) := by
  dsimp only [V, hostOps0]
  after_results
  rfl

theorem V23_eq (c : Dev nD) : (V m c main_v23 : FVec Ideal S1x16 .f32)
    = shapeCast S1x16 (m ((c.tc : Thread nD τ).loc main_arg4) : FVec Ideal S16 .f32) shapeCasts_S16_S1x16 := by
  dsimp only [V, hostOps0]
  after_results
  rfl

/-! ## The blocks -/

/-- The block index maps over the four grid points: the input rows and the output move with the point along their first
    axis; the four weight windows stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A window whose one block is its whole array reads the array. -/
theorem read_blk1 (t : Fin cfg0.N) (A : FVec Ideal S384x256 .bf16) : ((cfg0.win 1).blk t).view.read (Elt Ideal) A = A := by
  obtain ⟨-, -, -, e0, e1, -⟩ := idx_facts t
  funext j
  show A (((cfg0.win 1).blk t).view.emb j) = A j
  refine congrArg A (funext fun a => Fin.ext ?_)
  match a with
  | ⟨0, _⟩ => show win0_1.index t (0 : Fin 2) * 384 + 1 * (j 0).val = (j 0).val; omega
  | ⟨1, _⟩ => show win0_1.index t (1 : Fin 2) * 256 + 1 * (j 1).val = (j 1).val; omega

theorem read_blk2 (t : Fin cfg0.N) (A : FVec Ideal S1x128 .f32) : ((cfg0.win 2).blk t).view.read (Elt Ideal) A = A := by
  obtain ⟨-, -, -, -, -, e0, e1, -⟩ := idx_facts t
  funext j
  show A (((cfg0.win 2).blk t).view.emb j) = A j
  refine congrArg A (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem read_blk3 (t : Fin cfg0.N) (A : FVec Ideal S8064x16 .bf16) : ((cfg0.win 3).blk t).view.read (Elt Ideal) A = A := by
  obtain ⟨-, -, -, -, -, -, -, e0, e1, -⟩ := idx_facts t
  funext j
  show A (((cfg0.win 3).blk t).view.emb j) = A j
  refine congrArg A (funext fun a => Fin.ext ?_)
  match a with
  | ⟨0, _⟩ => show win0_3.index t (0 : Fin 2) * 8064 + 1 * (j 0).val = (j 0).val; omega
  | ⟨1, _⟩ => show win0_3.index t (1 : Fin 2) * 16 + 1 * (j 1).val = (j 1).val; omega

theorem read_blk4 (t : Fin cfg0.N) (A : FVec Ideal S1x16 .f32) : ((cfg0.win 4).blk t).view.read (Elt Ideal) A = A := by
  obtain ⟨-, -, -, -, -, -, -, -, -, e0, e1, -⟩ := idx_facts t
  funext j
  show A (((cfg0.win 4).blk t).view.emb j) = A j
  refine congrArg A (funext fun a => Fin.ext ?_)
  match a with
  | ⟨0, _⟩ => show win0_4.index t (0 : Fin 2) * 1 + 1 * (j 0).val = (j 0).val; omega
  | ⟨1, _⟩ => show win0_4.index t (1 : Fin 2) * 16 + 1 * (j 1).val = (j 1).val; omega

/-- The input window's block at point t is tile t of an array of four tiles. -/
theorem read_blk0 (t : Fin cfg0.N) (A : FVec Ideal S4x32768x128 .bf16) (i : Fin 4) (hi : i.val = t.val) (q : Fin 32768) (d : Fin 128) :
    (((cfg0.win 0).blk t).view.read (Elt Ideal) A : FVec Ideal S1x32768x128 .bf16) (ix3 (0 : Fin 1) q d) = A (ix3 i q d) := by
  obtain ⟨e0, e1, e2, -⟩ := idx_facts t
  show A (((cfg0.win 0).blk t).view.emb (ix3 (0 : Fin 1) q d)) = A (ix3 i q d)
  refine congrArg A (funext fun a => Fin.ext ?_)
  match a with
  | ⟨0, _⟩ => show win0_0.index t (0 : Fin 3) * 1 + 1 * 0 = i.val; omega
  | ⟨1, _⟩ => show win0_0.index t (1 : Fin 3) * 32768 + 1 * q.val = q.val; omega
  | ⟨2, _⟩ => show win0_0.index t (2 : Fin 3) * 128 + 1 * d.val = d.val; omega

theorem iblk1_eq (c : Dev nD) (t : Fin cfg0.N) : (iblk m c 1 t : FVec Ideal S384x256 .bf16) = packedW (m ((c.tc : Thread nD τ).loc main_arg1)) := by
  unfold iblk
  exact (read_blk1 t _).trans (V17_eq m c)

theorem iblk2_eq (c : Dev nD) (t : Fin cfg0.N) : (iblk m c 2 t : FVec Ideal S1x128 .f32)
    = shapeCast S1x128 (m ((c.tc : Thread nD τ).loc main_arg2) : FVec Ideal S128 .f32) shapeCasts_S128_S1x128 := by
  unfold iblk
  exact (read_blk2 t _).trans (V18_eq m c)

theorem iblk3_eq (c : Dev nD) (t : Fin cfg0.N) : (iblk m c 3 t : FVec Ideal S8064x16 .bf16) = relaidL (m ((c.tc : Thread nD τ).loc main_arg3)) := by
  unfold iblk
  exact (read_blk3 t _).trans (V22_eq m c)

theorem iblk4_eq (c : Dev nD) (t : Fin cfg0.N) : (iblk m c 4 t : FVec Ideal S1x16 .f32)
    = shapeCast S1x16 (m ((c.tc : Thread nD τ).loc main_arg4) : FVec Ideal S16 .f32) shapeCasts_S16_S1x16 := by
  unfold iblk
  exact (read_blk4 t _).trans (V23_eq m c)

theorem iblk0_apply (c : Dev nD) (t : Fin cfg0.N) (i : Fin 4) (hi : i.val = t.val) (q : Fin 32768) (d : Fin 128) :
    (iblk m c 0 t : FVec Ideal S1x32768x128 .bf16) (ix3 (0 : Fin 1) q d) = relaidX (m ((c.tc : Thread nD τ).loc main_arg0)) (ix3 i q d) := by
  unfold iblk
  exact (read_blk0 t _ i hi q d).trans (congrFun (V27_eq m c) _)

/-! ## What a grid point writes back -/

/-- The specification at core c's launched arguments. -/
abbrev specAt (c : Dev nD) : Buf (Elt Ideal) ((c.tc : Thread nD τ).loc main_v28) :=
  Cert.TextCnn.specOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The value the body stores at point t, at block row r and class cc, is the specification at batch row 128·t + r. -/
theorem out_at (c : Dev nD) (t : Fin cfg0.N) (r : Fin 128) (cc : Fin 16) (b : Fin 512) (hb : b.val = t.val * 128 + r.val) :
    outVal (F := Ideal) (iblk m c 0 t) (iblk m c 1 t) (iblk m c 2 t) (iblk m c 3 t) (iblk m c 4 t) (ix2 r cc)
      = specAt m c (ix2 b cc) := by
  have hN : cfg0.N = 4 := N_0
  have ht : t.val < 4 := hN ▸ t.isLt
  refine (outVal_apply (iblk m c 0 t) (iblk m c 1 t) (iblk m c 2 t) (iblk m c 3 t) (iblk m c 4 t)
    (fun d f => (congrFun (iblk1_eq m c t) _).trans (packedW_zero _ d f)) r cc).trans ?_
  have eX : blockX (iblk m c 0 t) r = fun h d => if hh : 1 ≤ h ∧ h ≤ 255 then
      (m ((c.tc : Thread nD τ).loc main_arg0) : FVec Ideal S512x1x256x128 .f32) (ix4 b (0 : Fin 1) (⟨h - 1, by omega⟩ : Fin 256) d) else (0 : EReal) := by
    funext h d
    unfold blockX
    by_cases hh : 1 ≤ h ∧ h ≤ 255
    · rw [dif_pos hh, dif_pos hh]
      exact (iblk0_apply m c t ⟨t.val, ht⟩ rfl _ d).trans (relaidX_row _ ⟨t.val, ht⟩ r b hb h hh d)
    · rw [dif_neg hh, dif_neg hh]
  have eW : blockWc (iblk m c 1 t) = fun k d f => (m ((c.tc : Thread nD τ).loc main_arg1) : FVec Ideal S128x1x5x128 .f32) (ix4 f (0 : Fin 1) k d) := by
    rw [iblk1_eq]; exact blockWc_packedW _
  have eB : (fun f : Fin 128 => (iblk m c 2 t : FVec Ideal S1x128 .f32) (ix2 (0 : Fin 1) f)) = fun f => (m ((c.tc : Thread nD τ).loc main_arg2) : FVec Ideal S128 .f32) (ix1 f) := by
    rw [iblk2_eq]; funext f; exact shapeCast_a_1a_apply _ _ _ f
  have eL : blockWl (iblk m c 3 t) = fun j f cc => (m ((c.tc : Thread nD τ).loc main_arg3) : FVec Ideal S16x8064 .f32) (ix2 cc (⟨f.val * 63 + j.val, by have := f.isLt; have := j.isLt; omega⟩ : Fin 8064)) := by
    rw [iblk3_eq]; exact blockWl_relaidL _
  have eLb : (fun cc : Fin 16 => (iblk m c 4 t : FVec Ideal S1x16 .f32) (ix2 (0 : Fin 1) cc)) = fun cc => (m ((c.tc : Thread nD τ).loc main_arg4) : FVec Ideal S16 .f32) (ix1 cc) := by
    rw [iblk4_eq]; funext cc; exact shapeCast_a_1a_apply _ _ _ cc
  rw [eX, eW, eB, eL, eLb]
  rfl

/-- What point t writes back is block t of the specification. -/
theorem flushed_eq (c : Dev nD) (t : Fin cfg0.N) :
    (dats m 0 c).flushed 5 t = ((cfg0.win 5).blk t).view.read (Elt Ideal) (specAt m c) := by
  have hN : cfg0.N = 4 := N_0
  have ht : t.val < 4 := hN ▸ t.isLt
  obtain ⟨-, -, -, -, -, -, -, -, -, -, -, e0, e1⟩ := idx_facts t
  show (cfg0.win 5).cut (grid0.coords t) ((dats m 0 c).after 5 t) = _
  rw [after_out]
  unfold outBlock
  rw [View.canon_unit_zero hz2]
  funext j
  have hj0 : (j 0).val < 128 := (j 0).isLt
  have hj1 : (j 1).val < 16 := (j 1).isLt
  show outVal (F := Ideal) (iblk m c 0 t) (iblk m c 1 t) (iblk m c 2 t) (iblk m c 3 t) (iblk m c 4 t) j
    = specAt m c (((cfg0.win 5).blk t).view.emb j)
  have hj : j = ix2 (⟨(j 0).val, hj0⟩ : Fin 128) (⟨(j 1).val, hj1⟩ : Fin 16) :=
    funext fun a => by match a with | ⟨0, _⟩ => rfl | ⟨1, _⟩ => rfl
  have hemb : ((cfg0.win 5).blk t).view.emb j = ix2 (⟨t.val * 128 + (j 0).val, by omega⟩ : Fin 512) (⟨(j 1).val, hj1⟩ : Fin 16) := by
    funext a
    apply Fin.ext
    match a with
    | ⟨0, _⟩ => show win0_5.index t (0 : Fin 2) * 128 + 1 * (j 0).val = t.val * 128 + (j 0).val; omega
    | ⟨1, _⟩ => show win0_5.index t (1 : Fin 2) * 16 + 1 * (j 1).val = (j 1).val; omega
  refine (congrArg _ hj).trans ((out_at m c t _ _ _ rfl).trans (congrArg (specAt m c) hemb.symm))

/-! ## The output array after the run -/

/-- An index of the output array is in point t's block iff each coordinate is in the block's range on its axis. -/
theorem mem_blk (t : Fin cfg0.N) (i : S512x16.Idx) :
    i ∈ ((cfg0.win 5).blk t).view.set ↔ ∀ a : Fin 2, win0_5.index t a * S128x16.size a ≤ (i a).val ∧ (i a).val < win0_5.index t a * S128x16.size a + S128x16.size a := by
  show i ∈ ((View.whole main_v28).slice (win0_5.rect t)).set ↔ _
  rw [View.set_slice_whole, Rect.mem_set_unit]
  exact Iff.rfl

/-- Batch row b is in the block of point b / 128. -/
theorem cover (i : S512x16.Idx) : ∃ t : Fin cfg0.N, (cfg0.win 5).flush t = true ∧ i ∈ ((cfg0.win 5).blk t).view.set := by
  have hN : cfg0.N = 4 := N_0
  have hi0 : (i 0).val < 512 := (i 0).isLt
  have hi1 : (i 1).val < 16 := (i 1).isLt
  refine ⟨⟨(i 0).val / 128, by omega⟩, flush0_5 _, ?_⟩
  obtain ⟨-, -, -, -, -, -, -, -, -, -, -, e0, e1⟩ := idx_facts ⟨(i 0).val / 128, by omega⟩
  rw [mem_blk]
  intro a
  match a with
  | ⟨0, _⟩ =>
    show win0_5.index _ (0 : Fin 2) * 128 ≤ (i 0).val ∧ (i 0).val < win0_5.index _ (0 : Fin 2) * 128 + 128
    rw [e0]; show (i 0).val / 128 * 128 ≤ (i 0).val ∧ (i 0).val < (i 0).val / 128 * 128 + 128; omega
  | ⟨1, _⟩ =>
    show win0_5.index _ (1 : Fin 2) * 16 ≤ (i 1).val ∧ (i 1).val < win0_5.index _ (1 : Fin 2) * 16 + 16
    rw [e1]; omega

/-- The output array ends holding the specification. -/
theorem final (c : Dev nD) : (dats m 0 c).arrAt 5 cfg0.N = specAt m c :=
  (dats m 0 c).arrAt_eq_of_cover 5 (specAt m c) (fun t _ => flushed_eq m c t) cover

/-! ## The run, read -/

/-- Every weakly fair execution of @main terminates with the output array at the specification of the launched arguments and
    the five arguments as launched. -/
theorem run_spec : Cert.Proof.KernelRunsToSpec := fun m ρ =>
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Region

end
-- ==== Proof.ReferenceIdealBody.lean ====
/-
  The reference body's stored value read at one entry, over the extended reals: row r of the 48-row block, lane c of the 128
  padded class lanes. The block's rows h·48 + r are input row h of block row r (row 0 is the padding row, already in the block).
-/
import proofs.«128919_g2000302331999779_pallasbulk_1131_18_alg».proof.Proof.Gen.ReferenceIdeal.Frame
import proofs.«128919_g2000302331999779_pallasbulk_1131_18_alg».proof.Proof.Spec
import proofs.«128919_g2000302331999779_pallasbulk_1131_18_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.ValueIdx

/-- Input row `h` of block row `r`: the block's row h·48 + r. -/
def blockX (x0 : Vec Ideal S1x12288x128 .bf16) (r : Fin 48) : ℕ → Fin 128 → EReal := fun h d =>
  if hh : h ≤ 255 then x0 (ix3 (0 : Fin 1) (⟨h * 48 + r.val, by have := r.isLt; omega⟩ : Fin 12288) d) else 0

/-- A [1, n, m] block viewed [n, m] reads (0, i, d) at (i, d). -/
private theorem cast3_apply {n m : ℕ} {α : Type} (v : (⟨3, ![1, n, m]⟩ : Shape).Idx → α)
    (h : (⟨3, ![1, n, m]⟩ : Shape).ShapeCasts ⟨2, ![n, m]⟩) (i : Fin n) (d : Fin m) :
    shapeCast ⟨2, ![n, m]⟩ v h (ix2 i d) = v (ix3 (0 : Fin 1) i d) := by
  refine shapeCast_apply v h _ _ ?_
  rw [Shape.rowMajor_val_three, Shape.rowMajor_val_two]
  show (0 * n + i.val) * m + d.val = i.val * m + d.val
  rw [Nat.zero_mul, Nat.zero_add]

/-- A load of 12096 rows from row offset o of the block. -/
private theorem ldRows_apply (x0 : Vec Ideal S1x12288x128 .bf16) (o : ℕ)
    (inb : ∀ a, (![0, o, 0] : Fin 3 → Nat) a + S1x12096x128.size a ≤ S1x12288x128.size a) (ho : o + 12096 ≤ 12288)
    (i : Fin 12096) (d : Fin 128) :
    View.ld x0 (Rect.unit (s := S1x12288x128) ![0, o, 0] S1x12096x128.size inb) (ix3 (0 : Fin 1) i d)
      = x0 (ix3 (0 : Fin 1) (⟨o + i.val, by have := i.isLt; omega⟩ : Fin 12288) d) := by
  show x0 _ = x0 _
  refine congrArg x0 (funext fun a => Fin.ext ?_)
  match a with
  | ⟨0, _⟩ => rfl
  | ⟨1, _⟩ => show o + 1 * i.val = o + i.val; rw [Nat.one_mul]
  | ⟨2, _⟩ => show 0 + 1 * d.val = d.val; rw [Nat.one_mul, Nat.zero_add]

/-- A load of one 128 × 128 matrix of a stack. -/
private theorem ldMat_apply {N : ℕ} (x : Vec Ideal ⟨3, ![N, 128, 128]⟩ .bf16) (j : ℕ) (hj : j < N)
    (inb : ∀ a, (![j, 0, 0] : Fin 3 → Nat) a + S1x128x128.size a ≤ (⟨3, ![N, 128, 128]⟩ : Shape).size a)
    (d : Fin 128) (f : Fin 128) :
    View.ld x (Rect.unit (s := ⟨3, ![N, 128, 128]⟩) ![j, 0, 0] S1x128x128.size inb) (ix3 (0 : Fin 1) d f)
      = x (ix3 (⟨j, hj⟩ : Fin N) d f) := by
  show x _ = x _
  refine congrArg x (funext fun a => Fin.ext ?_)
  match a with
  | ⟨0, _⟩ => show j + 1 * 0 = j; rw [Nat.mul_zero, Nat.add_zero]
  | ⟨1, _⟩ => show 0 + 1 * d.val = d.val; rw [Nat.one_mul, Nat.zero_add]
  | ⟨2, _⟩ => show 0 + 1 * f.val = f.val; rw [Nat.one_mul, Nat.zero_add]

/-- A bias row spread over the rows of a block. -/
private theorem biasRows_apply {n : ℕ} (b : Vec Ideal S1x128 .f32) (h : S1x128.Broadcasts ⟨2, ![n, 128]⟩) (i : Fin n) (f : Fin 128) :
    broadcastTo ⟨2, ![n, 128]⟩ (shapeCast S1x128 b shapeCasts_S1x128_S1x128) h (ix2 i f) = b (ix2 (0 : Fin 1) f) := by
  rw [shapeCast_self]
  refine broadcastTo_apply _ _ _ _ fun a => ?_
  match a with
  | ⟨0, _⟩ => rfl
  | ⟨1, _⟩ => rfl

/-! ## The printed body in uniform pieces -/

private theorem slab_slices (o : ℕ) (h : o + 48 ≤ 12096) : S12096x128.Slices ![o, 0] S48x128 :=
  ⟨rfl, fun a => match a with
    | ⟨0, _⟩ => h
    | ⟨1, _⟩ => Nat.le_refl 128⟩

/-- Rows o … o+47 of a 12096-row block. -/
private def slab (v : FVec Ideal S12096x128 .f32) (o : ℕ) (h : o + 48 ≤ 12096) : FVec Ideal S48x128 .f32 :=
  extractStridedSlice S48x128 ![o, 0] v (slab_slices o h)

/-- Pooled block j: the maximum of the four 48-row slabs 4j … 4j+3. -/
private def pool (v : FVec Ideal S12096x128 .f32) (j : ℕ) (hj : j < 63) : FVec Ideal S48x128 .f32 :=
  maximumf (maximumf (maximumf (slab v ((4 * j) * 48) (by omega)) (slab v ((4 * j + 1) * 48) (by omega)))
    (slab v ((4 * j + 2) * 48) (by omega))) (slab v ((4 * j + 3) * 48) (by omega))

/-- A 48 × 128 block against one 128 × 128 matrix, from zero. -/
private def mm (g : FVec Ideal S48x128 .bf16) (w : Vec Ideal S1x128x128 .bf16) : FVec Ideal S48x128 .f32 :=
  matmul dot_S48x128_S128x128_S48x128_1_0_0_1_n_n none g
    (shapeCast S128x128 w shapeCasts_S1x128x128_S128x128 : FVec Ideal S128x128 .bf16) (constant S48x128 .f32 0x00000000#32)

/-- Pooled block j against a matrix. -/
private def part (v : FVec Ideal S12096x128 .f32) (j : ℕ) (hj : j < 63) (w : Vec Ideal S1x128x128 .bf16) : FVec Ideal S48x128 .f32 :=
  mm (truncf .bf16 (pool v j hj) bitsLt_bf16_f32) w

private theorem inbW (j : ℕ) (hj : j < 63) : ∀ a, (![j, 0, 0] : Fin 3 → Nat) a + S1x128x128.size a ≤ S63x128x128.size a := fun a =>
  match a with
  | ⟨0, _⟩ => (show j + 1 ≤ 63 by omega)
  | ⟨1, _⟩ => Nat.le_refl 128
  | ⟨2, _⟩ => Nat.le_refl 128

/-- Matrix j of the stack of 63. -/
private def W (x3 : Vec Ideal S63x128x128 .bf16) (j : ℕ) (hj : j < 63) : Vec Ideal S1x128x128 .bf16 :=
  View.ld x3 (Rect.unit (s := S63x128x128) ![j, 0, 0] S1x128x128.size (inbW j hj))

/-- The running total: pooled block 0 against matrix 0, then one more block at a time, added on the right. -/
private def accU (v : FVec Ideal S12096x128 .f32) (x3 : Vec Ideal S63x128x128 .bf16) : (n : ℕ) → n < 63 → FVec Ideal S48x128 .f32
  | 0, h => part v 0 h (W x3 0 h)
  | n + 1, h => addf (accU v x3 n (Nat.lt_of_succ_lt h)) (part v (n + 1) h (W x3 (n + 1) h))

/-- The convolution block after bias and clamp, as the program computes it. -/
private def C (x0 : Vec Ideal S1x12288x128 .bf16) (x1 : Vec Ideal S5x128x128 .bf16) (x2 : Vec Ideal S1x128 .f32) : FVec Ideal S12096x128 .f32 :=
  k0_pay4 (k0_pay2 (View.ld x0 r0_0) (View.ld x1 r0_1) (View.ld x0 r0_2) (View.ld x1 r0_3) (View.ld x0 r0_4) (View.ld x1 r0_5) (View.ld x0 r0_6) (View.ld x1 r0_7)) (k0_pay3 (View.ld x0 r0_8)) (View.ld x1 r0_9) (View.ld x2 r0_10)

/-- The running total after pooled row 1, as the program computes it. -/
private def A5 (x0 : Vec Ideal S1x12288x128 .bf16) (x1 : Vec Ideal S5x128x128 .bf16) (x2 : Vec Ideal S1x128 .f32) (x3 : Vec Ideal S63x128x128 .bf16) : FVec Ideal S48x128 .f32 :=
  k0_pay5 (k0_pay2 (View.ld x0 r0_0) (View.ld x1 r0_1) (View.ld x0 r0_2) (View.ld x1 r0_3) (View.ld x0 r0_4) (View.ld x1 r0_5) (View.ld x0 r0_6) (View.ld x1 r0_7)) (k0_pay3 (View.ld x0 r0_8)) (View.ld x1 r0_9) (View.ld x2 r0_10) (View.ld x3 r0_11) (View.ld x3 r0_12)

private theorem A5_eq (x0 : Vec Ideal S1x12288x128 .bf16) (x1 : Vec Ideal S5x128x128 .bf16) (x2 : Vec Ideal S1x128 .f32) (x3 : Vec Ideal S63x128x128 .bf16) :
    A5 x0 x1 x2 x3 = accU (C x0 x1 x2) x3 1 (by decide) := rfl

/-- The running total after pooled row 5, as the program computes it. -/
private def A7 (x0 : Vec Ideal S1x12288x128 .bf16) (x1 : Vec Ideal S5x128x128 .bf16) (x2 : Vec Ideal S1x128 .f32) (x3 : Vec Ideal S63x128x128 .bf16) : FVec Ideal S48x128 .f32 :=
  k0_pay7 (C x0 x1 x2) (A5 x0 x1 x2 x3) (k0_pay6 (k0_pay2 (View.ld x0 r0_0) (View.ld x1 r0_1) (View.ld x0 r0_2) (View.ld x1 r0_3) (View.ld x0 r0_4) (View.ld x1 r0_5) (View.ld x0 r0_6) (View.ld x1 r0_7)) (k0_pay3 (View.ld x0 r0_8)) (View.ld x1 r0_9) (View.ld x2 r0_10) (View.ld x3 r0_13)) (View.ld x3 r0_14) (View.ld x3 r0_15) (View.ld x3 r0_16)

private theorem A7_eq (x0 : Vec Ideal S1x12288x128 .bf16) (x1 : Vec Ideal S5x128x128 .bf16) (x2 : Vec Ideal S1x128 .f32) (x3 : Vec Ideal S63x128x128 .bf16) :
    A7 x0 x1 x2 x3 = accU (C x0 x1 x2) x3 5 (by decide) := by
  unfold A7
  rw [A5_eq]
  rfl

/-- The running total after pooled row 9, as the program computes it. -/
private def A9 (x0 : Vec Ideal S1x12288x128 .bf16) (x1 : Vec Ideal S5x128x128 .bf16) (x2 : Vec Ideal S1x128 .f32) (x3 : Vec Ideal S63x128x128 .bf16) : FVec Ideal S48x128 .f32 :=
  k0_pay9 (C x0 x1 x2) (A7 x0 x1 x2 x3) (k0_pay8 (C x0 x1 x2)) (View.ld x3 r0_17) (View.ld x3 r0_18) (View.ld x3 r0_19) (View.ld x3 r0_20)

private theorem A9_eq (x0 : Vec Ideal S1x12288x128 .bf16) (x1 : Vec Ideal S5x128x128 .bf16) (x2 : Vec Ideal S1x128 .f32) (x3 : Vec Ideal S63x128x128 .bf16) :
    A9 x0 x1 x2 x3 = accU (C x0 x1 x2) x3 9 (by decide) := by
  unfold A9
  rw [A7_eq]
  rfl

/-- The running total after pooled row 13, as the program computes it. -/
private def A11 (x0 : Vec Ideal S1x12288x128 .bf16) (x1 : Vec Ideal S5x128x128 .bf16) (x2 : Vec Ideal S1x128 .f32) (x3 : Vec Ideal S63x128x128 .bf16) : FVec Ideal S48x128 .f32 :=
  k0_pay11 (C x0 x1 x2) (A9 x0 x1 x2 x3) (k0_pay10 (C x0 x1 x2)) (View.ld x3 r0_21) (View.ld x3 r0_22) (View.ld x3 r0_23) (View.ld x3 r0_24)

private theorem A11_eq (x0 : Vec Ideal S1x12288x128 .bf16) (x1 : Vec Ideal S5x128x128 .bf16) (x2 : Vec Ideal S1x128 .f32) (x3 : Vec Ideal S63x128x128 .bf16) :
    A11 x0 x1 x2 x3 = accU (C x0 x1 x2) x3 13 (by decide) := by
  unfold A11
  rw [A9_eq]
  rfl

/-- The running total after pooled row 16, as the program computes it. -/
private def A13 (x0 : Vec Ideal S1x12288x128 .bf16) (x1 : Vec Ideal S5x128x128 .bf16) (x2 : Vec Ideal S1x128 .f32) (x3 : Vec Ideal S63x128x128 .bf16) : FVec Ideal S48x128 .f32 :=
  k0_pay13 (C x0 x1 x2) (A11 x0 x1 x2 x3) (k0_pay12 (C x0 x1 x2)) (View.ld x3 r0_25) (View.ld x3 r0_26) (View.ld x3 r0_27)

private theorem A13_eq (x0 : Vec Ideal S1x12288x128 .bf16) (x1 : Vec Ideal S5x128x128 .bf16) (x2 : Vec Ideal S1x128 .f32) (x3 : Vec Ideal S63x128x128 .bf16) :
    A13 x0 x1 x2 x3 = accU (C x0 x1 x2) x3 16 (by decide) := by
  unfold A13
  rw [A11_eq]
  rfl

/-- The running total after pooled row 20, as the program computes it. -/
private def A15 (x0 : Vec Ideal S1x12288x128 .bf16) (x1 : Vec Ideal S5x128x128 .bf16) (x2 : Vec Ideal S1x128 .f32) (x3 : Vec Ideal S63x128x128 .bf16) : FVec Ideal S48x128 .f32 :=
  k0_pay15 (C x0 x1 x2) (A13 x0 x1 x2 x3) (k0_pay14 (C x0 x1 x2) (View.ld x3 r0_28)) (View.ld x3 r0_29) (View.ld x3 r0_30) (View.ld x3 r0_31)

private theorem A15_eq (x0 : Vec Ideal S1x12288x128 .bf16) (x1 : Vec Ideal S5x128x128 .bf16) (x2 : Vec Ideal S1x128 .f32) (x3 : Vec Ideal S63x128x128 .bf16) :
    A15 x0 x1 x2 x3 = accU (C x0 x1 x2) x3 20 (by decide) := by
  unfold A15
  rw [A13_eq]
  rfl

/-- The running total after pooled row 24, as the program computes it. -/
private def A17 (x0 : Vec Ideal S1x12288x128 .bf16) (x1 : Vec Ideal S5x128x128 .bf16) (x2 : Vec Ideal S1x128 .f32) (x3 : Vec Ideal S63x128x128 .bf16) : FVec Ideal S48x128 .f32 :=
  k0_pay17 (C x0 x1 x2) (A15 x0 x1 x2 x3) (k0_pay16 (C x0 x1 x2)) (View.ld x3 r0_32) (View.ld x3 r0_33) (View.ld x3 r0_34) (View.ld x3 r0_35)

private theorem A17_eq (x0 : Vec Ideal S1x12288x128 .bf16) (x1 : Vec Ideal S5x128x128 .bf16) (x2 : Vec Ideal S1x128 .f32) (x3 : Vec Ideal S63x128x128 .bf16) :
    A17 x0 x1 x2 x3 = accU (C x0 x1 x2) x3 24 (by decide) := by
  unfold A17
  rw [A15_eq]
  rfl

/-- The running total after pooled row 28, as the program computes it. -/
private def A19 (x0 : Vec Ideal S1x12288x128 .bf16) (x1 : Vec Ideal S5x128x128 .bf16) (x2 : Vec Ideal S1x128 .f32) (x3 : Vec Ideal S63x128x128 .bf16) : FVec Ideal S48x128 .f32 :=
  k0_pay19 (C x0 x1 x2) (A17 x0 x1 x2 x3) (k0_pay18 (C x0 x1 x2)) (View.ld x3 r0_36) (View.ld x3 r0_37) (View.ld x3 r0_38) (View.ld x3 r0_39)

private theorem A19_eq (x0 : Vec Ideal S1x12288x128 .bf16) (x1 : Vec Ideal S5x128x128 .bf16) (x2 : Vec Ideal S1x128 .f32) (x3 : Vec Ideal S63x128x128 .bf16) :
    A19 x0 x1 x2 x3 = accU (C x0 x1 x2) x3 28 (by decide) := by
  unfold A19
  rw [A17_eq]
  rfl

/-- The running total after pooled row 31, as the program computes it. -/
private def A21 (x0 : Vec Ideal S1x12288x128 .bf16) (x1 : Vec Ideal S5x128x128 .bf16) (x2 : Vec Ideal S1x128 .f32) (x3 : Vec Ideal S63x128x128 .bf16) : FVec Ideal S48x128 .f32 :=
  k0_pay21 (C x0 x1 x2) (A19 x0 x1 x2 x3) (k0_pay20 (C x0 x1 x2)) (View.ld x3 r0_40) (View.ld x3 r0_41) (View.ld x3 r0_42)

private theorem A21_eq (x0 : Vec Ideal S1x12288x128 .bf16) (x1 : Vec Ideal S5x128x128 .bf16) (x2 : Vec Ideal S1x128 .f32) (x3 : Vec Ideal S63x128x128 .bf16) :
    A21 x0 x1 x2 x3 = accU (C x0 x1 x2) x3 31 (by decide) := by
  unfold A21
  rw [A19_eq]
  rfl

/-- The running total after pooled row 35, as the program computes it. -/
private def A23 (x0 : Vec Ideal S1x12288x128 .bf16) (x1 : Vec Ideal S5x128x128 .bf16) (x2 : Vec Ideal S1x128 .f32) (x3 : Vec Ideal S63x128x128 .bf16) : FVec Ideal S48x128 .f32 :=
  k0_pay23 (C x0 x1 x2) (A21 x0 x1 x2 x3) (k0_pay22 (C x0 x1 x2) (View.ld x3 r0_43)) (View.ld x3 r0_44) (View.ld x3 r0_45) (View.ld x3 r0_46)

private theorem A23_eq (x0 : Vec Ideal S1x12288x128 .bf16) (x1 : Vec Ideal S5x128x128 .bf16) (x2 : Vec Ideal S1x128 .f32) (x3 : Vec Ideal S63x128x128 .bf16) :
    A23 x0 x1 x2 x3 = accU (C x0 x1 x2) x3 35 (by decide) := by
  unfold A23
  rw [A21_eq]
  rfl

/-- The running total after pooled row 39, as the program computes it. -/
private def A25 (x0 : Vec Ideal S1x12288x128 .bf16) (x1 : Vec Ideal S5x128x128 .bf16) (x2 : Vec Ideal S1x128 .f32) (x3 : Vec Ideal S63x128x128 .bf16) : FVec Ideal S48x128 .f32 :=
  k0_pay25 (C x0 x1 x2) (A23 x0 x1 x2 x3) (k0_pay24 (C x0 x1 x2)) (View.ld x3 r0_47) (View.ld x3 r0_48) (View.ld x3 r0_49) (View.ld x3 r0_50)

private theorem A25_eq (x0 : Vec Ideal S1x12288x128 .bf16) (x1 : Vec Ideal S5x128x128 .bf16) (x2 : Vec Ideal S1x128 .f32) (x3 : Vec Ideal S63x128x128 .bf16) :
    A25 x0 x1 x2 x3 = accU (C x0 x1 x2) x3 39 (by decide) := by
  unfold A25
  rw [A23_eq]
  rfl

/-- The running total after pooled row 43, as the program computes it. -/
private def A27 (x0 : Vec Ideal S1x12288x128 .bf16) (x1 : Vec Ideal S5x128x128 .bf16) (x2 : Vec Ideal S1x128 .f32) (x3 : Vec Ideal S63x128x128 .bf16) : FVec Ideal S48x128 .f32 :=
  k0_pay27 (C x0 x1 x2) (A25 x0 x1 x2 x3) (k0_pay26 (C x0 x1 x2)) (View.ld x3 r0_51) (View.ld x3 r0_52) (View.ld x3 r0_53) (View.ld x3 r0_54)

private theorem A27_eq (x0 : Vec Ideal S1x12288x128 .bf16) (x1 : Vec Ideal S5x128x128 .bf16) (x2 : Vec Ideal S1x128 .f32) (x3 : Vec Ideal S63x128x128 .bf16) :
    A27 x0 x1 x2 x3 = accU (C x0 x1 x2) x3 43 (by decide) := by
  unfold A27
  rw [A25_eq]
  rfl

/-- The running total after pooled row 46, as the program computes it. -/
private def A29 (x0 : Vec Ideal S1x12288x128 .bf16) (x1 : Vec Ideal S5x128x128 .bf16) (x2 : Vec Ideal S1x128 .f32) (x3 : Vec Ideal S63x128x128 .bf16) : FVec Ideal S48x128 .f32 :=
  k0_pay29 (C x0 x1 x2) (A27 x0 x1 x2 x3) (k0_pay28 (C x0 x1 x2)) (View.ld x3 r0_55) (View.ld x3 r0_56) (View.ld x3 r0_57)

private theorem A29_eq (x0 : Vec Ideal S1x12288x128 .bf16) (x1 : Vec Ideal S5x128x128 .bf16) (x2 : Vec Ideal S1x128 .f32) (x3 : Vec Ideal S63x128x128 .bf16) :
    A29 x0 x1 x2 x3 = accU (C x0 x1 x2) x3 46 (by decide) := by
  unfold A29
  rw [A27_eq]
  rfl

/-- The running total after pooled row 50, as the program computes it. -/
private def A31 (x0 : Vec Ideal S1x12288x128 .bf16) (x1 : Vec Ideal S5x128x128 .bf16) (x2 : Vec Ideal S1x128 .f32) (x3 : Vec Ideal S63x128x128 .bf16) : FVec Ideal S48x128 .f32 :=
  k0_pay31 (C x0 x1 x2) (A29 x0 x1 x2 x3) (k0_pay30 (C x0 x1 x2) (View.ld x3 r0_58)) (View.ld x3 r0_59) (View.ld x3 r0_60) (View.ld x3 r0_61)

private theorem A31_eq (x0 : Vec Ideal S1x12288x128 .bf16) (x1 : Vec Ideal S5x128x128 .bf16) (x2 : Vec Ideal S1x128 .f32) (x3 : Vec Ideal S63x128x128 .bf16) :
    A31 x0 x1 x2 x3 = accU (C x0 x1 x2) x3 50 (by decide) := by
  unfold A31
  rw [A29_eq]
  rfl

/-- The running total after pooled row 54, as the program computes it. -/
private def A33 (x0 : Vec Ideal S1x12288x128 .bf16) (x1 : Vec Ideal S5x128x128 .bf16) (x2 : Vec Ideal S1x128 .f32) (x3 : Vec Ideal S63x128x128 .bf16) : FVec Ideal S48x128 .f32 :=
  k0_pay33 (C x0 x1 x2) (A31 x0 x1 x2 x3) (k0_pay32 (C x0 x1 x2)) (View.ld x3 r0_62) (View.ld x3 r0_63) (View.ld x3 r0_64) (View.ld x3 r0_65)

private theorem A33_eq (x0 : Vec Ideal S1x12288x128 .bf16) (x1 : Vec Ideal S5x128x128 .bf16) (x2 : Vec Ideal S1x128 .f32) (x3 : Vec Ideal S63x128x128 .bf16) :
    A33 x0 x1 x2 x3 = accU (C x0 x1 x2) x3 54 (by decide) := by
  unfold A33
  rw [A31_eq]
  rfl

/-- The running total after pooled row 58, as the program computes it. -/
private def A35 (x0 : Vec Ideal S1x12288x128 .bf16) (x1 : Vec Ideal S5x128x128 .bf16) (x2 : Vec Ideal S1x128 .f32) (x3 : Vec Ideal S63x128x128 .bf16) : FVec Ideal S48x128 .f32 :=
  k0_pay35 (C x0 x1 x2) (A33 x0 x1 x2 x3) (k0_pay34 (C x0 x1 x2)) (View.ld x3 r0_66) (View.ld x3 r0_67) (View.ld x3 r0_68) (View.ld x3 r0_69)

private theorem A35_eq (x0 : Vec Ideal S1x12288x128 .bf16) (x1 : Vec Ideal S5x128x128 .bf16) (x2 : Vec Ideal S1x128 .f32) (x3 : Vec Ideal S63x128x128 .bf16) :
    A35 x0 x1 x2 x3 = accU (C x0 x1 x2) x3 58 (by decide) := by
  unfold A35
  rw [A33_eq]
  rfl

/-- The running total after pooled row 61, as the program computes it. -/
private def A37 (x0 : Vec Ideal S1x12288x128 .bf16) (x1 : Vec Ideal S5x128x128 .bf16) (x2 : Vec Ideal S1x128 .f32) (x3 : Vec Ideal S63x128x128 .bf16) : FVec Ideal S48x128 .f32 :=
  k0_pay37 (C x0 x1 x2) (A35 x0 x1 x2 x3) (k0_pay36 (C x0 x1 x2)) (View.ld x3 r0_70) (View.ld x3 r0_71) (View.ld x3 r0_72)

private theorem A37_eq (x0 : Vec Ideal S1x12288x128 .bf16) (x1 : Vec Ideal S5x128x128 .bf16) (x2 : Vec Ideal S1x128 .f32) (x3 : Vec Ideal S63x128x128 .bf16) :
    A37 x0 x1 x2 x3 = accU (C x0 x1 x2) x3 61 (by decide) := by
  unfold A37
  rw [A35_eq]
  rfl

/-! ## The pieces read at an entry -/

private theorem hz2 : (![0, 0] : Fin 2 → Nat) = fun _ => 0 := funext fun a => by fin_cases a <;> rfl

private theorem slab_apply (v : FVec Ideal S12096x128 .f32) (o : ℕ) (h : o + 48 ≤ 12096) (r : Fin 48) (f : Fin 128) :
    slab v o h (ix2 r f) = v (ix2 (⟨o + r.val, by have := r.isLt; omega⟩ : Fin 12096) f) := by
  unfold slab
  refine extractStridedSlice_apply _ _ _ _ _ fun a => ?_
  match a with
  | ⟨0, _⟩ => rfl
  | ⟨1, _⟩ => show f.val = 0 + f.val; rw [Nat.zero_add]

private theorem pool_apply (v : FVec Ideal S12096x128 .f32) (j : ℕ) (hj : j < 63) (r : Fin 48) (f : Fin 128) :
    pool v j hj (ix2 r f)
      = max (max (max (v (ix2 (⟨(4 * j) * 48 + r.val, by have := r.isLt; omega⟩ : Fin 12096) f))
            (v (ix2 (⟨(4 * j + 1) * 48 + r.val, by have := r.isLt; omega⟩ : Fin 12096) f)))
          (v (ix2 (⟨(4 * j + 2) * 48 + r.val, by have := r.isLt; omega⟩ : Fin 12096) f)))
        (v (ix2 (⟨(4 * j + 3) * 48 + r.val, by have := r.isLt; omega⟩ : Fin 12096) f)) := by
  unfold pool
  rw [maximumf_apply, maximumf_apply, maximumf_apply, slab_apply, slab_apply, slab_apply, slab_apply]

private theorem mm_apply (g : FVec Ideal S48x128 .bf16) (w : Vec Ideal S1x128x128 .bf16) (r : Fin 48) (c : Fin 128) :
    mm g w (ix2 r c) = ∑ f : Fin 128, g (ix2 r f) * w (ix3 (0 : Fin 1) f c) := by
  unfold mm
  show FloatOps.matmul _ _ _ _ _ _ = _
  rw [Cert.PlainDot.matmul_zero_apply dot_S48x128_S128x128_S48x128_1_0_0_1_n_n rfl]
  refine Finset.sum_congr rfl fun f _ => ?_
  rw [cast3_apply]

private theorem part_apply (v : FVec Ideal S12096x128 .f32) (j : ℕ) (hj : j < 63) (w : Vec Ideal S1x128x128 .bf16) (r : Fin 48) (c : Fin 128) :
    part v j hj w (ix2 r c) = ∑ f : Fin 128, pool v j hj (ix2 r f) * w (ix3 (0 : Fin 1) f c) := by
  unfold part
  rw [mm_apply]
  rfl

private theorem W_apply (x3 : Vec Ideal S63x128x128 .bf16) (j : ℕ) (hj : j < 63) (d f : Fin 128) :
    W x3 j hj (ix3 (0 : Fin 1) d f) = x3 (ix3 (⟨j, hj⟩ : Fin 63) d f) :=
  ldMat_apply x3 j hj _ d f

/-- The running total at an entry is the sum of its blocks' contributions. -/
private theorem accU_apply (v : FVec Ideal S12096x128 .f32) (x3 : Vec Ideal S63x128x128 .bf16) (r : Fin 48) (c : Fin 128) :
    ∀ (n : ℕ) (hn : n < 63), accU v x3 n hn (ix2 r c)
      = ∑ j : Fin (n + 1), part v j.val (by have := j.isLt; omega) (W x3 j.val (by have := j.isLt; omega)) (ix2 r c) := by
  intro n
  induction n with
  | zero =>
    intro hn
    rw [Fin.sum_univ_one]
    rfl
  | succ n ih =>
    intro hn
    show addf (accU v x3 n (Nat.lt_of_succ_lt hn)) (part v (n + 1) hn (W x3 (n + 1) hn)) (ix2 r c) = _
    rw [addf_apply, Fin.sum_univ_castSucc, ih]
    rfl

/-! ## The convolution block at an entry -/

/-- A product of a 12096-row block with a loaded 128 × 128 matrix, from zero. -/
private theorem tapG_apply (g : FVec Ideal S12096x128 .bf16) (w : Vec Ideal S1x128x128 .bf16) (i : Fin 12096) (f : Fin 128) :
    matmul dot_S12096x128_S128x128_S12096x128_1_0_0_1_n_n none g
      (shapeCast S128x128 w shapeCasts_S1x128x128_S128x128 : FVec Ideal S128x128 .bf16) (constant (F := Ideal) S12096x128 .f32 0x00000000#32) (ix2 i f)
    = ∑ d : Fin 128, g (ix2 i d) * w (ix3 (0 : Fin 1) d f) := by
  show FloatOps.matmul _ _ _ _ _ _ = _
  rw [Cert.PlainDot.matmul_zero_apply dot_S12096x128_S128x128_S12096x128_1_0_0_1_n_n rfl]
  refine Finset.sum_congr rfl fun d _ => ?_
  rw [cast3_apply]

/-- Tap k at conv row t of block row r: the rows read are input rows t + k. -/
private theorem tap_blockX (x0 : Vec Ideal S1x12288x128 .bf16) (x1 : Vec Ideal S5x128x128 .bf16) (k : ℕ) (hk : k < 5) (o : ℕ) (ho : o = k * 48)
    (inb0 : ∀ a, (![0, o, 0] : Fin 3 → Nat) a + S1x12096x128.size a ≤ S1x12288x128.size a)
    (inb1 : ∀ a, (![k, 0, 0] : Fin 3 → Nat) a + S1x128x128.size a ≤ S5x128x128.size a)
    (t : ℕ) (ht : t < 252) (r : Fin 48) (f : Fin 128) :
    (∑ d : Fin 128, (shapeCast S12096x128 (View.ld x0 (Rect.unit (s := S1x12288x128) ![0, o, 0] S1x12096x128.size inb0)) shapeCasts_S1x12096x128_S12096x128 : FVec Ideal S12096x128 .bf16)
          (ix2 (⟨t * 48 + r.val, by have := r.isLt; omega⟩ : Fin 12096) d)
        * View.ld x1 (Rect.unit (s := S5x128x128) ![k, 0, 0] S1x128x128.size inb1) (ix3 (0 : Fin 1) d f))
      = ∑ d : Fin 128, blockX x0 r (t + k) d * x1 (ix3 (⟨k, hk⟩ : Fin 5) d f) := by
  subst ho
  have hr := r.isLt
  refine Finset.sum_congr rfl fun d _ => ?_
  rw [cast3_apply, ldRows_apply x0 (k * 48) inb0 (by omega), ldMat_apply x1 k hk inb1]
  unfold blockX
  rw [dif_pos (show t + k ≤ 255 by omega)]
  congr 2
  refine funext fun a => Fin.ext ?_
  match a with
  | ⟨0, _⟩ => rfl
  | ⟨1, _⟩ => show k * 48 + (t * 48 + r.val) = (t + k) * 48 + r.val; omega
  | ⟨2, _⟩ => rfl

private theorem pay3_eq (v23 : Vec Ideal S1x12096x128 .bf16) :
    k0_pay3 v23 = (shapeCast S12096x128 v23 shapeCasts_S1x12096x128_S12096x128 : FVec Ideal S12096x128 .bf16) := rfl

/-- The first four taps, accumulated left to right. -/
private theorem pay2_apply (v0 : Vec Ideal S1x12096x128 .bf16) (v2 : Vec Ideal S1x128x128 .bf16) (v5 : Vec Ideal S1x12096x128 .bf16) (v7 : Vec Ideal S1x128x128 .bf16)
    (v11 : Vec Ideal S1x12096x128 .bf16) (v13 : Vec Ideal S1x128x128 .bf16) (v17 : Vec Ideal S1x12096x128 .bf16) (v19 : Vec Ideal S1x128x128 .bf16)
    (i : Fin 12096) (f : Fin 128) :
    k0_pay2 v0 v2 v5 v7 v11 v13 v17 v19 (ix2 i f)
      = (∑ d : Fin 128, (shapeCast S12096x128 v0 shapeCasts_S1x12096x128_S12096x128 : FVec Ideal S12096x128 .bf16) (ix2 i d) * v2 (ix3 (0 : Fin 1) d f))
        + (∑ d : Fin 128, (shapeCast S12096x128 v5 shapeCasts_S1x12096x128_S12096x128 : FVec Ideal S12096x128 .bf16) (ix2 i d) * v7 (ix3 (0 : Fin 1) d f))
        + (∑ d : Fin 128, (shapeCast S12096x128 v11 shapeCasts_S1x12096x128_S12096x128 : FVec Ideal S12096x128 .bf16) (ix2 i d) * v13 (ix3 (0 : Fin 1) d f))
        + (∑ d : Fin 128, (shapeCast S12096x128 v17 shapeCasts_S1x12096x128_S12096x128 : FVec Ideal S12096x128 .bf16) (ix2 i d) * v19 (ix3 (0 : Fin 1) d f)) := by
  rw [← tapG_apply, ← tapG_apply, ← tapG_apply, ← tapG_apply]
  rfl

/-- The fifth tap, the bias row and the clamp at zero. -/
private theorem pay4_apply (v22 : FVec Ideal S12096x128 .f32) (v24 : FVec Ideal S12096x128 .bf16) (v25 : Vec Ideal S1x128x128 .bf16) (v29 : Vec Ideal S1x128 .f32)
    (i : Fin 12096) (f : Fin 128) :
    k0_pay4 v22 v24 v25 v29 (ix2 i f)
      = max (v22 (ix2 i f) + (∑ d : Fin 128, v24 (ix2 i d) * v25 (ix3 (0 : Fin 1) d f)) + v29 (ix2 (0 : Fin 1) f)) 0 := by
  rw [← tapG_apply, ← biasRows_apply v29 broadcasts_S1x128_S12096x128 i f, ← Ideal.ofBits_zero_f32]
  rfl

private theorem C_apply (x0 : Vec Ideal S1x12288x128 .bf16) (x1 : Vec Ideal S5x128x128 .bf16) (x2 : Vec Ideal S1x128 .f32)
    (t : ℕ) (ht : t < 252) (r : Fin 48) (f : Fin 128) :
    C x0 x1 x2 (ix2 (⟨t * 48 + r.val, by have := r.isLt; omega⟩ : Fin 12096) f)
      = max (Cert.TextCnn.conv (blockX x0 r) (fun k d f => x1 (ix3 k d f)) t f + x2 (ix2 (0 : Fin 1) f)) 0 := by
  unfold C
  rw [pay4_apply, pay2_apply, pay3_eq,
    tap_blockX x0 x1 0 (by decide) 0 rfl _ _ t ht r f, tap_blockX x0 x1 1 (by decide) 48 rfl _ _ t ht r f,
    tap_blockX x0 x1 2 (by decide) 96 rfl _ _ t ht r f, tap_blockX x0 x1 3 (by decide) 144 rfl _ _ t ht r f,
    tap_blockX x0 x1 4 (by decide) 192 rfl _ _ t ht r f, View.ld_unit_zero hz2]
  unfold Cert.TextCnn.conv
  rw [Fin.sum_univ_five]
  rfl

/-! ## The whole value -/

/-- Pooled block j against matrix j at an entry: the pooled features of block row r against the linear weights of row j. -/
private theorem term_apply (x0 : Vec Ideal S1x12288x128 .bf16) (x1 : Vec Ideal S5x128x128 .bf16) (x2 : Vec Ideal S1x128 .f32)
    (x3 : Vec Ideal S63x128x128 .bf16) (r : Fin 48) (c : Fin 128) (j : ℕ) (hj : j < 63) :
    part (C x0 x1 x2) j hj (W x3 j hj) (ix2 r c)
      = ∑ f : Fin 128, Cert.TextCnn.pooled (blockX x0 r) (fun k d f => x1 (ix3 k d f)) (fun f => x2 (ix2 (0 : Fin 1) f)) (⟨j, hj⟩ : Fin 63) f
          * x3 (ix3 (⟨j, hj⟩ : Fin 63) f c) := by
  rw [part_apply]
  refine Finset.sum_congr rfl fun f _ => ?_
  rw [W_apply, pool_apply, C_apply x0 x1 x2 (4 * j) (by omega), C_apply x0 x1 x2 (4 * j + 1) (by omega),
    C_apply x0 x1 x2 (4 * j + 2) (by omega), C_apply x0 x1 x2 (4 * j + 3) (by omega), ← Cert.TextCnn.pooledRows_eq]
  rfl

/-- The printed value is the running total over all 63 pooled blocks plus the bias row. -/
private theorem out_eq (x0 : Vec Ideal S1x12288x128 .bf16) (x1 : Vec Ideal S5x128x128 .bf16) (x2 : Vec Ideal S1x128 .f32)
    (x3 : Vec Ideal S63x128x128 .bf16) (x4 : Vec Ideal S1x128 .f32) :
    out0_5 (F := Ideal) x0 x1 x2 x3 x4
      = addf (accU (C x0 x1 x2) x3 62 (by decide))
          (broadcastTo S48x128 (shapeCast S1x128 (View.ld x4 r0_10) shapeCasts_S1x128_S1x128) broadcasts_S1x128_S48x128) := by
  have h : out0_5 (F := Ideal) x0 x1 x2 x3 x4
      = k0_pay1 (A37 x0 x1 x2 x3) (k0_pay38 (C x0 x1 x2) (View.ld x3 r0_73)) (View.ld x4 r0_10) :=
    View.canon_unit_zero hz2 _ _
  rw [h, A37_eq]
  rfl

/-- THE BODY AT AN ENTRY: what the output block holds at (r, c) is the logits of block row r over the 128 padded class lanes. -/
theorem out_apply (x0 : Vec Ideal S1x12288x128 .bf16) (x1 : Vec Ideal S5x128x128 .bf16) (x2 : Vec Ideal S1x128 .f32)
    (x3 : Vec Ideal S63x128x128 .bf16) (x4 : Vec Ideal S1x128 .f32) (r : Fin 48) (c : Fin 128) :
    out0_5 (F := Ideal) x0 x1 x2 x3 x4 (ix2 r c)
      = Cert.TextCnn.logits (blockX x0 r) (fun k d f => x1 (ix3 k d f)) (fun f => x2 (ix2 (0 : Fin 1) f))
          (fun j f c => x3 (ix3 j f c)) (fun c => x4 (ix2 (0 : Fin 1) c)) c := by
  rw [out_eq, addf_apply, accU_apply, biasRows_apply, View.ld_unit_zero hz2]
  unfold Cert.TextCnn.logits
  congr 1
  exact Finset.sum_congr rfl fun j _ => term_apply x0 x1 x2 x3 r c j.val j.isLt

end Cert.ReferenceIdeal.RefValue

end
-- ==== Proof.ReferenceIdealTail.lean ====
/-
  The reference's result, from its blocks to the sliced array.

  The reference's region writes a 528 × 128 array in eleven blocks of 48 rows, block t by grid point t; row b lies in the block
  of point b / 48, so the eleven blocks cover the array, and an array whose every block is the matching block of one function G
  ends holding G. One host operation follows the region: the result is the 512 × 16 corner of that array, entry (b, c) being
  G (b, c). So if G agrees with the specification on that corner, the reference's run ends with its result at the specification
  of the launched arguments; the five arguments, written by no operation and staged by no window, end as launched.
-/
import proofs.«128919_g2000302331999779_pallasbulk_1131_18_alg».proof.Proof.Gen.ReferenceIdeal.Frame
import proofs.«128919_g2000302331999779_pallasbulk_1131_18_alg».proof.Proof.Assembly
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The output array from its blocks -/

/-- The output window's block index at point t is (t, 0). -/
theorem idx5 : ∀ t : Fin cfg0.N, win0_5.index t (0 : Fin 2) = t.val ∧ win0_5.index t (1 : Fin 2) = 0 :=
  (by decide +kernel : ∀ t : Fin grid0.N, _)

/-- An index of the output array is in point t's block iff each coordinate is in the block's range on its axis. -/
theorem mem_blk5 (t : Fin cfg0.N) (i : S528x128.Idx) :
    i ∈ ((cfg0.win 5).blk t).view.set ↔ ∀ a : Fin 2, win0_5.index t a * S48x128.size a ≤ (i a).val ∧ (i a).val < win0_5.index t a * S48x128.size a + S48x128.size a := by
  show i ∈ ((View.whole main_v19).slice (win0_5.rect t)).set ↔ _
  rw [View.set_slice_whole, Rect.mem_set_unit]
  exact Iff.rfl

/-- Row b is in the block of point b / 48. -/
theorem cover5 (i : S528x128.Idx) : ∃ t : Fin cfg0.N, (cfg0.win 5).flush t = true ∧ i ∈ ((cfg0.win 5).blk t).view.set := by
  have hN : cfg0.N = 11 := N_0
  have hi0 : (i 0).val < 528 := (i 0).isLt
  have hi1 : (i 1).val < 128 := (i 1).isLt
  refine ⟨⟨(i 0).val / 48, by omega⟩, flush0_5 _, ?_⟩
  obtain ⟨e0, e1⟩ := idx5 ⟨(i 0).val / 48, by omega⟩
  rw [mem_blk5]
  intro a
  match a with
  | ⟨0, _⟩ =>
    show win0_5.index _ (0 : Fin 2) * 48 ≤ (i 0).val ∧ (i 0).val < win0_5.index _ (0 : Fin 2) * 48 + 48
    rw [e0]; show (i 0).val / 48 * 48 ≤ (i 0).val ∧ (i 0).val < (i 0).val / 48 * 48 + 48; omega
  | ⟨1, _⟩ =>
    show win0_5.index _ (1 : Fin 2) * 128 ≤ (i 1).val ∧ (i 1).val < win0_5.index _ (1 : Fin 2) * 128 + 128
    rw [e1]; omega

/-- If every point writes back its block of one function G, the output array ends holding G. -/
theorem final5 (c : Dev nD) (G : S528x128.Idx → EReal)
    (hG : ∀ t : Fin cfg0.N, (dats m 0 c).flushed 5 t = ((cfg0.win 5).blk t).view.read (Elt Ideal) G) :
    (dats m 0 c).arrAt 5 cfg0.N = G :=
  (dats m 0 c).arrAt_eq_of_cover 5 G (fun t _ => hG t) cover5

/-! ## The slice after the region -/

/-- The result is the 512 × 16 corner of the output array. -/
theorem tail_v20 (c : Dev nD) (G : S528x128.Idx → EReal) (h : (dats m 0 c).arrAt 5 cfg0.N = G) :
    Pipeline.afterTail₀ cfgs (dats m) 0 (V0 m) [hostOps1] c main_v20
      = fun i : S512x16.Idx => G (ix2 (⟨(i 0).val, Nat.lt_of_lt_of_le (idx2_lt0 i) (by decide)⟩ : Fin 528) (⟨(i 1).val, Nat.lt_of_lt_of_le (idx2_lt1 i) (by decide)⟩ : Fin 128)) := by
  have e : Pipeline.withArrays spec0 c (V0 m c) (fun w => (dats m 0 c).arrAt w cfg0.N) (Proc.devRef .tc main_v19) = G :=
    (Pipeline.withArrays_arr spec0 launch0.win.arr_inj c (V0 m c) (fun w => (dats m 0 c).arrAt w cfg0.N) 5).trans h
  unfold Pipeline.afterTail₀
  show StableHlo.after hostOps1 _ (Proc.devRef .tc main_v20) = _
  dsimp only [hostOps1]
  after_results
  funext i
  refine (extractStridedSlice_apply _ _ _ i (ix2 (⟨(i 0).val, Nat.lt_of_lt_of_le (idx2_lt0 i) (by decide)⟩ : Fin 528) (⟨(i 1).val, Nat.lt_of_lt_of_le (idx2_lt1 i) (by decide)⟩ : Fin 128))
    (fun a => match a with
      | ⟨0, _⟩ => by show (i 0).val = 0 + (i 0).val; omega
      | ⟨1, _⟩ => by show (i 1).val = 0 + (i 1).val; omega)).trans ?_
  exact congrFun e _

/-! ## The run, read -/

/-- If every point writes back its block of G, and G is the specification on the 512 × 16 corner, the reference runs to the
    specification: its result array ends at the specification of the launched arguments, the five arguments as launched. -/
theorem run_spec_of (G : ((ℓ : Loc nD τ sig) → Buf (Elt Ideal) ℓ) → Dev nD → S528x128.Idx → EReal)
    (hfl : ∀ (m : (ℓ : Loc nD τ sig) → Buf (Elt Ideal) ℓ) (c : Dev nD) (t : Fin cfg0.N),
      (dats m 0 c).flushed 5 t = ((cfg0.win 5).blk t).view.read (Elt Ideal) (G m c))
    (hspec : ∀ (m : (ℓ : Loc nD τ sig) → Buf (Elt Ideal) ℓ) (c : Dev nD) (b : Fin 512) (cc : Fin 16),
      G m c (ix2 (⟨b.val, Nat.lt_of_lt_of_le b.isLt (by decide)⟩ : Fin 528) (⟨cc.val, Nat.lt_of_lt_of_le cc.isLt (by decide)⟩ : Fin 128))
        = Cert.TextCnn.specOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (ix2 b cc)) :
    Cert.Proof.ReferenceRunsToSpec := fun m ρ =>
  (θ_run defs _ _).mono (fun _ h c => ⟨(((h c).2 main_v20 (Pipeline.mem_restRefs_of main_v20 (by decide) (by decide))).trans
        (tail_v20 m c (G m c) (final5 m c (G m c) (hfl m c)))).trans
        (funext fun i => (hspec m c (i 0) (i 1)).trans (congrArg _ (eq_ix2 i).symm)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.RefValue

end
-- ==== Proof.ReferenceIdealWeights.lean ====
/-
  The four weight and bias arrays as the region finds them, over the extended reals, read at an index.

  Before the region the host lays each argument out for the blocks: the conv weight conv_w[f, 0, k, d] becomes tap k's
  matrix entry (d, f); the conv bias becomes a row of 128 lanes; the linear weight lin_w[c, f·63 + j] becomes entry
  (j, f, c) of a stack of 63 matrices whose class lanes are padded from 16 to 128 with zeros; the linear bias becomes a
  row whose lanes 16 … 127 are zero. Each is a reshape, a transpose and a pad by fixed extents (and a change of float
  format, the identity on extended reals), so every entry of the laid-out array inside the unpadded part is one entry of
  the argument.
-/
import proofs.«128919_g2000302331999779_pallasbulk_1131_18_alg».proof.Proof.Gen.ReferenceIdeal.Frame
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.ValueIdx Idealize.ShloMosaic.TcCoe
open Idealize.SL Idealize.SL.Sem

variable (m : (ℓ : Loc nD τ sig) → Buf (Elt Ideal) ℓ)

/-! ## The four weight arrays as the region finds them: each host stretch composed -/

/-- The zero the padding calls fill with. -/
abbrev padFill (φ : FTy) : S_.Idx → Ideal φ := sitofp φ (constantI S_ 32 0#32)

theorem V_v12_eq (c : Dev nD) :
    (Gen.V m c main_v12 : S1x128.Idx → EReal)
      = pad S1x128 ![0, 0] ![0, 0] ![0, 0]
          (shapeCast S1x128 (m ((c : Thread nD τ).loc main_arg2) : S128.Idx → EReal) shapeCasts_S128_S1x128)
          (padFill .f32) pads_S1x128_S1x128_000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

theorem V_v18_eq (c : Dev nD) :
    (Gen.V m c main_v18 : S1x128.Idx → EReal)
      = pad S1x128 ![0, 0] ![0, 112] ![0, 0]
          (shapeCast S1x16 (m ((c : Thread nD τ).loc main_arg4) : S16.Idx → EReal) shapeCasts_S16_S1x16)
          (padFill .f32) pads_S1x16_S1x128_000_01120 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

theorem V_v10_eq (c : Dev nD) :
    (Gen.V m c main_v10 : S5x128x128.Idx → EReal)
      = truncf .bf16 (pad S5x128x128 ![0, 0, 0] ![0, 0, 0] ![0, 0, 0]
          (transpose S5x128x128 [1, 2, 0]
            (shapeCast S128x5x128 (m ((c : Thread nD τ).loc main_arg1) : S128x1x5x128.Idx → EReal) shapeCasts_S128x1x5x128_S128x5x128)
            transposes_S128x5x128_S5x128x128_1_2_0)
          (padFill .f32) pads_S5x128x128_S5x128x128_000_000_000 h_S_ : FVec Ideal S5x128x128 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

theorem V_v16_eq (c : Dev nD) :
    (Gen.V m c main_v16 : S63x128x128.Idx → EReal)
      = truncf .bf16 (pad S63x128x128 ![0, 0, 0] ![0, 0, 112] ![0, 0, 0]
          (transpose S63x128x16 [2, 1, 0]
            (shapeCast S16x128x63 (m ((c : Thread nD τ).loc main_arg3) : S16x8064.Idx → EReal) shapeCasts_S16x8064_S16x128x63)
            transposes_S16x128x63_S63x128x16_2_1_0)
          (padFill .f32) pads_S63x128x16_S63x128x128_000_000_01120 h_S_ : FVec Ideal S63x128x128 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

/-! ## Read at an index -/

/-- The conv bias row: lane f is entry f of the bias argument. -/
theorem V_v12_apply (c : Dev nD) (f : Fin 128) :
    (Gen.V m c main_v12 : S1x128.Idx → EReal) (ix2 (0 : Fin 1) f)
      = (m ((c : Thread nD τ).loc main_arg2) : S128.Idx → EReal) (ix1 f) := by
  rw [V_v12_eq]
  refine (pad_apply_of_inside _ _ _ _ _ _ _ _ (ix2 (0 : Fin 1) f) fun a => ?_).trans ?_
  · match a with
    | ⟨0, _⟩ => rfl
    | ⟨1, _⟩ => show f.val = 0 + f.val * (0 + 1); omega
  · refine shapeCast_apply _ _ _ (ix1 f) ?_
    rw [Shape.rowMajor_val_one, Shape.rowMajor_val_two]
    show f.val = 0 * 128 + f.val
    omega

/-- The linear bias row: lane cc < 16 is entry cc of the bias argument. -/
theorem V_v18_apply (c : Dev nD) (cc : Fin 16) :
    (Gen.V m c main_v18 : S1x128.Idx → EReal) (ix2 (0 : Fin 1) (⟨cc.val, by have := cc.isLt; omega⟩ : Fin 128))
      = (m ((c : Thread nD τ).loc main_arg4) : S16.Idx → EReal) (ix1 cc) := by
  rw [V_v18_eq]
  refine (pad_apply_of_inside _ _ _ _ _ _ _ _ (ix2 (0 : Fin 1) cc) fun a => ?_).trans ?_
  · match a with
    | ⟨0, _⟩ => rfl
    | ⟨1, _⟩ => show cc.val = 0 + cc.val * (0 + 1); omega
  · refine shapeCast_apply _ _ _ (ix1 cc) ?_
    rw [Shape.rowMajor_val_one, Shape.rowMajor_val_two]
    show cc.val = 0 * 16 + cc.val
    omega

/-- The conv taps: tap k, input feature d, output feature f is conv_w[f, 0, k, d]. -/
theorem V_v10_apply (c : Dev nD) (k : Fin 5) (d f : Fin 128) :
    (Gen.V m c main_v10 : S5x128x128.Idx → EReal) (ix3 k d f)
      = (m ((c : Thread nD τ).loc main_arg1) : S128x1x5x128.Idx → EReal) (ix4 f (0 : Fin 1) k d) := by
  rw [V_v10_eq, truncf_apply]
  refine (pad_apply_of_inside _ _ _ _ _ _ _ _ (ix3 k d f) fun a => ?_).trans ?_
  · match a with
    | ⟨0, _⟩ => show k.val = 0 + k.val * (0 + 1); omega
    | ⟨1, _⟩ => show d.val = 0 + d.val * (0 + 1); omega
    | ⟨2, _⟩ => show f.val = 0 + f.val * (0 + 1); omega
  refine (transpose_apply _ _ _ _ (ix3 f k d) fun b => ?_).trans ?_
  · match b with
    | ⟨0, _⟩ => rfl
    | ⟨1, _⟩ => rfl
    | ⟨2, _⟩ => rfl
  · refine shapeCast_apply _ _ _ (ix4 f (0 : Fin 1) k d) ?_
    rw [Shape.rowMajor_val_four, Shape.rowMajor_val_three]
    show ((f.val * 1 + 0) * 5 + k.val) * 128 + d.val = (f.val * 5 + k.val) * 128 + d.val
    omega

/-- The linear weights: pooled row j, feature f, class cc < 16 is lin_w[cc, f·63 + j]. -/
theorem V_v16_apply (c : Dev nD) (j : Fin 63) (f : Fin 128) (cc : Fin 16) :
    (Gen.V m c main_v16 : S63x128x128.Idx → EReal) (ix3 j f (⟨cc.val, by have := cc.isLt; omega⟩ : Fin 128))
      = (m ((c : Thread nD τ).loc main_arg3) : S16x8064.Idx → EReal)
          (ix2 cc (⟨f.val * 63 + j.val, by have := f.isLt; have := j.isLt; omega⟩ : Fin 8064)) := by
  rw [V_v16_eq, truncf_apply]
  refine (pad_apply_of_inside _ _ _ _ _ _ _ _ (ix3 j f cc) fun a => ?_).trans ?_
  · match a with
    | ⟨0, _⟩ => show j.val = 0 + j.val * (0 + 1); omega
    | ⟨1, _⟩ => show f.val = 0 + f.val * (0 + 1); omega
    | ⟨2, _⟩ => show cc.val = 0 + cc.val * (0 + 1); omega
  refine (transpose_apply _ _ _ _ (ix3 cc f j) fun b => ?_).trans ?_
  · match b with
    | ⟨0, _⟩ => rfl
    | ⟨1, _⟩ => rfl
    | ⟨2, _⟩ => rfl
  · refine shapeCast_apply _ _ _ (ix2 cc (⟨f.val * 63 + j.val, by have := f.isLt; have := j.isLt; omega⟩ : Fin 8064)) ?_
    rw [Shape.rowMajor_val_two, Shape.rowMajor_val_three]
    show cc.val * 8064 + (f.val * 63 + j.val) = (cc.val * 128 + f.val) * 63 + j.val
    omega

end Cert.ReferenceIdeal.RefValue

end
-- ==== Proof.LibReadFold.lean ====
/-
  Reading one buffer out of a fold of host operations.

  A line of host operations leaves every buffer at the fold of the operations' results over the contents it started
  from. Read at one buffer, the fold is a computation: an operation's result at its own buffer is its function's value
  of its operands' contents, and at any other buffer what was there. The library does this in one rewriting pass;
  two kinds of residue are left to finish here — reads that sit inside a `concatenate`'s list of (shape, array)
  pairs, which the pass does not enter, and the transports of a called function's values between a buffer's type and
  the value's type, which are identities (the two types are the same type).
-/
import Idealize.ShloMosaic.Lib.StableHlo.Run

namespace Cert.ReadFold

open Idealize.ShloMosaic Idealize.ShloMosaic.StableHlo

/-- After the one-pass reading of a fold of host operations, the reads left under a `concatenate`'s list of
    (shape, array) pairs: each operation's result at its own buffer is its function's value, at any other buffer
    what was there. -/
macro "finish_results" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Read a buffer out of a fold: the one-pass reading, then the reads left under a `concatenate`, then the identity
    transports. -/
macro "read_fold" : tactic =>
  `(tactic| (after_results_simp <;> finish_results <;> try simp only [StableHlo.TRef.toBuf, StableHlo.TRef.ofBuf, cast_eq]))

end Cert.ReadFold
-- ==== Proof.ReferenceIdealValue.lean ====
/-
  The reference from its run to the specification.

  The program re-lays the input before its one region: the first 255 rows of every batch row, one zero row on top, sixteen zero
  batch rows below, then 11 blocks of 48 batch rows, a block's rows ordered (input row h, batch row r within the block) — row
  h·48 + r. Grid point t takes block t, computes the logits of its 48 batch rows over 128 class lanes (the body's value, proved
  apart) and writes rows 48·t … 48·t + 47 of a 528 × 128 array; the program's last line keeps rows < 512 and lanes < 16.

  So the 528 × 128 array is ONE function of the window arrays as the region finds them: entry (b, c) is the logits of the input
  table sitting in block b / 48 at rows h·48 + b % 48. Every grid point writes its block of that function, the blocks cover the
  array, and at b < 512, c < 16 the table is the specification's on the rows 0 … 255 the logits read (row 0 the zero row, row h
  the input's row h − 1), the convolution weights and bias are the specification's, and lane c reads the unpadded linear weights
  and bias: the entry is the specification's.
-/
import proofs.«128919_g2000302331999779_pallasbulk_1131_18_alg».proof.Proof.ReferenceIdealBody
import proofs.«128919_g2000302331999779_pallasbulk_1131_18_alg».proof.Proof.ReferenceIdealTail
import proofs.«128919_g2000302331999779_pallasbulk_1131_18_alg».proof.Proof.ReferenceIdealWeights
import proofs.«128919_g2000302331999779_pallasbulk_1131_18_alg».proof.Proof.LibReadFold
import Idealize.ShloMosaic.Lib.KernelVsHost
import Idealize.ShloMosaic.Lib.StableHlo.Run

set_option maxRecDepth 16384

noncomputable section

open scoped BigOperators

namespace Cert.ReferenceIdeal.RefValue

open Cert.ReferenceIdeal Cert.ReferenceIdeal.Gen
open Idealize.ShloMosaic Idealize.ShloMosaic.ValueIdx Idealize.ShloMosaic.TcCoe Idealize.SL.Sem
open Idealize.ShloMosaic.Pipeline (Dat)
open Cert.ReadFold

variable (m : (ℓ : Loc nD τ sig) → Buf (Elt Ideal) ℓ)

/-! ## The input window's array at region entry, read at an index

The array is the argument cut to its first 255 rows, cast, padded by one row on top and sixteen batch rows below with the integer
zero converted, and re-laid (batch row 48·i + r, input row h) ↦ (block i, row h·48 + r). Each operation is read at an index,
outermost first. -/

/-- Block i, row h·48 + r: input row h − 1 of batch row 48·i + r; row h = 0 is the zero row on top, and the batch rows from 512 on are
    zero. -/
theorem V6_apply (c : Dev nD) (i : Fin 11) (h : Fin 256) (r : Fin 48) (d : Fin 128) (q : Fin 12288) (hq : q.val = h.val * 48 + r.val) :
    V m c main_v6 (ix3 i q d) = if hh : 1 ≤ h.val ∧ 48 * i.val + r.val < 512 then
      m ((c.tc : Thread nD τ).loc main_arg0) (ix4 (⟨48 * i.val + r.val, hh.2⟩ : Fin 512) (0 : Fin 1) (⟨h.val - 1, by have := h.isLt; omega⟩ : Fin 256) d) else (0 : EReal) := by
  have hi := i.isLt; have hh' := h.isLt; have hr := r.isLt; have hd := d.isLt
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  read_fold
  refine (shapeCast_apply _ _ (ix3 i q d) (ix4 i h r d) (by
    rw [Shape.rowMajor_val_four, Shape.rowMajor_val_three]
    show ((i.val * 256 + h.val) * 48 + r.val) * 128 + d.val = (i.val * 12288 + q.val) * 128 + d.val
    omega)).trans ?_
  refine (transpose_apply _ _ _ (ix4 i h r d) (ix4 i r h d) (fun b => match b with
    | ⟨0, _⟩ => rfl | ⟨1, _⟩ => rfl | ⟨2, _⟩ => rfl | ⟨3, _⟩ => rfl)).trans ?_
  have hb : i.val * 48 + r.val < 528 := by omega
  refine (shapeCast_apply _ _ (ix4 i r h d) (ix3 (⟨i.val * 48 + r.val, hb⟩ : Fin 528) h d) (by
    rw [Shape.rowMajor_val_three, Shape.rowMajor_val_four]
    show ((i.val * 48 + r.val) * 256 + h.val) * 128 + d.val = ((i.val * 48 + r.val) * 256 + h.val) * 128 + d.val
    rfl)).trans ?_
  by_cases hh : 1 ≤ h.val ∧ 48 * i.val + r.val < 512
  · rw [dif_pos hh]
    refine (pad_apply_of_inside (s := S512x255x128) (t := S528x256x128) ![0, 1, 0] ![16, 0, 0] ![0, 0, 0] _ _ pads_S512x255x128_S528x256x128_0160_100_000 h_S_ (ix3 (⟨i.val * 48 + r.val, hb⟩ : Fin 528) h d)
      (ix3 (⟨48 * i.val + r.val, hh.2⟩ : Fin 512) (⟨h.val - 1, by omega⟩ : Fin 255) d) (fun a => match a with
      | ⟨0, _⟩ => by show i.val * 48 + r.val = 0 + (48 * i.val + r.val) * (0 + 1); omega
      | ⟨1, _⟩ => by show h.val = 1 + (h.val - 1) * (0 + 1); omega
      | ⟨2, _⟩ => by show d.val = 0 + d.val * (0 + 1); omega)).trans ?_
    refine (truncf_apply (ψ := .bf16) _ bitsLt_bf16_f32 _).trans ?_
    refine (shapeCast_apply _ _ (ix3 (⟨48 * i.val + r.val, hh.2⟩ : Fin 512) (⟨h.val - 1, by omega⟩ : Fin 255) d)
      (ix4 (⟨48 * i.val + r.val, hh.2⟩ : Fin 512) (0 : Fin 1) (⟨h.val - 1, by omega⟩ : Fin 255) d) (by
      rw [Shape.rowMajor_val_four, Shape.rowMajor_val_three]
      show (((48 * i.val + r.val) * 1 + 0) * 255 + (h.val - 1)) * 128 + d.val = ((48 * i.val + r.val) * 255 + (h.val - 1)) * 128 + d.val
      omega)).trans ?_
    exact extractStridedSlice_apply _ _ _ (ix4 (⟨48 * i.val + r.val, hh.2⟩ : Fin 512) (0 : Fin 1) (⟨h.val - 1, by omega⟩ : Fin 255) d)
      (ix4 (⟨48 * i.val + r.val, hh.2⟩ : Fin 512) (0 : Fin 1) (⟨h.val - 1, by omega⟩ : Fin 256) d) (fun a => match a with
      | ⟨0, _⟩ => by show 48 * i.val + r.val = 0 + (48 * i.val + r.val); omega
      | ⟨1, _⟩ => by show 0 = 0 + 0; rfl
      | ⟨2, _⟩ => by show h.val - 1 = 0 + (h.val - 1); omega
      | ⟨3, _⟩ => by show d.val = 0 + d.val; omega)
  · rw [dif_neg hh]
    by_cases h1 : 1 ≤ h.val
    · refine (pad_apply_of_not_inside (s := S512x255x128) (t := S528x256x128) ![0, 1, 0] ![16, 0, 0] ![0, 0, 0] _ _ pads_S512x255x128_S528x256x128_0160_100_000 h_S_ (ix3 (⟨i.val * 48 + r.val, hb⟩ : Fin 528) h d) (0 : Fin 3) (fun hin => ?_)).trans ?_
      · have e : (i.val * 48 + r.val - 0) / (0 + 1) < 512 := hin.2.2
        omega
      · show ((((0#32 : BitVec 32).toInt : ℤ) : ℝ) : EReal) = 0
        simp
    · refine (pad_apply_of_not_inside (s := S512x255x128) (t := S528x256x128) ![0, 1, 0] ![16, 0, 0] ![0, 0, 0] _ _ pads_S512x255x128_S528x256x128_0160_100_000 h_S_ (ix3 (⟨i.val * 48 + r.val, hb⟩ : Fin 528) h d) (1 : Fin 3) (fun hin => ?_)).trans ?_
      · have e : 1 ≤ h.val := hin.1
        exact h1 e
      · show ((((0#32 : BitVec 32).toInt : ℤ) : ℝ) : EReal) = 0
        simp

/-! ## The blocks of the windows at a grid point

Point t of the eleven takes block t of the re-laid input; the weights and biases are taken whole at every point. -/

theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- The input window's block at point t is block t of an array of eleven blocks. -/
theorem read_blk0 (t : Fin cfg0.N) (A : FVec Ideal S11x12288x128 .bf16) (i : Fin 11) (hi : i.val = t.val) (q : Fin 12288) (d : Fin 128) :
    (((cfg0.win 0).blk t).view.read (Elt Ideal) A : FVec Ideal S1x12288x128 .bf16) (ix3 (0 : Fin 1) q d) = A (ix3 i q d) := by
  obtain ⟨e0, e1, e2, -⟩ := idx_facts t
  show A (((cfg0.win 0).blk t).view.emb (ix3 (0 : Fin 1) q d)) = A (ix3 i q d)
  refine congrArg A (funext fun a => Fin.ext ?_)
  match a with
  | ⟨0, _⟩ => show win0_0.index t (0 : Fin 3) * 1 + 1 * 0 = i.val; omega
  | ⟨1, _⟩ => show win0_0.index t (1 : Fin 3) * 12288 + 1 * q.val = q.val; omega
  | ⟨2, _⟩ => show win0_0.index t (2 : Fin 3) * 128 + 1 * d.val = d.val; omega

/-- A window whose one block is its whole array reads the array. -/
theorem read_blk1 (t : Fin cfg0.N) (A : FVec Ideal S5x128x128 .bf16) : ((cfg0.win 1).blk t).view.read (Elt Ideal) A = A := by
  obtain ⟨-, -, -, e0, e1, e2, -⟩ := idx_facts t
  funext j
  show A (((cfg0.win 1).blk t).view.emb j) = A j
  refine congrArg A (funext fun a => Fin.ext ?_)
  match a with
  | ⟨0, _⟩ => show win0_1.index t (0 : Fin 3) * 5 + 1 * (j 0).val = (j 0).val; omega
  | ⟨1, _⟩ => show win0_1.index t (1 : Fin 3) * 128 + 1 * (j 1).val = (j 1).val; omega
  | ⟨2, _⟩ => show win0_1.index t (2 : Fin 3) * 128 + 1 * (j 2).val = (j 2).val; omega

theorem read_blk2 (t : Fin cfg0.N) (A : FVec Ideal S1x128 .f32) : ((cfg0.win 2).blk t).view.read (Elt Ideal) A = A := by
  obtain ⟨-, -, -, -, -, -, e0, e1, -⟩ := idx_facts t
  funext j
  show A (((cfg0.win 2).blk t).view.emb j) = A j
  refine congrArg A (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem read_blk3 (t : Fin cfg0.N) (A : FVec Ideal S63x128x128 .bf16) : ((cfg0.win 3).blk t).view.read (Elt Ideal) A = A := by
  obtain ⟨-, -, -, -, -, -, -, -, e0, e1, e2, -⟩ := idx_facts t
  funext j
  show A (((cfg0.win 3).blk t).view.emb j) = A j
  refine congrArg A (funext fun a => Fin.ext ?_)
  match a with
  | ⟨0, _⟩ => show win0_3.index t (0 : Fin 3) * 63 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

theorem read_blk4 (t : Fin cfg0.N) (A : FVec Ideal S1x128 .f32) : ((cfg0.win 4).blk t).view.read (Elt Ideal) A = A := by
  obtain ⟨-, -, -, -, -, -, -, -, -, -, -, e0, e1⟩ := idx_facts t
  funext j
  show A (((cfg0.win 4).blk t).view.emb j) = A j
  refine congrArg A (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk0_apply (c : Dev nD) (t : Fin cfg0.N) (i : Fin 11) (hi : i.val = t.val) (q : Fin 12288) (d : Fin 128) :
    (iblk m c 0 t : FVec Ideal S1x12288x128 .bf16) (ix3 (0 : Fin 1) q d) = (V m c main_v6 : FVec Ideal S11x12288x128 .bf16) (ix3 i q d) := by
  unfold iblk
  exact read_blk0 t _ i hi q d

theorem iblk1_eq (c : Dev nD) (t : Fin cfg0.N) : (iblk m c 1 t : FVec Ideal S5x128x128 .bf16) = V m c main_v10 := by
  unfold iblk
  exact read_blk1 t _

theorem iblk2_eq (c : Dev nD) (t : Fin cfg0.N) : (iblk m c 2 t : FVec Ideal S1x128 .f32) = V m c main_v12 := by
  unfold iblk
  exact read_blk2 t _

theorem iblk3_eq (c : Dev nD) (t : Fin cfg0.N) : (iblk m c 3 t : FVec Ideal S63x128x128 .bf16) = V m c main_v16 := by
  unfold iblk
  exact read_blk3 t _

theorem iblk4_eq (c : Dev nD) (t : Fin cfg0.N) : (iblk m c 4 t : FVec Ideal S1x128 .f32) = V m c main_v18 := by
  unfold iblk
  exact read_blk4 t _

/-! ## The 528 × 128 result as one function of the five window arrays -/

/-- Row b of the result, class lane c: the logits of padded batch row b, whose input table sits in block b / 48 at the rows
    h·48 + b % 48, over the 128 class lanes. -/
def rowLogits (xb : FVec Ideal S11x12288x128 .bf16) (wc : FVec Ideal S5x128x128 .bf16) (bc : FVec Ideal S1x128 .f32)
    (wl : FVec Ideal S63x128x128 .bf16) (bl : FVec Ideal S1x128 .f32) (b : Fin 528) (c : Fin 128) : EReal :=
  Cert.TextCnn.logits
    (fun h d => if hh : h ≤ 255 then
      xb (ix3 (⟨b.val / 48, by have := b.isLt; omega⟩ : Fin 11) (⟨h * 48 + b.val % 48, by have := b.isLt; omega⟩ : Fin 12288) d) else 0)
    (fun k d f => wc (ix3 k d f)) (fun f => bc (ix2 (0 : Fin 1) f)) (fun j f c => wl (ix3 j f c)) (fun c => bl (ix2 (0 : Fin 1) c)) c

/-- The whole result array as the region leaves it, from the window arrays as the region finds them. -/
def G (m : (ℓ : Loc nD τ sig) → Buf (Elt Ideal) ℓ) (c : Dev nD) : S528x128.Idx → EReal :=
  fun i => rowLogits (V m c main_v6) (V m c main_v10) (V m c main_v12) (V m c main_v16) (V m c main_v18) (i 0) (i 1)

/-- The logits of block row r of a block that is block ti of the re-laid input are row ti·48 + r of the result. -/
theorem logits_block (xb : FVec Ideal S11x12288x128 .bf16) (wc : FVec Ideal S5x128x128 .bf16) (bc : FVec Ideal S1x128 .f32)
    (wl : FVec Ideal S63x128x128 .bf16) (bl : FVec Ideal S1x128 .f32)
    (x0 : Vec Ideal S1x12288x128 .bf16) (x1 : Vec Ideal S5x128x128 .bf16) (x2 : Vec Ideal S1x128 .f32)
    (x3 : Vec Ideal S63x128x128 .bf16) (x4 : Vec Ideal S1x128 .f32)
    (ti : Fin 11) (r : Fin 48) (b : Fin 528) (hb : b.val = ti.val * 48 + r.val)
    (h0 : ∀ q d, x0 (ix3 (0 : Fin 1) q d) = xb (ix3 ti q d)) (h1 : x1 = wc) (h2 : x2 = bc) (h3 : x3 = wl) (h4 : x4 = bl) (c : Fin 128) :
    Cert.TextCnn.logits (blockX x0 r) (fun k d f => x1 (ix3 k d f)) (fun f => x2 (ix2 (0 : Fin 1) f))
        (fun j f c => x3 (ix3 j f c)) (fun c => x4 (ix2 (0 : Fin 1) c)) c
      = rowLogits xb wc bc wl bl b c := by
  have hr := r.isLt; have hti := ti.isLt
  subst h1 h2 h3 h4
  unfold rowLogits
  have hX : blockX x0 r = fun h d => if hh : h ≤ 255 then
      xb (ix3 (⟨b.val / 48, by have := b.isLt; omega⟩ : Fin 11) (⟨h * 48 + b.val % 48, by have := b.isLt; omega⟩ : Fin 12288) d) else 0 := by
    funext h d
    unfold blockX
    by_cases hh : h ≤ 255
    · rw [dif_pos hh, dif_pos hh, h0]
      refine congrArg xb (funext fun a => ?_)
      match a with
      | ⟨0, _⟩ => exact Fin.ext (by show ti.val = b.val / 48; omega)
      | ⟨1, _⟩ => exact Fin.ext (by show h * 48 + r.val = h * 48 + b.val % 48; omega)
      | ⟨2, _⟩ => rfl
    · rw [dif_neg hh, dif_neg hh]
  rw [hX]

theorem G_apply (m : (ℓ : Loc nD τ sig) → Buf (Elt Ideal) ℓ) (c : Dev nD) (b : Fin 528) (cc : Fin 128) :
    G m c (ix2 b cc) = rowLogits (V m c main_v6) (V m c main_v10) (V m c main_v12) (V m c main_v16) (V m c main_v18) b cc := rfl

/-- The value the body stores at point t, at block row r and class lane cc, is row t·48 + r of the result. -/
theorem out_at (c : Dev nD) (t : Fin cfg0.N) (ht : t.val < 11) (r : Fin 48) (cc : Fin 128) :
    out0_5 (F := Ideal) (iblk m c 0 t) (iblk m c 1 t) (iblk m c 2 t) (iblk m c 3 t) (iblk m c 4 t) (ix2 r cc)
      = rowLogits (V m c main_v6) (V m c main_v10) (V m c main_v12) (V m c main_v16) (V m c main_v18)
          (⟨t.val * 48 + r.val, by have := r.isLt; omega⟩ : Fin 528) cc :=
  (out_apply (iblk m c 0 t) (iblk m c 1 t) (iblk m c 2 t) (iblk m c 3 t) (iblk m c 4 t) r cc).trans
    (logits_block (V m c main_v6) (V m c main_v10) (V m c main_v12) (V m c main_v16) (V m c main_v18)
      (iblk m c 0 t) (iblk m c 1 t) (iblk m c 2 t) (iblk m c 3 t) (iblk m c 4 t) (⟨t.val, ht⟩ : Fin 11) r
      (⟨t.val * 48 + r.val, by have := r.isLt; omega⟩ : Fin 528) rfl
      (fun q d => iblk0_apply m c t (⟨t.val, ht⟩ : Fin 11) rfl q d) (iblk1_eq m c t) (iblk2_eq m c t) (iblk3_eq m c t) (iblk4_eq m c t) cc)

/-- A block whose entry (r, cc) is entry (t·48 + r, cc) of one function of the whole array is block t of that function. -/
theorem flushed_core (t : Fin cfg0.N) (O : Vec Ideal S48x128 .f32) (Gf : S528x128.Idx → EReal)
    (h : ∀ (r : Fin 48) (cc : Fin 128) (b : Fin 528), b.val = t.val * 48 + r.val → O (ix2 r cc) = Gf (ix2 b cc)) :
    (cfg0.win 5).cut (grid0.coords t) O = ((cfg0.win 5).blk t).view.read (Elt Ideal) Gf := by
  have hN : cfg0.N = 11 := N_0
  have ht : t.val < 11 := hN ▸ t.isLt
  obtain ⟨e0, e1⟩ := idx5 t
  funext j
  have hj0 : (j 0).val < 48 := (j 0).isLt
  have hj1 : (j 1).val < 128 := (j 1).isLt
  have hj : j = ix2 (⟨(j 0).val, hj0⟩ : Fin 48) (⟨(j 1).val, hj1⟩ : Fin 128) :=
    funext fun a => by match a with | ⟨0, _⟩ => rfl | ⟨1, _⟩ => rfl
  have hemb : ((cfg0.win 5).blk t).view.emb j = ix2 (⟨t.val * 48 + (j 0).val, by omega⟩ : Fin 528) (⟨(j 1).val, hj1⟩ : Fin 128) := by
    funext a
    apply Fin.ext
    match a with
    | ⟨0, _⟩ => show win0_5.index t (0 : Fin 2) * 48 + 1 * (j 0).val = t.val * 48 + (j 0).val; omega
    | ⟨1, _⟩ => show win0_5.index t (1 : Fin 2) * 128 + 1 * (j 1).val = (j 1).val; omega
  show O j = Gf (((cfg0.win 5).blk t).view.emb j)
  rw [hemb]
  exact (congrArg O hj).trans (h _ _ _ rfl)

/-- What point t writes back is block t of the result function. -/
theorem flushed5_eq (m : (ℓ : Loc nD τ sig) → Buf (Elt Ideal) ℓ) (c : Dev nD) (t : Fin cfg0.N) :
    (dats m 0 c).flushed 5 t = ((cfg0.win 5).blk t).view.read (Elt Ideal) (G m c) := by
  have hN : cfg0.N = 11 := N_0
  have ht : t.val < 11 := hN ▸ t.isLt
  show (cfg0.win 5).cut (grid0.coords t) ((dats m 0 c).after 5 t) = _
  rw [after0_5]
  exact flushed_core t _ (G m c) fun r cc b hb =>
    (out_at m c t ht r cc).trans ((congrArg (fun b' => rowLogits (V m c main_v6) (V m c main_v10) (V m c main_v12) (V m c main_v16) (V m c main_v18) b' cc)
      (Fin.ext hb.symm : (⟨t.val * 48 + r.val, by have := r.isLt; omega⟩ : Fin 528) = b)).trans (G_apply m c b cc).symm)

/-! ## Rows below 512, lanes below 16: the specification

For a batch row b < 512 the input table read off block b / 48 is the specification's on the rows 0 … 255 (the zero row on top, then
rows 0 … 254 of the input), which are all the rows the logits read; the class lane c < 16 reads the unpadded linear weights and bias. -/

/-- Row h ≤ 255 of batch row b < 512 in the input window's array: the zero row for h = 0, else row h − 1 of the input. -/
theorem V6_row (c : Dev nD) (b : Fin 512) (b' : Fin 528) (hb' : b'.val = b.val) (h : ℕ) (hh : h ≤ 255) (d : Fin 128) :
    (V m c main_v6 : FVec Ideal S11x12288x128 .bf16)
        (ix3 (⟨b'.val / 48, by have := b'.isLt; omega⟩ : Fin 11) (⟨h * 48 + b'.val % 48, by have := b'.isLt; omega⟩ : Fin 12288) d)
      = if h1 : 1 ≤ h ∧ h ≤ 255 then
          (m ((c.tc : Thread nD τ).loc main_arg0) : FVec Ideal S512x1x256x128 .f32) (ix4 b (0 : Fin 1) (⟨h - 1, by omega⟩ : Fin 256) d)
        else (0 : EReal) := by
  have hbl := b.isLt
  have hbl' := b'.isLt
  have e : (V m c main_v6 : FVec Ideal S11x12288x128 .bf16)
        (ix3 (⟨b'.val / 48, by omega⟩ : Fin 11) (⟨h * 48 + b'.val % 48, by omega⟩ : Fin 12288) d)
      = if hc : 1 ≤ h ∧ 48 * (b'.val / 48) + b'.val % 48 < 512 then
          (m ((c.tc : Thread nD τ).loc main_arg0) : FVec Ideal S512x1x256x128 .f32)
            (ix4 (⟨48 * (b'.val / 48) + b'.val % 48, hc.2⟩ : Fin 512) (0 : Fin 1) (⟨h - 1, by omega⟩ : Fin 256) d)
        else (0 : EReal) :=
    V6_apply m c (⟨b'.val / 48, by omega⟩ : Fin 11) (⟨h, by omega⟩ : Fin 256) (⟨b'.val % 48, by omega⟩ : Fin 48) d
      (⟨h * 48 + b'.val % 48, by omega⟩ : Fin 12288) rfl
  rw [e]
  by_cases h1 : 1 ≤ h
  · rw [dif_pos (And.intro h1 (by omega : 48 * (b'.val / 48) + b'.val % 48 < 512)), dif_pos (And.intro h1 hh)]
    refine congrArg (m ((c.tc : Thread nD τ).loc main_arg0)) (funext fun a => ?_)
    match a with
    | ⟨0, _⟩ => exact Fin.ext (by show 48 * (b'.val / 48) + b'.val % 48 = b.val; omega)
    | ⟨1, _⟩ => rfl
    | ⟨2, _⟩ => rfl
    | ⟨3, _⟩ => rfl
  · rw [dif_neg (not_and_of_not_left _ h1)]
    rw [dif_neg (not_and_of_not_left _ h1)]

/-- The specification at an entry, its index split into batch row and class. -/
theorem specOut_apply (x : (⟨4, ![512, 1, 256, 128]⟩ : Shape).Idx → EReal) (cw : (⟨4, ![128, 1, 5, 128]⟩ : Shape).Idx → EReal)
    (cb : (⟨1, ![128]⟩ : Shape).Idx → EReal) (lw : (⟨2, ![16, 8064]⟩ : Shape).Idx → EReal) (lb : (⟨1, ![16]⟩ : Shape).Idx → EReal)
    (b : Fin 512) (cc : Fin 16) :
    Cert.TextCnn.specOut x cw cb lw lb (ix2 b cc) = Cert.TextCnn.logits
      (fun h d => if hh : 1 ≤ h ∧ h ≤ 255 then x (ix4 b (0 : Fin 1) (⟨h - 1, by omega⟩ : Fin 256) d) else 0)
      (fun k d f => cw (ix4 f (0 : Fin 1) k d)) (fun f => cb (ix1 f))
      (fun j f c => lw (ix2 c (⟨f.val * 63 + j.val, by have := f.isLt; have := j.isLt; omega⟩ : Fin 8064))) (fun c => lb (ix1 c)) cc := rfl

/-- Two logits agree when the input tables agree on the rows read, the convolution weights and bias are the same, and the one
    class read has the same linear weights and bias. -/
theorem logits_eq_of {n n' : ℕ} {X X' : ℕ → Fin 128 → EReal} {Wc Wc' : Fin 5 → Fin 128 → Fin 128 → EReal} {bc bc' : Fin 128 → EReal}
    {Wl : Fin 63 → Fin 128 → Fin n → EReal} {bl : Fin n → EReal} {Wl' : Fin 63 → Fin 128 → Fin n' → EReal} {bl' : Fin n' → EReal}
    (c : Fin n) (c' : Fin n') (hX : ∀ r, r ≤ 255 → X r = X' r) (hWc : Wc = Wc') (hbc : bc = bc')
    (hW : ∀ j f, Wl j f c = Wl' j f c') (hb : bl c = bl' c') :
    Cert.TextCnn.logits X Wc bc Wl bl c = Cert.TextCnn.logits X' Wc' bc' Wl' bl' c' := by
  subst hWc hbc
  exact (Cert.TextCnn.logits_congr hX _ _ _ _ _).trans (Cert.TextCnn.logits_class_congr X' Wc bc Wl' bl' Wl bl c' c hW hb)

/-- Row b < 512, lane cc < 16 of the result function is the specification's entry (b, cc). -/
theorem G_spec (m : (ℓ : Loc nD τ sig) → Buf (Elt Ideal) ℓ) (c : Dev nD) (b : Fin 512) (cc : Fin 16) :
    G m c (ix2 (⟨b.val, Nat.lt_of_lt_of_le b.isLt (by decide)⟩ : Fin 528) (⟨cc.val, Nat.lt_of_lt_of_le cc.isLt (by decide)⟩ : Fin 128))
      = Cert.TextCnn.specOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 b cc) := by
  rw [specOut_apply, G_apply]
  unfold rowLogits
  refine logits_eq_of (⟨cc.val, Nat.lt_of_lt_of_le cc.isLt (by decide)⟩ : Fin 128) cc (fun h hh => funext fun d => ?_)
    (funext fun k => funext fun d => funext fun f => V_v10_apply m c k d f) (funext fun f => V_v12_apply m c f)
    (fun j f => V_v16_apply m c j f cc) (V_v18_apply m c cc)
  beta_reduce
  rw [dif_pos hh]
  exact V6_row m c b (⟨b.val, Nat.lt_of_lt_of_le b.isLt (by decide)⟩ : Fin 528) rfl h hh d

/-! ## The run -/

/-- The reference, run from any memory, ends with its result array at the specification's function of its five argument arrays, and the
    arguments as they were. -/
theorem run_spec : Cert.Proof.ReferenceRunsToSpec := run_spec_of G flushed5_eq G_spec

end Cert.ReferenceIdeal.RefValue

end
-- ==== Proof.lean ====
/-
  A text-CNN forward pass: a full-width five-tap convolution over 256 rows (one zero row of padding on top), bias, ReLU, a
  max-pool over groups of four conv rows, and a linear layer over the 63 × 128 pooled features, for 512 batch rows and 16
  classes. The kernel runs four batch tiles of 128 rows; it forms all five taps by ONE matrix product of three row-shifted
  copies of the input block against a packed 384 × 256 weight (whose lower-left block is zero), adds bias and clamps AFTER
  the pool, and contracts the 8064 pooled features in one product. The reference runs eleven tiles of 48 rows (the batch
  padded to 528), adds five per-tap products, clamps before the pool and accumulates 63 small products, with its class axis
  padded to 128 lanes and sliced back. Over the extended reals both are one function of the arguments (`Cert.TextCnn.specOut`):
  sums are only re-grouped, a product with the zero block vanishes, and bias and clamp commute with a maximum; no finiteness
  of the inputs is used.

  The three frames: the kernel's at both instances is the module `KernelRegion` / `KernelIdealRegion` (the body's triple,
  the pipeline's proof data and the frame run); the reference's is generated. The idealization rewrote nothing.
-/
import proofs.«128919_g2000302331999779_pallasbulk_1131_18_alg».proof.Defs
import proofs.«128919_g2000302331999779_pallasbulk_1131_18_alg».proof.Proof.Gen.Kernel
import proofs.«128919_g2000302331999779_pallasbulk_1131_18_alg».proof.Proof.Gen.KernelIdeal
import proofs.«128919_g2000302331999779_pallasbulk_1131_18_alg».proof.Proof.Gen.ReferenceIdeal
import proofs.«128919_g2000302331999779_pallasbulk_1131_18_alg».proof.Proof.Gen.ReferenceIdeal.Frame
import proofs.«128919_g2000302331999779_pallasbulk_1131_18_alg».proof.Proof.Gen.Pre_finite_inputs
import proofs.«128919_g2000302331999779_pallasbulk_1131_18_alg».proof.Proof.KernelRegion
import proofs.«128919_g2000302331999779_pallasbulk_1131_18_alg».proof.Proof.KernelIdealRegion
import proofs.«128919_g2000302331999779_pallasbulk_1131_18_alg».proof.Proof.KernelIdealValue
import proofs.«128919_g2000302331999779_pallasbulk_1131_18_alg».proof.Proof.ReferenceIdealValue
import proofs.«128919_g2000302331999779_pallasbulk_1131_18_alg».proof.Proof.Assembly
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Region.frame m ρ

theorem frame_ki : @Cert.frame_KernelIdeal Cert.KernelIdeal.Gen.facts Cert.Pre_finite_inputs.Gen.facts :=
  fun m ρ _ => Cert.KernelIdeal.Region.frame m ρ

theorem frame_ri : @Cert.frame_ReferenceIdeal Cert.ReferenceIdeal.Gen.facts Cert.Pre_finite_inputs.Gen.facts :=
  fun m ρ _ => Cert.ReferenceIdeal.Gen.frame m ρ

theorem preserves : Cert.preserves_Kernel_KernelIdeal := trivial

theorem algebraic : @Cert.algebraic_KernelIdeal_ReferenceIdeal Cert.KernelIdeal.Gen.facts Cert.ReferenceIdeal.Gen.facts Cert.Pre_finite_inputs.Gen.facts :=
  algebraic_of Cert.KernelIdeal.Region.run_spec Cert.ReferenceIdeal.RefValue.run_spec

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
